-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x4096 : Shape := ⟨2, ![4096, 4096]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part2 {F : FTy → Type} [FloatOps F] (main_v28 : IVec S_ 1) (main_v33 : IVec S_ 1) : IVec S_ 1 :=
  let main_v34 : IVec S_ 1 := andi main_v28 main_v33
  main_v34

def fn_part1 {F : FTy → Type} [FloatOps F] (main_arg3 : FVec F S4096x4096 .f32) (main_arg4 : FVec F S4096x4096 .f32) (main_arg5 : FVec F S4096x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096x4096 .f32 := addf main_arg3 main_arg4
  let main_v30 : FVec F S4096x4096 .f32 := addf main_v29 main_arg5
  let main_cst_10 : FVec F S_ .f32 := constant S_ .f32 0x00000000#32
  let main_v31 : FVec F S4096x4096 .f32 := broadcastInDim S4096x4096 ![] bcast_S_S4096x4096 main_cst_10
  let main_v32 : IVec S4096x4096 1 := cmpf .une main_v30 main_v31
  let main_c_11 : IVec S_ 1 := constantI S_ 1 1#1
  let main_v33 : IVec S_ 1 := (fun x v => Host.reduce IntOp.andi x v reducesTo_S4096x4096_S_d0_1 h_S_) main_v32 main_c_11
  fn_part2 (F := F) main_v28 main_v33

def fn {F : FTy → Type} [FloatOps F] (main_arg0 : FVec F S4096x64 .f32) (main_arg1 : FVec F S4096x4096 .f32) (main_arg2 : FVec F S4096x4096 .f32) (main_arg3 : FVec F S4096x4096 .f32) (main_arg4 : FVec F S4096x4096 .f32) (main_arg5 : FVec F S4096x4096 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg3 main_arg4 main_arg5 main_v13 main_v16
-- ==== Kernel.lean ====
abbrev S4096x64 : Shape := ⟨2, ![4096, 64]⟩
abbrev S4096x4096 : Shape := ⟨2, ![4096, 4096]⟩
abbrev S512x4096 : Shape := ⟨2, ![512, 4096]⟩
abbrev S512x64 : Shape := ⟨2, ![512, 64]⟩
abbrev S128x4096 : Shape := ⟨2, ![128, 4096]⟩
abbrev S128x64 : Shape := ⟨2, ![128, 64]⟩

abbrev nBuf : Space → Nat
  | .hbm => 9
  | .vmem => 26
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x64, .bf16⟩
  | .hbm, ⟨8, _⟩ => ⟨S4096x64, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S4096x64, .f32⟩
  | .local _ .vmem, ⟨5, _⟩ => ⟨S512x64, .f32⟩
  | .local _ .vmem, ⟨6, _⟩ => ⟨S512x64, .f32⟩
  | .local _ .vmem, ⟨7, _⟩ => ⟨S512x4096, .bf16⟩
  | .local _ .vmem, ⟨8, _⟩ => ⟨S512x4096, .bf16⟩
  | .local _ .vmem, ⟨9, _⟩ => ⟨S4096x64, .bf16⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | .local _ .vmem, ⟨16, _⟩ => ⟨S128x4096, .bf16⟩
  | .local _ .vmem, ⟨17, _⟩ => ⟨S128x4096, .bf16⟩
  | .local _ .vmem, ⟨18, _⟩ => ⟨S4096x64, .bf16⟩
  | .local _ .vmem, ⟨19, _⟩ => ⟨S128x64, .f32⟩
  | .local _ .vmem, ⟨20, _⟩ => ⟨S128x64, .f32⟩
  | .local _ .vmem, ⟨21, _⟩ => ⟨S4096x64, .f32⟩
  | .local _ .vmem, ⟨22, _⟩ => ⟨S4096x4096, .bf16⟩
  | .local _ .vmem, ⟨23, _⟩ => ⟨S4096x64, .f32⟩
  | .local _ .vmem, ⟨24, _⟩ => ⟨S4096x64, .bf16⟩
  | .local _ .vmem, ⟨25, _⟩ => ⟨S4096x64, .bf16⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc1_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem5_1 : DmaSem sig := 20
abbrev cc1_sem6_0 : DmaSem sig := 21

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v14 : BitVec 32 := Scalar.muli arg0 c512_i32
  let v15 : Index := Scalar.indexCast v14
  let c0_11 : Index := 0#32
  ![v15.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4096x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![3, 32], ![false, false]⟩

def k1_cond1 (i : grid1.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k1_off1 (i : grid1.Coords) : Fin 2 → Nat :=
  let arg1 : BitVec 32 := BitVec.ofNat 32 (i 1).val
  let c128_i32 : BitVec 32 := 128#32
  let v0 : BitVec 32 := Scalar.muli arg1 c128_i32
  let v22 : Index := Scalar.indexCast v0
  let c0_10 : Index := 0#32
  ![v22.toNat, 0]
def k1_off2 (i : grid1.Coords) : Fin 2 → Nat :=
  let arg1 : BitVec 32 := BitVec.ofNat 32 (i 1).val
  let c128_i32 : BitVec 32 := 128#32
  let v0 : BitVec 32 := Scalar.muli arg1 c128_i32
  let v33 : Index := Scalar.indexCast v0
  let c0_17 : Index := 0#32
  ![v33.toNat, 0]
def k1_cond2 (i : grid1.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k1_off3 (i : grid1.Coords) : Fin 2 → Nat :=
  let arg1 : BitVec 32 := BitVec.ofNat 32 (i 1).val
  let c128_i32 : BitVec 32 := 128#32
  let v0 : BitVec 32 := Scalar.muli arg1 c128_i32
  let v17 : Index := Scalar.indexCast v0
  let c0_8 : Index := 0#32
  ![v17.toNat, 0]
def k1_cond3 (i : grid1.Coords) : BitVec 1 :=
  let arg0 : BitVec 32 := BitVec.ofNat 32 (i 0).val
  let c2_i32 : BitVec 32 := 2#32
  let v7 : BitVec 1 := Scalar.cmpi .eq arg0 c2_i32
  let v8 : BitVec 32 := Scalar.extui v7
  let c0_i32_2 : BitVec 32 := 0#32
  let v9 : BitVec 1 := Scalar.cmpi .ne v8 c0_i32_2
  v9

def k1_off4 (i : grid1.Coords) : Fin 2 → Nat :=
  let arg1 : BitVec 32 := BitVec.ofNat 32 (i 1).val
  let c128_i32 : BitVec 32 := 128#32
  let v0 : BitVec 32 := Scalar.muli arg1 c128_i32
  let v10 : Index := Scalar.indexCast v0
  let c0 : Index := 0#32
  ![v10.toNat, 0]
def k1_off5 (i : grid1.Coords) : Fin 2 → Nat :=
  let arg1 : BitVec 32 := BitVec.ofNat 32 (i 1).val
  let c128_i32 : BitVec 32 := 128#32
  let v0 : BitVec 32 := Scalar.muli arg1 c128_i32
  let v14 : Index := Scalar.indexCast v0
  let c0_3 : Index := 0#32
  ![v14.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c31_i32 : BitVec 32 := 31#32
  let v1 : BitVec 32 := Scalar.select v0 arg1 c31_i32
  let c0_i32_0 : BitVec 32 := 0#32
  let c0_i32_1 : BitVec 32 := 0#32
  ![v1.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c31_i32 : BitVec 32 := 31#32
  let v1 : BitVec 32 := Scalar.select v0 arg1 c31_i32
  let c0_i32_0 : BitVec 32 := 0#32
  let c0_i32_1 : BitVec 32 := 0#32
  ![v1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c31_i32 : BitVec 32 := 31#32
  let v1 : BitVec 32 := Scalar.select v0 arg1 c31_i32
  let c0_i32_0 : BitVec 32 := 0#32
  let c0_i32_1 : BitVec 32 := 0#32
  ![v1.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 1 := Scalar.cmpi .eq arg0 c1_i32
  let c31_i32 : BitVec 32 := 31#32
  let v2 : BitVec 32 := Scalar.select v1 arg1 c31_i32
  let c0_i32_0 : BitVec 32 := 0#32
  let v3 : BitVec 32 := Scalar.select v0 c0_i32_0 v2
  let c0_i32_1 : BitVec 32 := 0#32
  let c0_i32_2 : BitVec 32 := 0#32
  ![v3.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S4096x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S128x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 1 → Memref sig .tc .vmem S4096x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S4096x64_S4096x64_0_0 : ∀ a, (![0, 0] : Fin 2 → Nat) a + S4096x64.size a ≤ S4096x64.size a
  h_S4096x64 : 0 < S4096x64.numel
  inb_S512x64_S512x64_0_0 : ∀ a, (![0, 0] : Fin 2 → Nat) a + S512x64.size a ≤ S512x64.size a
  h_S512x64 : 0 < S512x64.numel
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S128x64_S128x64_0_0 : ∀ a, (![0, 0] : Fin 2 → Nat) a + S128x64.size a ≤ S128x64.size a
  h_S128x64 : 0 < S128x64.numel
  shapeCasts_S4096x64_S4096x64 : S4096x64.ShapeCasts S4096x64
  shapeCasts_S128x64_S128x64 : S128x64.ShapeCasts S128x64
  dot_S512x4096_S4096x64_S512x64_1_0_0_1_n_n_wf : DotDims.WF S512x4096 S4096x64 S512x64 [1] [0] [0] [1] [] []
  dot_S128x4096_S4096x64_S128x64_1_0_0_1_n_n_wf : DotDims.WF S128x4096 S4096x64 S128x64 [1] [0] [0] [1] [] []
  hrank0 : 0 < grid0.rank
  k0_off1_inb : ∀ i : grid0.Coords, ∀ a, (k0_off1 i) a + S512x64.size a ≤ S4096x64.size a
  k0_off1_packedbf16 : ∀ i : grid0.Coords, (Rect.unit (s := S4096x64) (k0_off1 i) S512x64.size (k0_off1_inb i)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .f32 = 32 ∨ (Rect.block (s := S4096x64) S4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S4096x64.size a
  hwx0_3 : ∀ i : grid0.Coords, EltTy.bits .f32 = 32 ∨ (Rect.block (s := S4096x64) S512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S4096x4096.size a
  hwx0_4 : ∀ i : grid0.Coords, EltTy.bits .bf16 = 32 ∨ (Rect.block (s := S4096x4096) S512x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x64.size a ≤ S4096x64.size a
  hwx0_5 : ∀ i : grid0.Coords, EltTy.bits .bf16 = 32 ∨ (Rect.block (s := S4096x64) S4096x64.size (cc0_transform_5 i) (hinb0_5 i)).WholeWords (EltTy.packing .bf16)
  hrank1 : 0 < grid1.rank
  k1_off1_inb : ∀ i : grid1.Coords, ∀ (k1_h1 : k1_cond1 i = 1#1), ∀ a, (k1_off1 i) a + S128x4096.size a ≤ S4096x4096.size a
  k1_off1_packedbf16 : ∀ i : grid1.Coords, ∀ (k1_h1 : k1_cond1 i = 1#1), (Rect.unit (s := S4096x4096) (k1_off1 i) S128x4096.size (k1_off1_inb i k1_h1)).PackedRows (EltTy.packing .bf16)
  k1_off2_inb : ∀ i : grid1.Coords, ∀ (k1_h1 : k1_cond1 i = 1#1), ∀ a, (k1_off2 i) a + S128x64.size a ≤ S4096x64.size a
  k1_off2_packedbf16 : ∀ i : grid1.Coords, ∀ (k1_h1 : k1_cond1 i = 1#1), (Rect.unit (s := S4096x64) (k1_off2 i) S128x64.size (k1_off2_inb i k1_h1)).PackedRows (EltTy.packing .bf16)
  k1_off3_inb : ∀ i : grid1.Coords, ∀ (k1_h2 : k1_cond2 i = 1#1), ∀ a, (k1_off3 i) a + S128x64.size a ≤ S4096x64.size a
  k1_off3_packedbf16 : ∀ i : grid1.Coords, ∀ (k1_h2 : k1_cond2 i = 1#1), (Rect.unit (s := S4096x64) (k1_off3 i) S128x64.size (k1_off3_inb i k1_h2)).PackedRows (EltTy.packing .bf16)
  k1_off4_inb : ∀ i : grid1.Coords, ∀ (k1_h3 : k1_cond3 i = 1#1), ∀ a, (k1_off4 i) a + S128x64.size a ≤ S4096x64.size a
  k1_off5_inb : ∀ i : grid1.Coords, ∀ (k1_h3 : k1_cond3 i = 1#1), ∀ a, (k1_off5 i) a + S128x4096.size a ≤ S4096x4096.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S4096x4096.size a
  hwx1_0 : ∀ i : grid1.Coords, EltTy.bits .f32 = 32 ∨ (Rect.block (s := S4096x4096) S128x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x4096.size a ≤ S4096x4096.size a
  hwx1_1 : ∀ i : grid1.Coords, EltTy.bits .f32 = 32 ∨ (Rect.block (s := S4096x4096) S128x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x4096.size a ≤ S4096x4096.size a
  hwx1_2 : ∀ i : grid1.Coords, EltTy.bits .f32 = 32 ∨ (Rect.block (s := S4096x4096) S128x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4096.size a ≤ S4096x4096.size a
  hwx1_3 : ∀ i : grid1.Coords, EltTy.bits .bf16 = 32 ∨ (Rect.block (s := S4096x4096) S128x4096.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096x64.size a ≤ S4096x64.size a
  hwx1_4 : ∀ i : grid1.Coords, EltTy.bits .bf16 = 32 ∨ (Rect.block (s := S4096x64) S4096x64.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S4096x64.size a
  hwx1_5 : ∀ i : grid1.Coords, EltTy.bits .f32 = 32 ∨ (Rect.block (s := S4096x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4096x64.size a ≤ S4096x64.size a
  hwx1_6 : ∀ i : grid1.Coords, EltTy.bits .f32 = 32 ∨ (Rect.block (s := S4096x64) S4096x64.size (cc1_transform_6 i) (hinb1_6 i)).WholeWords (EltTy.packing .f32)

variable [Facts₀]

def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S128x4096_S4096x64_S128x64_1_0_0_1_n_n : DotDims S128x4096 S4096x64 S128x64 where
  lhsContracting := [1]
  rhsContracting := [0]
  lhsNonContracting := [0]
  rhsNonContracting := [1]
  lhsBatch := []
  rhsBatch := []
  wf := dot_S128x4096_S4096x64_S128x64_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S512x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S512x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S4096x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg3) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S128x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_1) S4096x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg0) S128x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1) S4096x64.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond3 i == 1#1) | ⟨_ + 7, h⟩ => absurd h (Nat.not_lt.2 (Nat.le_add_left _ _))

class Facts : Prop extends Facts₀ where

variable [Facts]
-- ==== ReferenceIdeal.lean ====
abbrev S4096x64 : Shape := ⟨2, ![4096, 64]⟩
abbrev S4096x4096 : Shape := ⟨2, ![4096, 4096]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x64, .f32⟩
  | .hbm, ⟨18, _⟩ => ⟨S4096x64, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x64, .f32⟩
  | .hbm, ⟨23, _⟩ => ⟨S4096x64, .f32⟩
  | .hbm, ⟨24, _⟩ => ⟨S_, .f32⟩
  | .hbm, ⟨25, _⟩ => ⟨S4096x64, .f32⟩
  | .hbm, ⟨26, _⟩ => ⟨S4096x64, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x64, .f32⟩
  | .hbm, ⟨34, _⟩ => ⟨S4096x64, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x64, .f32⟩
  | .hbm, ⟨39, _⟩ => ⟨S4096x64, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S4096x64, .f32⟩
  | .hbm, ⟨44, _⟩ => ⟨S4096x64, .f32⟩
  | .hbm, ⟨45, _⟩ => ⟨S_, .f32⟩
  | .hbm, ⟨46, _⟩ => ⟨S4096x64, .f32⟩
  | .hbm, ⟨47, _⟩ => ⟨S4096x64, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S4096x64, .f32⟩
  | .hbm, ⟨55, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_cst_10 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096x64 : S_.BroadcastsInDim S4096x64 (![] : Fin 0 → Fin S4096x64.rank)
  dot_S4096x4096_S4096x64_S4096x64_1_0_0_1_n_n_wf : DotDims.WF S4096x4096 S4096x64 S4096x64 [1] [0] [0] [1] [] []

variable [Facts₀]

def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.Rows.lean ====
/-
  A store of whole rows into a matrix, as a relation between the matrix before and after.

  `RowsUpd o P Y X` says that `X` is `Y` with the rows `[o, o + W)` replaced by the `W`-row matrix `P`:
  inside those rows `X` reads `P` (row `o + r`, column `k` reads `P` at `(r, k)`), outside them `X` reads `Y`.
  A buffer after one store of whole rows stands in this relation to the buffer before it.
-/
import Idealize.ShloMosaic.Lib.WritesUnit

noncomputable section

namespace Cert.GraphConv

open Idealize.ShloMosaic

/-- `X` is `Y` with the rows `[o, o + W)` replaced by `P`. -/
def RowsUpd {R C W : ℕ} {α : Type} (o : ℕ) (P : (⟨2, ![W, C]⟩ : Shape).Idx → α)
    (Y X : (⟨2, ![R, C]⟩ : Shape).Idx → α) : Prop :=
  (∀ (x : (⟨2, ![W, C]⟩ : Shape).Idx) (y : (⟨2, ![R, C]⟩ : Shape).Idx),
      (y (0 : Fin 2)).val = o + (x (0 : Fin 2)).val → (y (1 : Fin 2)).val = (x (1 : Fin 2)).val → X y = P x)
    ∧ ∀ y : (⟨2, ![R, C]⟩ : Shape).Idx, ((y (0 : Fin 2)).val < o ∨ o + W ≤ (y (0 : Fin 2)).val) → X y = Y y

/-- Reading a buffer after one store of the rows `[o, o + W)` (every column) relates to reading it before. -/
theorem rowsUpd_of_writes {sig : RefSig} {κ : Kind} {sp : Space} {e : EltTy} {Val : EltTy → Type} {R C W : ℕ}
    (v : View sig κ sp (⟨2, ![R, C]⟩ : Shape) e) (f : v.ty.Contents Val) {off : Fin 2 → ℕ} {o : ℕ}
    (inb : ∀ a : Fin 2, off a + (![W, C] : Fin 2 → ℕ) a ≤ (![R, C] : Fin 2 → ℕ) a)
    (w : (Rect.unit (s := ⟨2, ![R, C]⟩) off ![W, C] inb).shape.Idx → Val e) (hoff : off = ![o, 0]) :
    RowsUpd (R := R) (C := C) (W := W) o w (v.read Val f)
      (v.read Val (v.writes Val f [(⟨Rect.unit (s := ⟨2, ![R, C]⟩) off ![W, C] inb, w⟩ : View.Piece Val (⟨2, ![R, C]⟩ : Shape) e)])) :=
  ⟨fun x y h0 h1 => View.read_writes_cons_rows_of_mem v f inb w [] y x hoff h0 h1,
   fun y h => (View.read_writes_cons_rows_of_not_mem v f inb w [] y hoff rfl h).trans (by rw [View.writes_nil])⟩

end Cert.GraphConv

end
-- ==== Proof.Forms0.lean ====
import proofs.«141685_g10428180595104_week1_w2_90_17_alg».proof.Proof.Gen.KernelIdeal.Launch
import proofs.«141685_g10428180595104_week1_w2_90_17_alg».proof.Proof.Gen.KernelIdeal.Skeleton
import proofs.«141685_g10428180595104_week1_w2_90_17_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Rows

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Cert.GraphConv

/-! # The first kernel region: S = 1·A_beta + 1·A_gamma block by block, and S · X + X into one carried output

The region's grid has 8 points; point `t` handles the rows `[512 t, 512 t + 512)`. Its windows: 0 and 1 the row blocks of the
two adjacency matrices, 2 the whole of X, 3 the row block of X (windows 2 and 3 read ONE array), 4 the row block of the
summed matrix (written back at every point), 5 the whole product (its staging buffer kept across the points, each point
storing its 512 rows, written back once at the end). -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangles the body loads and stores through: whole blocks, and the point's 512 rows of the carried output. -/
abbrev rW0 : Rect S512x4096 := Rect.unit (s := S512x4096) ![0, 0] S512x4096.size inb_S512x4096_S512x4096_0_0
abbrev rX0 : Rect S4096x64 := Rect.unit (s := S4096x64) ![0, 0] S4096x64.size inb_S4096x64_S4096x64_0_0
abbrev rB0 : Rect S512x64 := Rect.unit (s := S512x64) ![0, 0] S512x64.size inb_S512x64_S512x64_0_0

/-- The summed block the body stores at point `t`, and the 512 rows of the product it stores there. -/
def sBlk0 (c : Dev nD) (t : Fin cfg0.N) : FVec F S512x4096 .bf16 :=
  k0_pay2 (View.ld (iblk0 V c 0 t) rW0) (View.ld (iblk0 V c 1 t) rW0)
def yBlk0 (c : Dev nD) (t : Fin cfg0.N) : FVec F S512x64 .bf16 :=
  k0_pay3 (View.ld (iblk0 V c 0 t) rW0) (View.ld (iblk0 V c 1 t) rW0) (View.ld (iblk0 V c 2 t) rX0) (View.ld (iblk0 V c 3 t) rB0)

/-- The region's proof data: the inputs' buffers are left as found; output 4's holds the summed block; output 5's holds what
    it held with the point's 512 rows replaced. The two windows that read X hold half of its buffer each. -/
def rd0 (c : Dev nD) : RDat τ (Elt F) Unit ℕ (UR sig nD τ) ℕ cfg0 c where
  A w := V c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => X = View.canon [⟨rW0, sBlk0 V c t⟩]
    | ⟨5, _⟩ => fun Y X => RowsUpd (R := 4096) (C := 64) (W := 512) (512 * t.val) (yBlk0 V c t) Y X
  Φ _ := Pipeline.ΦA spec0 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

end Cert.KernelIdeal.Hand

end
-- ==== Proof.Body0.lean ====
import proofs.«141685_g10428180595104_week1_w2_90_17_alg».proof.Proof.Gen.KernelIdeal.Launch
import proofs.«141685_g10428180595104_week1_w2_90_17_alg».proof.Proof.Gen.KernelIdeal.Skeleton
import proofs.«141685_g10428180595104_week1_w2_90_17_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Forms0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Cert.GraphConv

/-! # The first kernel's body: its triple on any staging memrefs, and the body obligation -/

variable (V : (c : Dev nD) → (b : Ref sig .tc) → Buf (Elt F) ((c : Thread nD τ).loc b))

/-- The one store into output 4's buffer covers it. -/
theorem cover0_4 (p0 : Vec F S512x4096 .bf16) (y : S512x4096.Idx) :
    ∃ pc ∈ ([⟨rW0, p0⟩] : List (View.Piece (Elt F) S512x4096 .bf16)), y ∈ pc.1.set :=
  View.cover_of_tiled [⟨rW0, p0⟩] S512x4096.size (by rfl) y

/-- The row offset of the point's store into the carried output: 512 times the point. -/
theorem hoff0 : ∀ t : Fin cfg0.N, k0_off1 (grid0.coords t) = ![512 * t.val, 0] :=
  (by decide +kernel : ∀ t : Fin grid0.N, k0_off1 (grid0.coords t) = ![512 * t.val, 0])

set_option maxHeartbeats 2000000 in
/-- The body on whole staging memrefs: the four inputs' buffers at contents `x·` are left as they are, output 4's buffer ends at
    the summed block, and output 5's buffer, handed at `d5`, ends at `d5` with the rows `[o, o + 512)` replaced by the point's rows of
    the product. -/
theorem sound_kernel0 (c : Dev nD) (E : Set ℕ) (i : grid0.Coords)
    (arg1 : Memref sig .tc .vmem S512x4096 .f32) (harg1 : arg1.IsWhole) (arg2 : Memref sig .tc .vmem S512x4096 .f32) (harg2 : arg2.IsWhole)
    (arg3 : Memref sig .tc .vmem S4096x64 .f32) (harg3 : arg3.IsWhole) (arg4 : Memref sig .tc .vmem S512x64 .f32) (harg4 : arg4.IsWhole)
    (arg5 : Memref sig .tc .vmem S512x4096 .bf16) (harg5 : arg5.IsWhole) (arg6 : Memref sig .tc .vmem S4096x64 .bf16) (harg6 : arg6.IsWhole)
    (x0 x1 : Vec F S512x4096 .f32) (x2 : Vec F S4096x64 .f32) (x3 : Vec F S512x64 .f32) (d5 : Vec F S4096x64 .bf16)
    (o : ℕ) (hoff : k0_off1 i = ![o, 0]) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare d5
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (View.canon [⟨rW0, k0_pay2 (View.ld x0 rW0) (View.ld x1 rW0)⟩])
            ∗ (∃ X : Vec F S4096x64 .bf16, ⌜RowsUpd (R := 4096) (C := 64) (W := 512) o
                  (k0_pay3 (View.ld x0 rW0) (View.ld x1 rW0) (View.ld x2 rX0) (View.ld x3 rB0)) d5 X⌝
                ∗ owns (c : Thread nD τ) arg6 fullShare X)) -∗ K ⟨⟩))
      ⊢ wp frame (wpE (defs₀ (F := F)) Variants.none c none) E (cc0__call1 i arg1 harg1 arg2 harg2 arg3 harg3 arg4 harg4 arg5 harg5 arg6 harg6) K := by
  simp only [cc0__call1_eq_skeleton]; unfold cc0__call1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _
  isplitr
  swap
  · iexists _; isplitr
    swap; · iexact H5
    ipureintro; rfl
  ipureintro
  exact rowsUpd_of_writes arg6.view f5 (k0_off1_inb i) _ hoff

end Cert.KernelIdeal.Hand

end
-- ==== Proof.Oblig0.lean ====
import proofs.«141685_g10428180595104_week1_w2_90_17_alg».proof.Proof.Gen.KernelIdeal.Launch
import proofs.«141685_g10428180595104_week1_w2_90_17_alg».proof.Proof.Gen.KernelIdeal.Skeleton
import proofs.«141685_g10428180595104_week1_w2_90_17_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Cert.GraphConv

/-! # The first kernel region's body obligation -/

variable (V : (c : Dev nD) → (b : Ref sig .tc) → Buf (Elt F) ((c : Thread nD τ).loc b))

/-- An input window's staging buffer holds its block wherever the body is handed it: the body leaves it as found, and where the
    pipeline does not fetch it the block index has not moved. -/
theorem finds0_0 (c : Dev nD) (t : Fin cfg0.N) (Y) (h : (rd0 V c).Finds 0 t Y) : Y = iblk0 V c 0 t := by
  obtain ⟨d, hd⟩ := RDat.finds_in_eq_fetched (rd0 V c) 0 rfl (fun _ _ _ => rfl) (fun t Y X h => h) t Y h
  rw [hd]; unfold RDat.fetched RDat.blockOf iblk0; rfl
theorem finds0_1 (c : Dev nD) (t : Fin cfg0.N) (Y) (h : (rd0 V c).Finds 1 t Y) : Y = iblk0 V c 1 t := by
  obtain ⟨d, hd⟩ := RDat.finds_in_eq_fetched (rd0 V c) 1 rfl (fun _ _ _ => rfl) (fun t Y X h => h) t Y h
  rw [hd]; unfold RDat.fetched RDat.blockOf iblk0; rfl
theorem finds0_2 (c : Dev nD) (t : Fin cfg0.N) (Y) (h : (rd0 V c).Finds 2 t Y) : Y = iblk0 V c 2 t := by
  obtain ⟨d, hd⟩ := RDat.finds_in_eq_fetched (rd0 V c) 2 rfl (fun _ _ _ => rfl) (fun t Y X h => h) t Y h
  rw [hd]; unfold RDat.fetched RDat.blockOf iblk0; rfl
theorem finds0_3 (c : Dev nD) (t : Fin cfg0.N) (Y) (h : (rd0 V c).Finds 3 t Y) : Y = iblk0 V c 3 t := by
  obtain ⟨d, hd⟩ := RDat.finds_in_eq_fetched (rd0 V c) 3 rfl (fun _ _ _ => rfl) (fun t Y X h => h) t Y h
  rw [hd]; unfold RDat.fetched RDat.blockOf iblk0; rfl

set_option maxHeartbeats 1000000 in
/-- The body at point `t`, called as the pipeline calls it: the inputs' current buffers at their blocks, the outputs' at
    whatever they hold; each buffer is left in its relation, the invariant and what the core owes pass through. -/
theorem sound_body0 (c : Dev nD) (t : Fin cfg0.N) (Y4 : Vec F S512x4096 .bf16) (Y5 : Vec F S4096x64 .bf16) :
    iprop((rd0 V c).Φ t.castSucc ∗ (rd0 V c).owesAt () t.castSucc
        ∗ owns (c : Thread nD τ) (st0_0 t) fullShare (iblk0 V c 0 t) ∗ owns (c : Thread nD τ) (st0_1 t) fullShare (iblk0 V c 1 t)
        ∗ owns (c : Thread nD τ) (st0_2 t) fullShare (iblk0 V c 2 t) ∗ owns (c : Thread nD τ) (st0_3 t) fullShare (iblk0 V c 3 t)
        ∗ owns (c : Thread nD τ) (st0_4 t) fullShare Y4 ∗ owns (c : Thread nD τ) (st0_5 t) fullShare Y5)
      ⊢ wp frame (wpE (defs₀ (F := F)) Variants.none c none) Set.univ (bodyAt0 t) (fun _ =>
          iprop((rd0 V c).Φ t.succ ∗ (rd0 V c).owesAt () t.succ
            ∗ (∃ X, ⌜(rd0 V c).after 0 t (iblk0 V c 0 t) X⌝ ∗ owns (c : Thread nD τ) (st0_0 t) fullShare X)
            ∗ (∃ X, ⌜(rd0 V c).after 1 t (iblk0 V c 1 t) X⌝ ∗ owns (c : Thread nD τ) (st0_1 t) fullShare X)
            ∗ (∃ X, ⌜(rd0 V c).after 2 t (iblk0 V c 2 t) X⌝ ∗ owns (c : Thread nD τ) (st0_2 t) fullShare X)
            ∗ (∃ X, ⌜(rd0 V c).after 3 t (iblk0 V c 3 t) X⌝ ∗ owns (c : Thread nD τ) (st0_3 t) fullShare X)
            ∗ (∃ X, ⌜(rd0 V c).after 4 t Y4 X⌝ ∗ owns (c : Thread nD τ) (st0_4 t) fullShare X)
            ∗ (∃ X, ⌜(rd0 V c).after 5 t Y5 X⌝ ∗ owns (c : Thread nD τ) (st0_5 t) fullShare X))) := by
  unfold bodyAt0
  dsimp only [rd0]
  iintro ⟨HΦ, Ho, H0, H1, H2, H3, H4, H5⟩
  iapply (sound_kernel0 c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5))
    (iblk0 V c 0 t) (iblk0 V c 1 t) (iblk0 V c 2 t) (iblk0 V c 3 t) Y5 (512 * t.val) (hoff0 t) _)
  isplitl [H0]; · iexact H0
  isplitl [H1]; · iexact H1
  isplitl [H2]; · iexact H2
  isplitl [H3]; · iexact H3
  isplitl [H4]; · iexists _; iexact H4
  isplitl [H5]; · iexact H5
  iintro ⟨H0, H1, H2, H3, H4, ⟨%X, %hX, H5⟩⟩
  isplitl [HΦ]; · iexact HΦ
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  iexists X; isplitr; · ipureintro; exact hX
  iexact H5

/-- At every point the body, handed the inputs' blocks and whatever the outputs' buffers hold, leaves each buffer in its relation. -/
theorem body_obligation0 (c : Dev nD) : (rd0 V c).BodyObligation (defs₀ (F := F)) Variants.none () Set.univ := by
  intro t Y hY
  rw [bigSep_W0, bigSep_W0]
  have e0 := finds0_0 V c t (Y 0) (hY 0)
  have e1 := finds0_1 V c t (Y 1) (hY 1)
  have e2 := finds0_2 V c t (Y 2) (hY 2)
  have e3 := finds0_3 V c t (Y 3) (hY 3)
  rw [e0, e1, e2, e3]
  exact sound_body0 V c t (Y 4) (Y 5)

end Cert.KernelIdeal.Hand

end
-- ==== Proof.Forms1.lean ====
import proofs.«141685_g10428180595104_week1_w2_90_17_alg».proof.Proof.Gen.KernelIdeal.Launch
import proofs.«141685_g10428180595104_week1_w2_90_17_alg».proof.Proof.Gen.KernelIdeal.Skeleton
import proofs.«141685_g10428180595104_week1_w2_90_17_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx
import proofs.«141685_g10428180595104_week1_w2_90_17_alg».proof.Proof.Rows

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Cert.GraphConv

/-! # The second kernel region: three sweeps over 32 row blocks, four matrices carried between them

The region's grid has 3 × 32 points; point `t = 32 p + b` is sweep `p` at row block `b` (the rows `[128 b, 128 b + 128)`).
Sweep 0 reads the row blocks of the three degree matrices (windows 0, 1, 2), the row block of X (window 5) and the whole of
the first propagated matrix (window 4); it stores the row block of the scaled reciprocal, of the first update and of the
first update rounded, into three carried matrices. Sweep 1 reads the row block of the summed adjacency (window 3), the
whole rounded first update and the row block of X, and stores the row block of the second propagated matrix into a fourth
carried matrix. Sweep 2 reads the row block of the first update and of the scaled reciprocal and the whole second
propagated matrix, and stores the row block of the result into the output's buffer (window 6), written back once at the end. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A point of the grid is below 96. -/
theorem lt96 (t : Fin cfg1.N) : t.val < 96 := lt_of_lt_of_eq t.isLt N_1

/-- The point of sweep `p` at row block `b`. -/
def pt (p : Fin 3) (b : Fin 32) : Fin cfg1.N := ⟨32 * p.val + b.val, by
  have hp := p.isLt; have hb := b.isLt
  show 32 * p.val + b.val < grid1.N
  rw [N_1]; omega⟩

@[simp] theorem pt_val (p : Fin 3) (b : Fin 32) : (pt p b).val = 32 * p.val + b.val := rfl

/-- The rectangles the body loads through: whole blocks, the whole of a 4096 × 64 matrix, and the rows of row block `b`. -/
abbrev rD1 : Rect S128x4096 := Rect.unit (s := S128x4096) ![0, 0] S128x4096.size inb_S128x4096_S128x4096_0_0
abbrev rY1 : Rect S4096x64 := Rect.unit (s := S4096x64) ![0, 0] S4096x64.size inb_S4096x64_S4096x64_0_0
abbrev rB1 : Rect S128x64 := Rect.unit (s := S128x64) ![0, 0] S128x64.size inb_S128x64_S128x64_0_0

theorem rows_inb64 (b : Fin 32) : ∀ a : Fin 2, (![128 * b.val, 0] : Fin 2 → ℕ) a + S128x64.size a ≤ S4096x64.size a :=
  Fin.forall_fin_two.mpr ⟨by have := b.isLt; show 128 * b.val + 128 ≤ 4096; omega, by show 0 + 64 ≤ 64; omega⟩
theorem rows_inb4096 (b : Fin 32) : ∀ a : Fin 2, (![128 * b.val, 0] : Fin 2 → ℕ) a + S128x4096.size a ≤ S4096x4096.size a :=
  Fin.forall_fin_two.mpr ⟨by have := b.isLt; show 128 * b.val + 128 ≤ 4096; omega, by show 0 + 4096 ≤ 4096; omega⟩

abbrev rRows64 (b : Fin 32) : Rect S4096x64 := Rect.unit (s := S4096x64) ![128 * b.val, 0] S128x64.size (rows_inb64 b)
abbrev rRows4096 (b : Fin 32) : Rect S4096x4096 := Rect.unit (s := S4096x4096) ![128 * b.val, 0] S128x4096.size (rows_inb4096 b)

/-- The row block and the row inside it of a row of a 4096-row matrix. -/
def rowBlk {C : ℕ} (y : (⟨2, ![4096, C]⟩ : Shape).Idx) : Fin 32 := ⟨(y 0).val / 128, by have := ValueIdx.idx2_lt0 y; omega⟩
def rowIn {C : ℕ} (y : (⟨2, ![4096, C]⟩ : Shape).Idx) : Fin 128 := ⟨(y 0).val % 128, Nat.mod_lt _ (by decide)⟩

/-! ## What each sweep stores at row block `b` -/

/-- Sweep 0 at row block `b`: the scaled reciprocal of the three degree blocks, rounded. -/
def qsBlk (c : Dev nD) (b : Fin 32) : FVec F S128x4096 .bf16 :=
  k1_pay2 (View.ld (iblk1 V c 0 (pt 0 b)) rD1) (View.ld (iblk1 V c 1 (pt 0 b)) rD1) (View.ld (iblk1 V c 2 (pt 0 b)) rD1)
/-- Sweep 0 at row block `b`: the first update's rows. -/
def y1Blk (c : Dev nD) (b : Fin 32) : FVec F S128x64 .f32 :=
  k1_pay4 (View.ld (iblk1 V c 0 (pt 0 b)) rD1) (View.ld (iblk1 V c 1 (pt 0 b)) rD1) (View.ld (iblk1 V c 2 (pt 0 b)) rD1)
    (View.ld (iblk1 V c 5 (pt 0 b)) rB1) (View.ld (iblk1 V c 4 (pt 0 b)) rY1)
/-- Sweep 0 at row block `b`: the first update's rows, rounded. -/
def y1bBlk (c : Dev nD) (b : Fin 32) : FVec F S128x64 .bf16 :=
  k1_pay5 (View.ld (iblk1 V c 0 (pt 0 b)) rD1) (View.ld (iblk1 V c 1 (pt 0 b)) rD1) (View.ld (iblk1 V c 2 (pt 0 b)) rD1)
    (View.ld (iblk1 V c 5 (pt 0 b)) rB1) (View.ld (iblk1 V c 4 (pt 0 b)) rY1)

/-- The three matrices sweep 0 fills, whole: row `128 b + r` is row `r` of what row block `b` stores. -/
def QS (c : Dev nD) : Vec F S4096x4096 .bf16 := fun y => qsBlk V c (rowBlk y) (ValueIdx.ix2 (n0 := 128) (n1 := 4096) (rowIn y) (y 1))
def Y1 (c : Dev nD) : Vec F S4096x64 .f32 := fun y => y1Blk V c (rowBlk y) (ValueIdx.ix2 (n0 := 128) (n1 := 64) (rowIn y) (y 1))
def Y1B (c : Dev nD) : Vec F S4096x64 .bf16 := fun y => y1bBlk V c (rowBlk y) (ValueIdx.ix2 (n0 := 128) (n1 := 64) (rowIn y) (y 1))

/-- Sweep 1 at row block `b`: the second propagated matrix's rows, from the WHOLE rounded first update. -/
def yh2Blk (c : Dev nD) (b : Fin 32) : FVec F S128x64 .bf16 :=
  k1_pay6 (View.ld (iblk1 V c 3 (pt 1 b)) rD1) (View.ld (Y1B V c) rY1) (View.ld (iblk1 V c 5 (pt 1 b)) rB1)
def YH2 (c : Dev nD) : Vec F S4096x64 .bf16 := fun y => yh2Blk V c (rowBlk y) (ValueIdx.ix2 (n0 := 128) (n1 := 64) (rowIn y) (y 1))

/-- Sweep 2 at row block `b`: the result's rows, from the first update's and the scaled reciprocal's rows of the block and the
    WHOLE second propagated matrix. -/
def outBlk (c : Dev nD) (b : Fin 32) : FVec F S128x64 .f32 :=
  k1_pay7 (View.ld (Y1 V c) (rRows64 b)) (View.ld (QS V c) (rRows4096 b)) (View.ld (YH2 V c) rY1)
def OUT (c : Dev nD) : Vec F S4096x64 .f32 := fun y => outBlk V c (rowBlk y) (ValueIdx.ix2 (n0 := 128) (n1 := 64) (rowIn y) (y 1))

/-- What the four carried matrices hold before point `t`: the rows of the row blocks already swept agree with the closed forms
    (sweep 0 fills the first three, sweep 1 the fourth). -/
def Inv1 (c : Dev nD) (t : ℕ) (q : Vec F S4096x4096 .bf16) (y : Vec F S4096x64 .f32) (yb h : Vec F S4096x64 .bf16) : Prop :=
  (∀ j : S4096x4096.Idx, (j 0).val < 128 * min t 32 → q j = QS V c j)
    ∧ (∀ j : S4096x64.Idx, (j 0).val < 128 * min t 32 → y j = Y1 V c j)
    ∧ (∀ j : S4096x64.Idx, (j 0).val < 128 * min t 32 → yb j = Y1B V c j)
    ∧ (∀ j : S4096x64.Idx, (j 0).val + 4096 < 128 * min t 64 → h j = YH2 V c j)

/-- The core's scoped buffers the region neither stages nor carries, at some contents each, and the generator register. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ r, prngReg c r))

/-- The four carried matrices before point `t`. -/
def carried1 (c : Dev nD) (t : ℕ) : sProp 𝕄 :=
  iprop(∃ (q : Vec F S4096x4096 .bf16) (y : Vec F S4096x64 .f32) (yb h : Vec F S4096x64 .bf16), ⌜Inv1 V c t q y yb h⌝
    ∗ owns (c : Thread nD τ) (Memref.whole cc1_scratch0) fullShare q ∗ owns (c : Thread nD τ) (Memref.whole cc1_scratch1) fullShare y
    ∗ owns (c : Thread nD τ) (Memref.whole cc1_scratch2) fullShare yb ∗ owns (c : Thread nD τ) (Memref.whole cc1_scratch3) fullShare h)

/-- The region's proof data: the six inputs' buffers are left as found; the output's buffer is left as found in sweeps 0 and 1 and
    has the point's 128 rows replaced in sweep 2. -/
def rd1 (c : Dev nD) : RDat τ (Elt F) Unit ℕ (UR sig nD τ) ℕ cfg1 c where
  A w := V c (Pipeline.arrRef spec1 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => if h : t.val < 64 then X = Y
        else RowsUpd (R := 4096) (C := 64) (W := 128) (128 * (t.val - 64)) (outBlk V c ⟨t.val - 64, by have := lt96 t; omega⟩) Y X
  Φ t := iprop(rest1 (F := F) c ∗ carried1 V c t.val)
  q _ := fullShare
  owed _ := 0

end Cert.KernelIdeal.Hand

end
-- ==== Proof.Inv1Steps.lean ====
import proofs.«141685_g10428180595104_week1_w2_90_17_alg».proof.Proof.Gen.KernelIdeal.Launch
import proofs.«141685_g10428180595104_week1_w2_90_17_alg».proof.Proof.Gen.KernelIdeal.Skeleton
import proofs.«141685_g10428180595104_week1_w2_90_17_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx
import proofs.«141685_g10428180595104_week1_w2_90_17_alg».proof.Proof.Forms1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Cert.GraphConv

/-! # How each sweep's stores carry the invariant on the four carried matrices

A point of sweep `p` at row block `b` replaces the rows `[128 b, 128 b + 128)` of a carried matrix by what the closed form holds there;
the rows of the row blocks below `b` already agree with the closed form, so the rows of the row blocks up to `b` do. -/

variable (V : (c : Dev nD) → (b : Ref sig .tc) → Buf (Elt F) ((c : Thread nD τ).loc b))

/-- A point is a sweep and a row block. -/
theorem pt_mod (p : Fin 3) (b : Fin 32) : (pt p b).val % 32 = b.val := by
  have := b.isLt; show (32 * p.val + b.val) % 32 = b.val; omega
theorem pt_div (p : Fin 3) (b : Fin 32) : (pt p b).val / 32 = p.val := by
  have := b.isLt; show (32 * p.val + b.val) / 32 = p.val; omega
theorem eq_pt (t : Fin cfg1.N) (p : Fin 3) (hp : t.val / 32 = p.val) : t = pt p ⟨t.val % 32, Nat.mod_lt _ (by decide)⟩ :=
  Fin.ext (by show t.val = 32 * p.val + t.val % 32; omega)

/-- One matrix, one point: if the rows below `128 b` agree with a matrix `G` whose row block `b` is `blk b`, and the rows
    `[128 b, 128 b + 128)` are replaced by `blk b`, the rows below `128 (b + 1)` agree with `G`. -/
theorem rows_step {C : ℕ} {α : Type} (G : (⟨2, ![4096, C]⟩ : Shape).Idx → α) (blk : Fin 32 → (⟨2, ![128, C]⟩ : Shape).Idx → α)
    (hG : ∀ y, G y = blk (rowBlk y) (ValueIdx.ix2 (n0 := 128) (n1 := C) (rowIn y) (y 1)))
    (b : Fin 32) (d d' : (⟨2, ![4096, C]⟩ : Shape).Idx → α)
    (hd : ∀ j : (⟨2, ![4096, C]⟩ : Shape).Idx, (j 0).val < 128 * b.val → d j = G j)
    (hupd : RowsUpd (R := 4096) (C := C) (W := 128) (128 * b.val) (blk b) d d') :
    ∀ j : (⟨2, ![4096, C]⟩ : Shape).Idx, (j 0).val < 128 * (b.val + 1) → d' j = G j := by
  intro j hj
  by_cases hlt : (j 0).val < 128 * b.val
  · rw [hupd.2 j (Or.inl hlt)]; exact hd j hlt
  · have hb : rowBlk j = b := Fin.ext (by show (j 0).val / 128 = b.val; omega)
    rw [hG j, hb]
    exact hupd.1 (ValueIdx.ix2 (n0 := 128) (n1 := C) (rowIn j) (j 1)) j
      (by show (j 0).val = 128 * b.val + (j 0).val % 128; omega) rfl

/-- Sweep 0 at row block `b`: its three stores carry the invariant from point `b` to point `b + 1`. -/
theorem inv1_step_A (c : Dev nD) (b : Fin 32) (q q' : Vec F S4096x4096 .bf16) (y y' : Vec F S4096x64 .f32) (yb yb' h : Vec F S4096x64 .bf16)
    (hinv : Inv1 V c b.val q y yb h)
    (hq : RowsUpd (R := 4096) (C := 4096) (W := 128) (128 * b.val) (qsBlk V c b) q q')
    (hy : RowsUpd (R := 4096) (C := 64) (W := 128) (128 * b.val) (y1Blk V c b) y y')
    (hyb : RowsUpd (R := 4096) (C := 64) (W := 128) (128 * b.val) (y1bBlk V c b) yb yb') :
    Inv1 V c (b.val + 1) q' y' yb' h := by
  have hb := b.isLt
  obtain ⟨iq, iy, iyb, ih⟩ := hinv
  have m0 : min b.val 32 = b.val := by omega
  have m1 : min (b.val + 1) 32 = b.val + 1 := by omega
  rw [m0] at iq iy iyb
  refine ⟨?_, ?_, ?_, ?_⟩
  · rw [m1]; exact rows_step (QS V c) (qsBlk V c) (fun _ => rfl) b q q' iq hq
  · rw [m1]; exact rows_step (Y1 V c) (y1Blk V c) (fun _ => rfl) b y y' iy hy
  · rw [m1]; exact rows_step (Y1B V c) (y1bBlk V c) (fun _ => rfl) b yb yb' iyb hyb
  · intro j hj; exact absurd hj (by omega)

/-- In sweeps 1 and 2 the first three carried matrices are the closed forms. -/
theorem inv1_full (c : Dev nD) (t : ℕ) (ht : 32 ≤ t) (q : Vec F S4096x4096 .bf16) (y : Vec F S4096x64 .f32) (yb h : Vec F S4096x64 .bf16)
    (hinv : Inv1 V c t q y yb h) : q = QS V c ∧ y = Y1 V c ∧ yb = Y1B V c := by
  obtain ⟨iq, iy, iyb, -⟩ := hinv
  have m : min t 32 = 32 := by omega
  rw [m] at iq iy iyb
  exact ⟨funext fun j => iq j (by have := ValueIdx.idx2_lt0 j; omega), funext fun j => iy j (by have := ValueIdx.idx2_lt0 j; omega),
    funext fun j => iyb j (by have := ValueIdx.idx2_lt0 j; omega)⟩

/-- In sweep 2 the fourth is too. -/
theorem inv1_full4 (c : Dev nD) (t : ℕ) (ht : 64 ≤ t) (q : Vec F S4096x4096 .bf16) (y : Vec F S4096x64 .f32) (yb h : Vec F S4096x64 .bf16)
    (hinv : Inv1 V c t q y yb h) : h = YH2 V c := by
  obtain ⟨-, -, -, ih⟩ := hinv
  have m : min t 64 = 64 := by omega
  rw [m] at ih
  exact funext fun j => ih j (by have := ValueIdx.idx2_lt0 j; omega)

/-- Sweep 1 at row block `b`: its store carries the invariant from point `32 + b` to point `32 + b + 1`. -/
theorem inv1_step_B (c : Dev nD) (b : Fin 32) (q : Vec F S4096x4096 .bf16) (y : Vec F S4096x64 .f32) (yb h h' : Vec F S4096x64 .bf16)
    (hinv : Inv1 V c (32 + b.val) q y yb h)
    (hh : RowsUpd (R := 4096) (C := 64) (W := 128) (128 * b.val) (yh2Blk V c b) h h') :
    Inv1 V c (32 + b.val + 1) q y yb h' := by
  have hb := b.isLt
  obtain ⟨iq, iy, iyb, ih⟩ := hinv
  have m0 : min (32 + b.val) 32 = 32 := by omega
  have m1 : min (32 + b.val + 1) 32 = 32 := by omega
  have n0 : min (32 + b.val) 64 = 32 + b.val := by omega
  have n1 : min (32 + b.val + 1) 64 = 32 + b.val + 1 := by omega
  rw [m0] at iq iy iyb
  rw [n0] at ih
  refine ⟨?_, ?_, ?_, ?_⟩
  · rw [m1]; exact iq
  · rw [m1]; exact iy
  · rw [m1]; exact iyb
  · rw [n1]; intro j hj
    exact rows_step (YH2 V c) (yh2Blk V c) (fun _ => rfl) b h h' (fun j hj => ih j (by omega)) hh j (by omega)

/-- Sweep 2 stores into none of the four: the invariant passes from a point to the next. -/
theorem inv1_step_C (c : Dev nD) (t : ℕ) (ht : 64 ≤ t) (q : Vec F S4096x4096 .bf16) (y : Vec F S4096x64 .f32) (yb h : Vec F S4096x64 .bf16)
    (hinv : Inv1 V c t q y yb h) : Inv1 V c (t + 1) q y yb h := by
  obtain ⟨iq, iy, iyb, ih⟩ := hinv
  have m0 : min t 32 = 32 := by omega
  have m1 : min (t + 1) 32 = 32 := by omega
  have n0 : min t 64 = 64 := by omega
  have n1 : min (t + 1) 64 = 64 := by omega
  rw [m0] at iq iy iyb; rw [n0] at ih
  exact ⟨by rw [m1]; exact iq, by rw [m1]; exact iy, by rw [m1]; exact iyb, by rw [n1]; exact ih⟩

end Cert.KernelIdeal.Hand

end
-- ==== Proof.Oblig1Pre.lean ====
import proofs.«141685_g10428180595104_week1_w2_90_17_alg».proof.Proof.Gen.KernelIdeal.Launch
import proofs.«141685_g10428180595104_week1_w2_90_17_alg».proof.Proof.Gen.KernelIdeal.Skeleton
import proofs.«141685_g10428180595104_week1_w2_90_17_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Forms1
import proofs.«141685_g10428180595104_week1_w2_90_17_alg».proof.Proof.Inv1Steps

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Cert.GraphConv

/-! # The second region's body obligation: what the body is handed and what it must return -/

variable (V : (c : Dev nD) → (b : Ref sig .tc) → Buf (Elt F) ((c : Thread nD τ).loc b))

/-- What the body may leave, window by window (the proof data's `match` reduced). -/
theorem after1_0 (c : Dev nD) (t : Fin cfg1.N) : (rd1 V c).after 0 t = fun Y X => X = Y := by dsimp only [rd1]
theorem after1_1 (c : Dev nD) (t : Fin cfg1.N) : (rd1 V c).after 1 t = fun Y X => X = Y := by dsimp only [rd1]
theorem after1_2 (c : Dev nD) (t : Fin cfg1.N) : (rd1 V c).after 2 t = fun Y X => X = Y := by dsimp only [rd1]
theorem after1_3 (c : Dev nD) (t : Fin cfg1.N) : (rd1 V c).after 3 t = fun Y X => X = Y := by dsimp only [rd1]
theorem after1_4 (c : Dev nD) (t : Fin cfg1.N) : (rd1 V c).after 4 t = fun Y X => X = Y := by dsimp only [rd1]
theorem after1_5 (c : Dev nD) (t : Fin cfg1.N) : (rd1 V c).after 5 t = fun Y X => X = Y := by dsimp only [rd1]
theorem after1_6 (c : Dev nD) (t : Fin cfg1.N) : (rd1 V c).after 6 t = fun Y X => if h : t.val < 64 then X = Y
    else RowsUpd (R := 4096) (C := 64) (W := 128) (128 * (t.val - 64)) (outBlk V c ⟨t.val - 64, by have := lt96 t; omega⟩) Y X := by
  dsimp only [rd1]; rfl

/-- In sweeps 0 and 1 the output's buffer is left as found; in sweep 2 its rows of the row block are replaced. -/
theorem after1_6_lt (c : Dev nD) (t : Fin cfg1.N) (ht : t.val < 64) (Y X : Vec F S4096x64 .f32) : (rd1 V c).after 6 t Y X ↔ X = Y := by
  rw [after1_6]; dsimp only; rw [dif_pos ht]
theorem after1_6_ge (c : Dev nD) (t : Fin cfg1.N) (ht : ¬ t.val < 64) (Y X : Vec F S4096x64 .f32) : (rd1 V c).after 6 t Y X ↔
    RowsUpd (R := 4096) (C := 64) (W := 128) (128 * (t.val - 64)) (outBlk V c ⟨t.val - 64, by have := lt96 t; omega⟩) Y X := by
  rw [after1_6]; dsimp only; rw [dif_neg ht]

/-- Each input's current staging buffer holds its block at every point, fetched there or not: the body leaves it as found, and
    where it is not fetched its block index has not moved. -/
theorem finds1_0 (c : Dev nD) (t : Fin cfg1.N) (Y : (cfg1.win 0).block.Idx → Elt F (cfg1.win 0).elt) (hY : (rd1 V c).Finds 0 t Y) :
    Y = iblk1 V c 0 t := by
  obtain ⟨d, rfl⟩ := RDat.finds_in_eq_fetched (rd1 V c) 0 rfl (fun _ _ _ => rfl) (fun t Y X h => by rw [after1_0] at h; exact h) t Y hY
  unfold RDat.fetched RDat.blockOf iblk1; rfl
theorem finds1_1 (c : Dev nD) (t : Fin cfg1.N) (Y : (cfg1.win 1).block.Idx → Elt F (cfg1.win 1).elt) (hY : (rd1 V c).Finds 1 t Y) :
    Y = iblk1 V c 1 t := by
  obtain ⟨d, rfl⟩ := RDat.finds_in_eq_fetched (rd1 V c) 1 rfl (fun _ _ _ => rfl) (fun t Y X h => by rw [after1_1] at h; exact h) t Y hY
  unfold RDat.fetched RDat.blockOf iblk1; rfl
theorem finds1_2 (c : Dev nD) (t : Fin cfg1.N) (Y : (cfg1.win 2).block.Idx → Elt F (cfg1.win 2).elt) (hY : (rd1 V c).Finds 2 t Y) :
    Y = iblk1 V c 2 t := by
  obtain ⟨d, rfl⟩ := RDat.finds_in_eq_fetched (rd1 V c) 2 rfl (fun _ _ _ => rfl) (fun t Y X h => by rw [after1_2] at h; exact h) t Y hY
  unfold RDat.fetched RDat.blockOf iblk1; rfl
theorem finds1_3 (c : Dev nD) (t : Fin cfg1.N) (Y : (cfg1.win 3).block.Idx → Elt F (cfg1.win 3).elt) (hY : (rd1 V c).Finds 3 t Y) :
    Y = iblk1 V c 3 t := by
  obtain ⟨d, rfl⟩ := RDat.finds_in_eq_fetched (rd1 V c) 3 rfl (fun _ _ _ => rfl) (fun t Y X h => by rw [after1_3] at h; exact h) t Y hY
  unfold RDat.fetched RDat.blockOf iblk1; rfl
theorem finds1_4 (c : Dev nD) (t : Fin cfg1.N) (Y : (cfg1.win 4).block.Idx → Elt F (cfg1.win 4).elt) (hY : (rd1 V c).Finds 4 t Y) :
    Y = iblk1 V c 4 t := by
  obtain ⟨d, rfl⟩ := RDat.finds_in_eq_fetched (rd1 V c) 4 rfl (fun _ _ _ => rfl) (fun t Y X h => by rw [after1_4] at h; exact h) t Y hY
  unfold RDat.fetched RDat.blockOf iblk1; rfl
theorem finds1_5 (c : Dev nD) (t : Fin cfg1.N) (Y : (cfg1.win 5).block.Idx → Elt F (cfg1.win 5).elt) (hY : (rd1 V c).Finds 5 t Y) :
    Y = iblk1 V c 5 t := by
  obtain ⟨d, rfl⟩ := RDat.finds_in_eq_fetched (rd1 V c) 5 rfl (fun _ _ _ => rfl) (fun t Y X h => by rw [after1_5] at h; exact h) t Y hY
  unfold RDat.fetched RDat.blockOf iblk1; rfl

/-- What the body is called with at point `t`, the output's buffer at `Y6`, -/
def bodyPre1 (c : Dev nD) (t : Fin cfg1.N) (Y6 : Vec F S4096x64 .f32) : sProp 𝕄 :=
  iprop((rd1 V c).Φ t.castSucc ∗ (rd1 V c).owesAt () t.castSucc
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ owns (c : Thread nD τ) (st1_3 t) fullShare (iblk1 V c 3 t)
    ∗ owns (c : Thread nD τ) (st1_4 t) fullShare (iblk1 V c 4 t)
    ∗ owns (c : Thread nD τ) (st1_5 t) fullShare (iblk1 V c 5 t)
    ∗ owns (c : Thread nD τ) (st1_6 t) fullShare Y6)

/-- and what it returns. -/
def bodyPost1 (c : Dev nD) (t : Fin cfg1.N) (Y6 : Vec F S4096x64 .f32) : sProp 𝕄 :=
  iprop((rd1 V c).Φ t.succ ∗ (rd1 V c).owesAt () t.succ
    ∗ (∃ X, ⌜(rd1 V c).after 0 t (iblk1 V c 0 t) X⌝ ∗ owns (c : Thread nD τ) (st1_0 t) fullShare X)
    ∗ (∃ X, ⌜(rd1 V c).after 1 t (iblk1 V c 1 t) X⌝ ∗ owns (c : Thread nD τ) (st1_1 t) fullShare X)
    ∗ (∃ X, ⌜(rd1 V c).after 2 t (iblk1 V c 2 t) X⌝ ∗ owns (c : Thread nD τ) (st1_2 t) fullShare X)
    ∗ (∃ X, ⌜(rd1 V c).after 3 t (iblk1 V c 3 t) X⌝ ∗ owns (c : Thread nD τ) (st1_3 t) fullShare X)
    ∗ (∃ X, ⌜(rd1 V c).after 4 t (iblk1 V c 4 t) X⌝ ∗ owns (c : Thread nD τ) (st1_4 t) fullShare X)
    ∗ (∃ X, ⌜(rd1 V c).after 5 t (iblk1 V c 5 t) X⌝ ∗ owns (c : Thread nD τ) (st1_5 t) fullShare X)
    ∗ (∃ X, ⌜(rd1 V c).after 6 t Y6 X⌝ ∗ owns (c : Thread nD τ) (st1_6 t) fullShare X))

/-- The invariant before and after point `t`, spelled out. -/
theorem Phi1_castSucc (c : Dev nD) (t : Fin cfg1.N) : (rd1 V c).Φ t.castSucc = iprop(rest1 (F := F) c ∗ carried1 V c t.val) := rfl
theorem Phi1_succ (c : Dev nD) (t : Fin cfg1.N) : (rd1 V c).Φ t.succ = iprop(rest1 (F := F) c ∗ carried1 V c (t.val + 1)) := rfl
theorem owes1_succ (c : Dev nD) (t : Fin cfg1.N) : (rd1 V c).owesAt () t.succ = (rd1 V c).owesAt () t.castSucc := rfl

/-- The points of the three sweeps. -/
theorem pt0_val (b : Fin 32) : (pt 0 b).val = b.val := by show 32 * 0 + b.val = b.val; omega
theorem pt1_val (b : Fin 32) : (pt 1 b).val = 32 + b.val := by show 32 * 1 + b.val = 32 + b.val; omega
theorem pt2_val (b : Fin 32) : (pt 2 b).val = 64 + b.val := by show 32 * 2 + b.val = 64 + b.val; omega

end Cert.KernelIdeal.Hand

end
-- ==== Proof.Body1Conds.lean ====
import proofs.«141685_g10428180595104_week1_w2_90_17_alg».proof.Proof.Gen.KernelIdeal.Launch
import proofs.«141685_g10428180595104_week1_w2_90_17_alg».proof.Proof.Gen.KernelIdeal.Skeleton
import proofs.«141685_g10428180595104_week1_w2_90_17_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Forms1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Cert.GraphConv

/-! # The second kernel's body: where its three branches run, and where its stores land -/

/-- The first branch runs in sweep 0, the second in sweep 1, the third in sweep 2. -/
theorem hcond1_1 : ∀ t : Fin cfg1.N, k1_cond1 (grid1.coords t) = 1#1 ↔ t.val / 32 = 0 :=
  (by decide +kernel : ∀ t : Fin grid1.N, k1_cond1 (grid1.coords t) = 1#1 ↔ t.val / 32 = 0)
theorem hcond1_2 : ∀ t : Fin cfg1.N, k1_cond2 (grid1.coords t) = 1#1 ↔ t.val / 32 = 1 :=
  (by decide +kernel : ∀ t : Fin grid1.N, k1_cond2 (grid1.coords t) = 1#1 ↔ t.val / 32 = 1)
theorem hcond1_3 : ∀ t : Fin cfg1.N, k1_cond3 (grid1.coords t) = 1#1 ↔ t.val / 32 = 2 :=
  (by decide +kernel : ∀ t : Fin grid1.N, k1_cond3 (grid1.coords t) = 1#1 ↔ t.val / 32 = 2)

/-- Every row access of the body at point `t` starts at row 128 times the row block of `t`. -/
theorem hoff1_1 : ∀ t : Fin cfg1.N, k1_off1 (grid1.coords t) = ![128 * (t.val % 32), 0] :=
  (by decide +kernel : ∀ t : Fin grid1.N, k1_off1 (grid1.coords t) = ![128 * (t.val % 32), 0])
theorem hoff1_2 : ∀ t : Fin cfg1.N, k1_off2 (grid1.coords t) = ![128 * (t.val % 32), 0] :=
  (by decide +kernel : ∀ t : Fin grid1.N, k1_off2 (grid1.coords t) = ![128 * (t.val % 32), 0])
theorem hoff1_3 : ∀ t : Fin cfg1.N, k1_off3 (grid1.coords t) = ![128 * (t.val % 32), 0] :=
  (by decide +kernel : ∀ t : Fin grid1.N, k1_off3 (grid1.coords t) = ![128 * (t.val % 32), 0])
theorem hoff1_4 : ∀ t : Fin cfg1.N, k1_off4 (grid1.coords t) = ![128 * (t.val % 32), 0] :=
  (by decide +kernel : ∀ t : Fin grid1.N, k1_off4 (grid1.coords t) = ![128 * (t.val % 32), 0])
theorem hoff1_5 : ∀ t : Fin cfg1.N, k1_off5 (grid1.coords t) = ![128 * (t.val % 32), 0] :=
  (by decide +kernel : ∀ t : Fin grid1.N, k1_off5 (grid1.coords t) = ![128 * (t.val % 32), 0])

/-- Two unit-stride rectangles of one size at equal offsets are one rectangle. -/
theorem rect_unit_congr {s : Shape} {off off' size : Fin s.rank → ℕ} (h : off = off') (inb : ∀ a, off a + size a ≤ s.size a)
    (inb' : ∀ a, off' a + size a ≤ s.size a) : Rect.unit (s := s) off size inb = Rect.unit (s := s) off' size inb' := by
  subst h; rfl

/-- What a load through a unit-stride rectangle reads depends on the rectangle's offsets only up to equality. -/
theorem ld_unit_congr {s : Shape} {e : EltTy} {Val : EltTy → Type} (X : s.Idx → Val e) {off off' size : Fin s.rank → ℕ} (h : off = off')
    (inb : ∀ a, off a + size a ≤ s.size a) (inb' : ∀ a, off' a + size a ≤ s.size a) :
    (View.ld X (Rect.unit (s := s) off size inb) : (⟨s.rank, size⟩ : Shape).Idx → Val e) = View.ld X (Rect.unit (s := s) off' size inb') := by
  subst h; rfl

end Cert.KernelIdeal.Hand

end
-- ==== Proof.Body1A.lean ====
import proofs.«141685_g10428180595104_week1_w2_90_17_alg».proof.Proof.Gen.KernelIdeal.Launch
import proofs.«141685_g10428180595104_week1_w2_90_17_alg».proof.Proof.Gen.KernelIdeal.Skeleton
import proofs.«141685_g10428180595104_week1_w2_90_17_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Forms1
import proofs.«141685_g10428180595104_week1_w2_90_17_alg».proof.Proof.Body1Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Cert.GraphConv

/-! # The second kernel's body in sweep 0 -/

set_option maxHeartbeats 2000000 in
/-- The body where only its first branch runs, on whole memrefs: the six inputs' buffers, the output's buffer and the fourth carried
    matrix are left as they are; the first three carried matrices, handed at `dq`, `dy`, `dyb`, end with the rows `[o, o + 128)`
    replaced by the scaled reciprocal of the three degree blocks, the first update's rows and the same rounded. -/
theorem sound_kernel1_A (c : Dev nD) (E : Set ℕ) (i : grid1.Coords)
    (arg2 : Memref sig .tc .vmem S128x4096 .f32) (harg2 : arg2.IsWhole) (arg3 : Memref sig .tc .vmem S128x4096 .f32) (harg3 : arg3.IsWhole)
    (arg4 : Memref sig .tc .vmem S128x4096 .f32) (harg4 : arg4.IsWhole) (arg5 : Memref sig .tc .vmem S128x4096 .bf16) (harg5 : arg5.IsWhole)
    (arg6 : Memref sig .tc .vmem S4096x64 .bf16) (harg6 : arg6.IsWhole) (arg7 : Memref sig .tc .vmem S128x64 .f32) (harg7 : arg7.IsWhole)
    (arg8 : Memref sig .tc .vmem S4096x64 .f32) (harg8 : arg8.IsWhole) (arg9 : Memref sig .tc .vmem S4096x4096 .bf16) (harg9 : arg9.IsWhole)
    (arg10 : Memref sig .tc .vmem S4096x64 .f32) (harg10 : arg10.IsWhole) (arg11 : Memref sig .tc .vmem S4096x64 .bf16) (harg11 : arg11.IsWhole)
    (arg12 : Memref sig .tc .vmem S4096x64 .bf16) (harg12 : arg12.IsWhole)
    (h1 : k1_cond1 i = 1#1) (h2 : ¬ k1_cond2 i = 1#1) (h3 : ¬ k1_cond3 i = 1#1)
    (x0 x1 x2 : Vec F S128x4096 .f32) (x3 : Vec F S128x4096 .bf16) (x4 : Vec F S4096x64 .bf16) (x5 : Vec F S128x64 .f32) (d6 : Vec F S4096x64 .f32)
    (dq : Vec F S4096x4096 .bf16) (dy : Vec F S4096x64 .f32) (dyb dh : Vec F S4096x64 .bf16)
    (o : ℕ) (hoff1 : k1_off1 i = ![o, 0]) (hoff2 : k1_off2 i = ![o, 0]) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare d6 ∗ owns (c : Thread nD τ) arg9 fullShare dq ∗ owns (c : Thread nD τ) arg10 fullShare dy
        ∗ owns (c : Thread nD τ) arg11 fullShare dyb ∗ owns (c : Thread nD τ) arg12 fullShare dh
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare d6
            ∗ (∃ X : Vec F S4096x4096 .bf16, ⌜RowsUpd (R := 4096) (C := 4096) (W := 128) o (k1_pay2 (View.ld x0 rD1) (View.ld x1 rD1) (View.ld x2 rD1)) dq X⌝
                ∗ owns (c : Thread nD τ) arg9 fullShare X)
            ∗ (∃ X : Vec F S4096x64 .f32, ⌜RowsUpd (R := 4096) (C := 64) (W := 128) o
                  (k1_pay4 (View.ld x0 rD1) (View.ld x1 rD1) (View.ld x2 rD1) (View.ld x5 rB1) (View.ld x4 rY1)) dy X⌝
                ∗ owns (c : Thread nD τ) arg10 fullShare X)
            ∗ (∃ X : Vec F S4096x64 .bf16, ⌜RowsUpd (R := 4096) (C := 64) (W := 128) o
                  (k1_pay5 (View.ld x0 rD1) (View.ld x1 rD1) (View.ld x2 rD1) (View.ld x5 rB1) (View.ld x4 rY1)) dyb X⌝
                ∗ owns (c : Thread nD τ) arg11 fullShare X)
            ∗ owns (c : Thread nD τ) arg12 fullShare dh) -∗ K ⟨⟩))
      ⊢ wp frame (wpE (defs₀ (F := F)) Variants.none c none) E (cc1__call2 i arg2 harg2 arg3 harg3 arg4 harg4 arg5 harg5 arg6 harg6 arg7 harg7 arg8 harg8 arg9 harg9 arg10 harg10 arg11 harg11 arg12 harg12) K := by
  simp only [cc1__call2_eq_skeleton]; unfold cc1__call2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2 hf3 hf4 hf5 hf6 hf7 hf8 hf9 hf10 hf11 hf12
  sl_exec (disch := first | exact h1 | exact h2 | exact h3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr; swap
    · iexists _; isplitr; swap; · iexact H9
      ipureintro; rfl
    ipureintro
    exact rowsUpd_of_writes arg9.view f9 (k1_off1_inb i h1) _ hoff1
  isplitl [H10]
  · iexists _; isplitr; swap
    · iexists _; isplitr; swap; · iexact H10
      ipureintro; rfl
    ipureintro
    exact rowsUpd_of_writes arg10.view f10 (k1_off2_inb i h1) _ hoff2
  isplitl [H11]
  · iexists _; isplitr; swap
    · iexists _; isplitr; swap; · iexact H11
      ipureintro; rfl
    ipureintro
    exact rowsUpd_of_writes arg11.view f11 (k1_off2_inb i h1) _ hoff2
  iexists f12; isplitr; · ipureintro; rfl
  iexact H12

end Cert.KernelIdeal.Hand

end
-- ==== Proof.Oblig1A.lean ====
import proofs.«141685_g10428180595104_week1_w2_90_17_alg».proof.Proof.Gen.KernelIdeal.Launch
import proofs.«141685_g10428180595104_week1_w2_90_17_alg».proof.Proof.Gen.KernelIdeal.Skeleton
import proofs.«141685_g10428180595104_week1_w2_90_17_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Forms1
import proofs.«141685_g10428180595104_week1_w2_90_17_alg».proof.Proof.Inv1Steps
import proofs.«141685_g10428180595104_week1_w2_90_17_alg».proof.Proof.Body1Conds
import proofs.«141685_g10428180595104_week1_w2_90_17_alg».proof.Proof.Body1A
import proofs.«141685_g10428180595104_week1_w2_90_17_alg».proof.Proof.Oblig1Pre

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Cert.GraphConv

/-! # The second region's body at a point of sweep 0 -/

variable (V : (c : Dev nD) → (b : Ref sig .tc) → Buf (Elt F) ((c : Thread nD τ).loc b))

set_option maxHeartbeats 1000000 in
/-- At row block `b` of sweep 0 the inputs' memrefs hold their blocks, so the body's triple applies; its three stores carry the
    invariant on the carried matrices to the next point, and the output's buffer is left as found. -/
theorem sound_body1_A (c : Dev nD) (b : Fin 32) (Y6 : Vec F S4096x64 .f32) :
    bodyPre1 V c (pt 0 b) Y6 ⊢ wp frame (wpE (defs₀ (F := F)) Variants.none c none) Set.univ (bodyAt1 (pt 0 b)) (fun _ => bodyPost1 V c (pt 0 b) Y6) := by
  have hb := b.isLt
  have hp : (pt 0 b).val / 32 = 0 := pt_div 0 b
  have h1 : k1_cond1 (grid1.coords (pt 0 b)) = 1#1 := (hcond1_1 (pt 0 b)).mpr hp
  have h2 : ¬ k1_cond2 (grid1.coords (pt 0 b)) = 1#1 := fun h => by have := (hcond1_2 (pt 0 b)).mp h; omega
  have h3 : ¬ k1_cond3 (grid1.coords (pt 0 b)) = 1#1 := fun h => by have := (hcond1_3 (pt 0 b)).mp h; omega
  have ho1 : k1_off1 (grid1.coords (pt 0 b)) = ![128 * b.val, 0] := by rw [hoff1_1, pt_mod]
  have ho2 : k1_off2 (grid1.coords (pt 0 b)) = ![128 * b.val, 0] := by rw [hoff1_2, pt_mod]
  unfold bodyPre1 bodyPost1 bodyAt1
  rw [Phi1_castSucc, Phi1_succ, owes1_succ, pt0_val]
  unfold carried1
  iintro ⟨⟨Hrest, ⟨%q, %y, %yb, %h, %hinv, Hq, Hy, Hyb, Hh⟩⟩, Ho, H0, H1, H2, H3, H4, H5, H6⟩
  iapply (sound_kernel1_A c Set.univ (grid1.coords (pt 0 b)) _ _ _ _ _ _ _ _ _ _ _ _ _ _ _ _ _ _ _ _ _ _ h1 h2 h3
    (iblk1 V c 0 (pt 0 b)) (iblk1 V c 1 (pt 0 b)) (iblk1 V c 2 (pt 0 b)) (iblk1 V c 3 (pt 0 b)) (iblk1 V c 4 (pt 0 b)) (iblk1 V c 5 (pt 0 b))
    Y6 q y yb h (128 * b.val) ho1 ho2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hq]; · iexact Hq
  isplitl [Hy]; · iexact Hy
  isplitl [Hyb]; · iexact Hyb
  isplitl [Hh]; · iexact Hh
  iintro ⟨H0, H1, H2, H3, H4, H5, H6, ⟨%q', %hq', Hq⟩, ⟨%y', %hy', Hy⟩, ⟨%yb', %hyb', Hyb⟩, Hh⟩
  isplitl [Hrest Hq Hy Hyb Hh]
  · isplitl [Hrest]; · iexact Hrest
    iexists q', y', yb', h
    isplitr
    · ipureintro; exact inv1_step_A V c b q q' y y' yb yb' h hinv hq' hy' hyb'
    isplitl [Hq]; · iexact Hq
    isplitl [Hy]; · iexact Hy
    isplitl [Hyb]; · iexact Hyb
    iexact Hh
  isplitl [Ho]; · iexact Ho
  isplitl [H0]
  · iexists (iblk1 V c 0 (pt 0 b)); isplitr
    · ipureintro; rw [after1_0]
    iexact H0
  isplitl [H1]
  · iexists (iblk1 V c 1 (pt 0 b)); isplitr
    · ipureintro; rw [after1_1]
    iexact H1
  isplitl [H2]
  · iexists (iblk1 V c 2 (pt 0 b)); isplitr
    · ipureintro; rw [after1_2]
    iexact H2
  isplitl [H3]
  · iexists (iblk1 V c 3 (pt 0 b)); isplitr
    · ipureintro; rw [after1_3]
    iexact H3
  isplitl [H4]
  · iexists (iblk1 V c 4 (pt 0 b)); isplitr
    · ipureintro; rw [after1_4]
    iexact H4
  isplitl [H5]
  · iexists (iblk1 V c 5 (pt 0 b)); isplitr
    · ipureintro; rw [after1_5]
    iexact H5
  iexists Y6; isplitr
  · ipureintro; exact (after1_6_lt V c (pt 0 b) (by rw [pt0_val]; omega) Y6 Y6).mpr rfl
  iexact H6

end Cert.KernelIdeal.Hand

end
-- ==== Proof.Body1B.lean ====
import proofs.«141685_g10428180595104_week1_w2_90_17_alg».proof.Proof.Gen.KernelIdeal.Launch
import proofs.«141685_g10428180595104_week1_w2_90_17_alg».proof.Proof.Gen.KernelIdeal.Skeleton
import proofs.«141685_g10428180595104_week1_w2_90_17_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Forms1
import proofs.«141685_g10428180595104_week1_w2_90_17_alg».proof.Proof.Body1Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Cert.GraphConv

/-! # The second kernel's body in sweep 1 -/

set_option maxHeartbeats 2000000 in
/-- The body where only its second branch runs, on whole memrefs: everything is left as it is but the fourth carried matrix, which,
    handed at `dh`, ends with the rows `[o, o + 128)` replaced by the second propagated matrix's rows, computed from the summed
    adjacency's block, the WHOLE third carried matrix and the block of X. -/
theorem sound_kernel1_B (c : Dev nD) (E : Set ℕ) (i : grid1.Coords)
    (arg2 : Memref sig .tc .vmem S128x4096 .f32) (harg2 : arg2.IsWhole) (arg3 : Memref sig .tc .vmem S128x4096 .f32) (harg3 : arg3.IsWhole)
    (arg4 : Memref sig .tc .vmem S128x4096 .f32) (harg4 : arg4.IsWhole) (arg5 : Memref sig .tc .vmem S128x4096 .bf16) (harg5 : arg5.IsWhole)
    (arg6 : Memref sig .tc .vmem S4096x64 .bf16) (harg6 : arg6.IsWhole) (arg7 : Memref sig .tc .vmem S128x64 .f32) (harg7 : arg7.IsWhole)
    (arg8 : Memref sig .tc .vmem S4096x64 .f32) (harg8 : arg8.IsWhole) (arg9 : Memref sig .tc .vmem S4096x4096 .bf16) (harg9 : arg9.IsWhole)
    (arg10 : Memref sig .tc .vmem S4096x64 .f32) (harg10 : arg10.IsWhole) (arg11 : Memref sig .tc .vmem S4096x64 .bf16) (harg11 : arg11.IsWhole)
    (arg12 : Memref sig .tc .vmem S4096x64 .bf16) (harg12 : arg12.IsWhole)
    (h1 : ¬ k1_cond1 i = 1#1) (h2 : k1_cond2 i = 1#1) (h3 : ¬ k1_cond3 i = 1#1)
    (x0 x1 x2 : Vec F S128x4096 .f32) (x3 : Vec F S128x4096 .bf16) (x4 : Vec F S4096x64 .bf16) (x5 : Vec F S128x64 .f32) (d6 : Vec F S4096x64 .f32)
    (dq : Vec F S4096x4096 .bf16) (dy : Vec F S4096x64 .f32) (dyb dh : Vec F S4096x64 .bf16)
    (o : ℕ) (hoff3 : k1_off3 i = ![o, 0]) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare d6 ∗ owns (c : Thread nD τ) arg9 fullShare dq ∗ owns (c : Thread nD τ) arg10 fullShare dy
        ∗ owns (c : Thread nD τ) arg11 fullShare dyb ∗ owns (c : Thread nD τ) arg12 fullShare dh
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare d6 ∗ owns (c : Thread nD τ) arg9 fullShare dq ∗ owns (c : Thread nD τ) arg10 fullShare dy
            ∗ owns (c : Thread nD τ) arg11 fullShare dyb
            ∗ (∃ X : Vec F S4096x64 .bf16, ⌜RowsUpd (R := 4096) (C := 64) (W := 128) o
                  (k1_pay6 (View.ld x3 rD1) (View.ld dyb rY1) (View.ld x5 rB1)) dh X⌝
                ∗ owns (c : Thread nD τ) arg12 fullShare X)) -∗ K ⟨⟩))
      ⊢ wp frame (wpE (defs₀ (F := F)) Variants.none c none) E (cc1__call2 i arg2 harg2 arg3 harg3 arg4 harg4 arg5 harg5 arg6 harg6 arg7 harg7 arg8 harg8 arg9 harg9 arg10 harg10 arg11 harg11 arg12 harg12) K := by
  simp only [cc1__call2_eq_skeleton]; unfold cc1__call2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2 hf3 hf4 hf5 hf6 hf7 hf8 hf9 hf10 hf11 hf12
  sl_exec (disch := first | exact h1 | exact h2 | exact h3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr; swap
  · iexists _; isplitr; swap; · iexact H12
    ipureintro; rfl
  ipureintro
  exact rowsUpd_of_writes arg12.view f12 (k1_off3_inb i h2) _ hoff3

end Cert.KernelIdeal.Hand

end
-- ==== Proof.Oblig1B.lean ====
import proofs.«141685_g10428180595104_week1_w2_90_17_alg».proof.Proof.Gen.KernelIdeal.Launch
import proofs.«141685_g10428180595104_week1_w2_90_17_alg».proof.Proof.Gen.KernelIdeal.Skeleton
import proofs.«141685_g10428180595104_week1_w2_90_17_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Forms1
import proofs.«141685_g10428180595104_week1_w2_90_17_alg».proof.Proof.Inv1Steps
import proofs.«141685_g10428180595104_week1_w2_90_17_alg».proof.Proof.Body1Conds
import proofs.«141685_g10428180595104_week1_w2_90_17_alg».proof.Proof.Body1B
import proofs.«141685_g10428180595104_week1_w2_90_17_alg».proof.Proof.Oblig1Pre

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Cert.GraphConv

/-! # The second region's body at a point of sweep 1 -/

variable (V : (c : Dev nD) → (b : Ref sig .tc) → Buf (Elt F) ((c : Thread nD τ).loc b))

set_option maxHeartbeats 1000000 in
/-- At row block `b` of sweep 1 the third carried matrix is the whole rounded first update, so the body's store puts the closed
    form's rows into the fourth; the other carried matrices and the output's buffer are left as found. -/
theorem sound_body1_B (c : Dev nD) (b : Fin 32) (Y6 : Vec F S4096x64 .f32) :
    bodyPre1 V c (pt 1 b) Y6 ⊢ wp frame (wpE (defs₀ (F := F)) Variants.none c none) Set.univ (bodyAt1 (pt 1 b)) (fun _ => bodyPost1 V c (pt 1 b) Y6) := by
  have hb := b.isLt
  have hp : (pt 1 b).val / 32 = 1 := pt_div 1 b
  have h1 : ¬ k1_cond1 (grid1.coords (pt 1 b)) = 1#1 := fun h => by have := (hcond1_1 (pt 1 b)).mp h; omega
  have h2 : k1_cond2 (grid1.coords (pt 1 b)) = 1#1 := (hcond1_2 (pt 1 b)).mpr hp
  have h3 : ¬ k1_cond3 (grid1.coords (pt 1 b)) = 1#1 := fun h => by have := (hcond1_3 (pt 1 b)).mp h; omega
  have ho3 : k1_off3 (grid1.coords (pt 1 b)) = ![128 * b.val, 0] := by rw [hoff1_3, pt_mod]
  unfold bodyPre1 bodyPost1 bodyAt1
  rw [Phi1_castSucc, Phi1_succ, owes1_succ, pt1_val]
  unfold carried1
  iintro ⟨⟨Hrest, ⟨%q, %y, %yb, %h, %hinv, Hq, Hy, Hyb, Hh⟩⟩, Ho, H0, H1, H2, H3, H4, H5, H6⟩
  obtain ⟨-, -, hyb⟩ := inv1_full V c (32 + b.val) (by omega) q y yb h hinv
  subst hyb
  iapply (sound_kernel1_B c Set.univ (grid1.coords (pt 1 b)) _ _ _ _ _ _ _ _ _ _ _ _ _ _ _ _ _ _ _ _ _ _ h1 h2 h3
    (iblk1 V c 0 (pt 1 b)) (iblk1 V c 1 (pt 1 b)) (iblk1 V c 2 (pt 1 b)) (iblk1 V c 3 (pt 1 b)) (iblk1 V c 4 (pt 1 b)) (iblk1 V c 5 (pt 1 b))
    Y6 q y (Y1B V c) h (128 * b.val) ho3 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hq]; · iexact Hq
  isplitl [Hy]; · iexact Hy
  isplitl [Hyb]; · iexact Hyb
  isplitl [Hh]; · iexact Hh
  iintro ⟨H0, H1, H2, H3, H4, H5, H6, Hq, Hy, Hyb, ⟨%h', %hh', Hh⟩⟩
  isplitl [Hrest Hq Hy Hyb Hh]
  · isplitl [Hrest]; · iexact Hrest
    iexists q, y, (Y1B V c), h'
    isplitr
    · ipureintro; exact inv1_step_B V c b q y (Y1B V c) h h' hinv hh'
    isplitl [Hq]; · iexact Hq
    isplitl [Hy]; · iexact Hy
    isplitl [Hyb]; · iexact Hyb
    iexact Hh
  isplitl [Ho]; · iexact Ho
  isplitl [H0]
  · iexists (iblk1 V c 0 (pt 1 b)); isplitr
    · ipureintro; rw [after1_0]
    iexact H0
  isplitl [H1]
  · iexists (iblk1 V c 1 (pt 1 b)); isplitr
    · ipureintro; rw [after1_1]
    iexact H1
  isplitl [H2]
  · iexists (iblk1 V c 2 (pt 1 b)); isplitr
    · ipureintro; rw [after1_2]
    iexact H2
  isplitl [H3]
  · iexists (iblk1 V c 3 (pt 1 b)); isplitr
    · ipureintro; rw [after1_3]
    iexact H3
  isplitl [H4]
  · iexists (iblk1 V c 4 (pt 1 b)); isplitr
    · ipureintro; rw [after1_4]
    iexact H4
  isplitl [H5]
  · iexists (iblk1 V c 5 (pt 1 b)); isplitr
    · ipureintro; rw [after1_5]
    iexact H5
  iexists Y6; isplitr
  · ipureintro; exact (after1_6_lt V c (pt 1 b) (by rw [pt1_val]; omega) Y6 Y6).mpr rfl
  iexact H6

end Cert.KernelIdeal.Hand

end
-- ==== Proof.Body1C.lean ====
import proofs.«141685_g10428180595104_week1_w2_90_17_alg».proof.Proof.Gen.KernelIdeal.Launch
import proofs.«141685_g10428180595104_week1_w2_90_17_alg».proof.Proof.Gen.KernelIdeal.Skeleton
import proofs.«141685_g10428180595104_week1_w2_90_17_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Forms1
import proofs.«141685_g10428180595104_week1_w2_90_17_alg».proof.Proof.Body1Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Cert.GraphConv

/-! # The second kernel's body in sweep 2 -/

set_option maxHeartbeats 2000000 in
/-- The body where only its third branch runs, at row block `b`, on whole memrefs: everything is left as it is but the output's
    buffer, which, handed at `d6`, ends with the rows `[128 b, 128 b + 128)` replaced by the result's rows, computed from those rows
    of the second and of the first carried matrix and the WHOLE fourth carried matrix. -/
theorem sound_kernel1_C (c : Dev nD) (E : Set ℕ) (i : grid1.Coords)
    (arg2 : Memref sig .tc .vmem S128x4096 .f32) (harg2 : arg2.IsWhole) (arg3 : Memref sig .tc .vmem S128x4096 .f32) (harg3 : arg3.IsWhole)
    (arg4 : Memref sig .tc .vmem S128x4096 .f32) (harg4 : arg4.IsWhole) (arg5 : Memref sig .tc .vmem S128x4096 .bf16) (harg5 : arg5.IsWhole)
    (arg6 : Memref sig .tc .vmem S4096x64 .bf16) (harg6 : arg6.IsWhole) (arg7 : Memref sig .tc .vmem S128x64 .f32) (harg7 : arg7.IsWhole)
    (arg8 : Memref sig .tc .vmem S4096x64 .f32) (harg8 : arg8.IsWhole) (arg9 : Memref sig .tc .vmem S4096x4096 .bf16) (harg9 : arg9.IsWhole)
    (arg10 : Memref sig .tc .vmem S4096x64 .f32) (harg10 : arg10.IsWhole) (arg11 : Memref sig .tc .vmem S4096x64 .bf16) (harg11 : arg11.IsWhole)
    (arg12 : Memref sig .tc .vmem S4096x64 .bf16) (harg12 : arg12.IsWhole)
    (h1 : ¬ k1_cond1 i = 1#1) (h2 : ¬ k1_cond2 i = 1#1) (h3 : k1_cond3 i = 1#1)
    (x0 x1 x2 : Vec F S128x4096 .f32) (x3 : Vec F S128x4096 .bf16) (x4 : Vec F S4096x64 .bf16) (x5 : Vec F S128x64 .f32) (d6 : Vec F S4096x64 .f32)
    (dq : Vec F S4096x4096 .bf16) (dy : Vec F S4096x64 .f32) (dyb dh : Vec F S4096x64 .bf16)
    (b : Fin 32) (hoff4 : k1_off4 i = ![128 * b.val, 0]) (hoff5 : k1_off5 i = ![128 * b.val, 0]) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare d6 ∗ owns (c : Thread nD τ) arg9 fullShare dq ∗ owns (c : Thread nD τ) arg10 fullShare dy
        ∗ owns (c : Thread nD τ) arg11 fullShare dyb ∗ owns (c : Thread nD τ) arg12 fullShare dh
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ X : Vec F S4096x64 .f32, ⌜RowsUpd (R := 4096) (C := 64) (W := 128) (128 * b.val)
                  (k1_pay7 (View.ld dy (rRows64 b)) (View.ld dq (rRows4096 b)) (View.ld dh rY1)) d6 X⌝
                ∗ owns (c : Thread nD τ) arg8 fullShare X)
            ∗ owns (c : Thread nD τ) arg9 fullShare dq ∗ owns (c : Thread nD τ) arg10 fullShare dy
            ∗ owns (c : Thread nD τ) arg11 fullShare dyb ∗ owns (c : Thread nD τ) arg12 fullShare dh) -∗ K ⟨⟩))
      ⊢ wp frame (wpE (defs₀ (F := F)) Variants.none c none) E (cc1__call2 i arg2 harg2 arg3 harg3 arg4 harg4 arg5 harg5 arg6 harg6 arg7 harg7 arg8 harg8 arg9 harg9 arg10 harg10 arg11 harg11 arg12 harg12) K := by
  simp only [cc1__call2_eq_skeleton]; unfold cc1__call2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2 hf3 hf4 hf5 hf6 hf7 hf8 hf9 hf10 hf11 hf12
  sl_exec (disch := first | exact h1 | exact h2 | exact h3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap
    · iexists _; isplitr; swap; · iexact H8
      ipureintro; rfl
    ipureintro
    rw [ld_unit_congr (View.read (Elt F) arg10.view f10) hoff4.symm (rows_inb64 b) (k1_off4_inb i h3),
      ld_unit_congr (View.read (Elt F) arg9.view f9) hoff5.symm (rows_inb4096 b) (k1_off5_inb i h3)]
    exact rowsUpd_of_writes arg8.view f8 (k1_off4_inb i h3) _ hoff4
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists f12; isplitr; · ipureintro; rfl
  iexact H12

end Cert.KernelIdeal.Hand

end
-- ==== Proof.Oblig1C.lean ====
import proofs.«141685_g10428180595104_week1_w2_90_17_alg».proof.Proof.Gen.KernelIdeal.Launch
import proofs.«141685_g10428180595104_week1_w2_90_17_alg».proof.Proof.Gen.KernelIdeal.Skeleton
import proofs.«141685_g10428180595104_week1_w2_90_17_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Forms1
import proofs.«141685_g10428180595104_week1_w2_90_17_alg».proof.Proof.Inv1Steps
import proofs.«141685_g10428180595104_week1_w2_90_17_alg».proof.Proof.Body1Conds
import proofs.«141685_g10428180595104_week1_w2_90_17_alg».proof.Proof.Body1C
import proofs.«141685_g10428180595104_week1_w2_90_17_alg».proof.Proof.Oblig1Pre

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Cert.GraphConv

/-! # The second region's body at a point of sweep 2 -/

variable (V : (c : Dev nD) → (b : Ref sig .tc) → Buf (Elt F) ((c : Thread nD τ).loc b))

set_option maxHeartbeats 1000000 in
/-- At row block `b` of sweep 2 the four carried matrices are the closed forms, so the body's store puts the result's rows of the
    row block into the output's buffer; the carried matrices are left as found. -/
theorem sound_body1_C (c : Dev nD) (b : Fin 32) (Y6 : Vec F S4096x64 .f32) :
    bodyPre1 V c (pt 2 b) Y6 ⊢ wp frame (wpE (defs₀ (F := F)) Variants.none c none) Set.univ (bodyAt1 (pt 2 b)) (fun _ => bodyPost1 V c (pt 2 b) Y6) := by
  have hb := b.isLt
  have hp : (pt 2 b).val / 32 = 2 := pt_div 2 b
  have h1 : ¬ k1_cond1 (grid1.coords (pt 2 b)) = 1#1 := fun h => by have := (hcond1_1 (pt 2 b)).mp h; omega
  have h2 : ¬ k1_cond2 (grid1.coords (pt 2 b)) = 1#1 := fun h => by have := (hcond1_2 (pt 2 b)).mp h; omega
  have h3 : k1_cond3 (grid1.coords (pt 2 b)) = 1#1 := (hcond1_3 (pt 2 b)).mpr hp
  have ho4 : k1_off4 (grid1.coords (pt 2 b)) = ![128 * b.val, 0] := by rw [hoff1_4, pt_mod]
  have ho5 : k1_off5 (grid1.coords (pt 2 b)) = ![128 * b.val, 0] := by rw [hoff1_5, pt_mod]
  have hge : ¬ (pt 2 b).val < 64 := by rw [pt2_val]; omega
  have eb : (⟨(pt 2 b).val - 64, by have := lt96 (pt 2 b); omega⟩ : Fin 32) = b :=
    Fin.ext (by show (pt 2 b).val - 64 = b.val; rw [pt2_val]; omega)
  have ev : (pt 2 b).val - 64 = b.val := by rw [pt2_val]; omega
  unfold bodyPre1 bodyPost1 bodyAt1
  rw [Phi1_castSucc, Phi1_succ, owes1_succ, pt2_val]
  unfold carried1
  iintro ⟨⟨Hrest, ⟨%q, %y, %yb, %h, %hinv, Hq, Hy, Hyb, Hh⟩⟩, Ho, H0, H1, H2, H3, H4, H5, H6⟩
  have hinv' := inv1_step_C V c (64 + b.val) (by omega) q y yb h hinv
  obtain ⟨hq, hy, -⟩ := inv1_full V c (64 + b.val) (by omega) q y yb h hinv
  have hh := inv1_full4 V c (64 + b.val) (by omega) q y yb h hinv
  iapply (sound_kernel1_C c Set.univ (grid1.coords (pt 2 b)) _ _ _ _ _ _ _ _ _ _ _ _ _ _ _ _ _ _ _ _ _ _ h1 h2 h3
    (iblk1 V c 0 (pt 2 b)) (iblk1 V c 1 (pt 2 b)) (iblk1 V c 2 (pt 2 b)) (iblk1 V c 3 (pt 2 b)) (iblk1 V c 4 (pt 2 b)) (iblk1 V c 5 (pt 2 b))
    Y6 q y yb h b ho4 ho5 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hq]; · iexact Hq
  isplitl [Hy]; · iexact Hy
  isplitl [Hyb]; · iexact Hyb
  isplitl [Hh]; · iexact Hh
  iintro ⟨H0, H1, H2, H3, H4, H5, ⟨%X, %hX, H6⟩, Hq, Hy, Hyb, Hh⟩
  isplitl [Hrest Hq Hy Hyb Hh]
  · isplitl [Hrest]; · iexact Hrest
    iexists q, y, yb, h
    isplitr
    · ipureintro; exact hinv'
    isplitl [Hq]; · iexact Hq
    isplitl [Hy]; · iexact Hy
    isplitl [Hyb]; · iexact Hyb
    iexact Hh
  isplitl [Ho]; · iexact Ho
  isplitl [H0]
  · iexists (iblk1 V c 0 (pt 2 b)); isplitr
    · ipureintro; rw [after1_0]
    iexact H0
  isplitl [H1]
  · iexists (iblk1 V c 1 (pt 2 b)); isplitr
    · ipureintro; rw [after1_1]
    iexact H1
  isplitl [H2]
  · iexists (iblk1 V c 2 (pt 2 b)); isplitr
    · ipureintro; rw [after1_2]
    iexact H2
  isplitl [H3]
  · iexists (iblk1 V c 3 (pt 2 b)); isplitr
    · ipureintro; rw [after1_3]
    iexact H3
  isplitl [H4]
  · iexists (iblk1 V c 4 (pt 2 b)); isplitr
    · ipureintro; rw [after1_4]
    iexact H4
  isplitl [H5]
  · iexists (iblk1 V c 5 (pt 2 b)); isplitr
    · ipureintro; rw [after1_5]
    iexact H5
  iexists X; isplitr
  · ipureintro
    refine (after1_6_ge V c (pt 2 b) hge Y6 X).mpr ?_
    rw [eb, ev]
    rw [hq, hy, hh] at hX
    exact hX
  iexact H6

end Cert.KernelIdeal.Hand

end
-- ==== Proof.Oblig1.lean ====
import proofs.«141685_g10428180595104_week1_w2_90_17_alg».proof.Proof.Gen.KernelIdeal.Launch
import proofs.«141685_g10428180595104_week1_w2_90_17_alg».proof.Proof.Gen.KernelIdeal.Skeleton
import proofs.«141685_g10428180595104_week1_w2_90_17_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Forms1
import proofs.«141685_g10428180595104_week1_w2_90_17_alg».proof.Proof.Inv1Steps
import proofs.«141685_g10428180595104_week1_w2_90_17_alg».proof.Proof.Oblig1Pre
import proofs.«141685_g10428180595104_week1_w2_90_17_alg».proof.Proof.Oblig1A
import proofs.«141685_g10428180595104_week1_w2_90_17_alg».proof.Proof.Oblig1B
import proofs.«141685_g10428180595104_week1_w2_90_17_alg».proof.Proof.Oblig1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Cert.GraphConv

/-! # The second region's body obligation -/

variable (V : (c : Dev nD) → (b : Ref sig .tc) → Buf (Elt F) ((c : Thread nD τ).loc b))

/-- The body at any point: the point lies in one of the three sweeps. -/
theorem sound_body1 (c : Dev nD) (t : Fin cfg1.N) (Y6 : Vec F S4096x64 .f32) :
    bodyPre1 V c t Y6 ⊢ wp frame (wpE (defs₀ (F := F)) Variants.none c none) Set.univ (bodyAt1 t) (fun _ => bodyPost1 V c t Y6) := by
  have ht := lt96 t
  by_cases hp0 : t.val / 32 = 0
  · rw [eq_pt t 0 hp0]; exact sound_body1_A V c _ Y6
  by_cases hp1 : t.val / 32 = 1
  · rw [eq_pt t 1 hp1]; exact sound_body1_B V c _ Y6
  have hp2 : t.val / 32 = 2 := by omega
  rw [eq_pt t 2 hp2]; exact sound_body1_C V c _ Y6

/-- The library's body obligation for the region's relational proof data, at every point: each input's buffer holds its block. -/
theorem body_obligation1 (c : Dev nD) : (rd1 V c).BodyObligation (defs₀ (F := F)) Variants.none () Set.univ := by
  intro t Y hY
  rw [bigSep_W1, bigSep_W1]
  rw [finds1_0 V c t (Y 0) (hY 0), finds1_1 V c t (Y 1) (hY 1), finds1_2 V c t (Y 2) (hY 2), finds1_3 V c t (Y 3) (hY 3),
    finds1_4 V c t (Y 4) (hY 4), finds1_5 V c t (Y 5) (hY 5)]
  exact sound_body1 V c t (Y 6)

end Cert.KernelIdeal.Hand

end
-- ==== Proof.Phi1.lean ====
import proofs.«141685_g10428180595104_week1_w2_90_17_alg».proof.Proof.Gen.KernelIdeal.Launch
import proofs.«141685_g10428180595104_week1_w2_90_17_alg».proof.Proof.Gen.KernelIdeal.Skeleton
import proofs.«141685_g10428180595104_week1_w2_90_17_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Forms1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Cert.GraphConv

/-! # The second region's invariant at its two ends

Before the first point nothing is said of the four carried matrices; after the last point what is known of them is forgotten. -/

variable (V : (c : Dev nD) → (b : Ref sig .tc) → Buf (Elt F) ((c : Thread nD τ).loc b))

/-- Before the first point the invariant on the carried matrices asks nothing. -/
theorem inv1_zero (c : Dev nD) (q : Vec F S4096x4096 .bf16) (y : Vec F S4096x64 .f32) (yb h : Vec F S4096x64 .bf16) :
    Inv1 V c 0 q y yb h :=
  ⟨fun j hj => absurd hj (by simp), fun j hj => absurd hj (by simp), fun j hj => absurd hj (by simp),
   fun j hj => absurd hj (by simp)⟩

/-- The class invariant is the region's invariant before its first point. -/
theorem hin1 (c : Dev nD) : (Pipeline.ΦA (U := UR sig nD τ) (Val := Elt F) spec1 c : sProp 𝕄) ⊢ (rd1 V c).Φ 0 := by
  unfold Pipeline.ΦA; rw [scopedRest1_eq]
  show _ ⊢ iprop(rest1 (F := F) c ∗ carried1 V c 0)
  unfold rest1 carried1
  simp only [owns_whole]
  iintro ⟨⟨G0, G1, G2, G3, G4, G5, G6, G7, G8, G9, ⟨%q, Hq⟩, ⟨%y, Hy⟩, ⟨%yb, Hyb⟩, ⟨%h, Hh⟩⟩, Hr⟩
  isplitl [G0 G1 G2 G3 G4 G5 G6 G7 G8 G9 Hr]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    iexact Hr
  iexists q, y, yb, h
  isplitr; · ipureintro; exact inv1_zero V c q y yb h
  isplitl [Hq]; · iexact Hq
  isplitl [Hy]; · iexact Hy
  isplitl [Hyb]; · iexact Hyb
  iexact Hh

/-- The region's invariant after its last point gives the class invariant back. -/
theorem hout1 (c : Dev nD) : (rd1 V c).Φ (Fin.last _) ⊢ (Pipeline.ΦA (U := UR sig nD τ) (Val := Elt F) spec1 c : sProp 𝕄) := by
  unfold Pipeline.ΦA; rw [scopedRest1_eq]
  show iprop(rest1 (F := F) c ∗ carried1 V c _) ⊢ _
  unfold rest1 carried1
  simp only [owns_whole]
  iintro ⟨⟨G0, G1, G2, G3, G4, G5, G6, G7, G8, G9, Hr⟩, ⟨%q, %y, %yb, %h, -, Hq, Hy, Hyb, Hh⟩⟩
  isplitr [Hr]
  swap; · iexact Hr
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [Hq]; · iexists q; iexact Hq
  isplitl [Hy]; · iexists y; iexact Hy
  isplitl [Hyb]; · iexists yb; iexact Hyb
  iexists h; iexact Hh

end Cert.KernelIdeal.Hand

end
-- ==== Proof.Shares0.lean ====
/-
  The first kernel region: the buffers behind its windows' arrays, at entry and at exit.

  The region has six windows over FIVE buffers: windows 2 and 3 both read X. At entry the five buffers are held whole
  at the full share; the region holds each window's array at the window's own share, which for windows 2 and 3 is
  the left and the right half of the full share: X's buffer is split into its two halves, the other four are handed
  over as they are. At exit each window's array is held at some contents it may then hold; an input's array is never
  written, so it holds its entry contents; the two halves of X's buffer, at equal contents, join to the full share;
  the two outputs' contents are what the caller says every possible final contents is.
-/
import proofs.«141685_g10428180595104_week1_w2_90_17_alg».proof.Proof.Forms0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The five distinct buffers behind the six windows' arrays, one by one. -/
theorem arrBufs0_chain (c : Dev nD) (V' : (b : Ref sig .tc) → Buf (Elt F) ((c : Thread nD τ).loc b)) :
    (Pipeline.arrBufs spec0 c V' : sProp 𝕄)
      = iprop((((c : Thread nD τ).loc main_arg1) ↦{fullShare} V' main_arg1) ∗ (((c : Thread nD τ).loc main_arg2) ↦{fullShare} V' main_arg2)
        ∗ (((c : Thread nD τ).loc main_arg0) ↦{fullShare} V' main_arg0) ∗ (((c : Thread nD τ).loc main_v0_0) ↦{fullShare} V' main_v0_0)
        ∗ (((c : Thread nD τ).loc main_v0_1) ↦{fullShare} V' main_v0_1)) := by
  classical
  unfold Pipeline.arrBufs
  exact bigSep_eq_bigSepL_of_eq [main_arg1, main_arg2, main_arg0, main_v0_0, main_v0_1] (by decide) (by decide) _

/-- Holding every element of a whole buffer's view is holding the buffer. -/
theorem whole_pt (c : Dev nD) (b : Ref sig .tc) (q : PosShare TreeShare) (G : Buf (Elt F) ((c : Thread nD τ).loc b)) :
    (View.loc (c.tc : Thread nD τ) (View.whole b) ↦[(View.whole b).set]{q} G : sProp 𝕄) = (((c : Thread nD τ).loc b) ↦{q} G) := by
  rw [View.set_whole]

theorem share0_0 (c : Dev nD) : (rd0 V c).share 0 = fullShare := rfl
theorem share0_1 (c : Dev nD) : (rd0 V c).share 1 = fullShare := rfl
theorem share0_2 (c : Dev nD) : (rd0 V c).share 2 = fullShare.left := rfl
theorem share0_3 (c : Dev nD) : (rd0 V c).share 3 = fullShare.right := rfl
theorem share0_4 (c : Dev nD) : (rd0 V c).share 4 = fullShare := rfl
theorem share0_5 (c : Dev nD) : (rd0 V c).share 5 = fullShare := rfl

theorem A0_0 (c : Dev nD) : (rd0 V c).A 0 = V c main_arg1 := rfl
theorem A0_1 (c : Dev nD) : (rd0 V c).A 1 = V c main_arg2 := rfl
theorem A0_2 (c : Dev nD) : (rd0 V c).A 2 = V c main_arg0 := rfl
theorem A0_3 (c : Dev nD) : (rd0 V c).A 3 = V c main_arg0 := rfl
theorem A0_4 (c : Dev nD) : (rd0 V c).A 4 = V c main_v0_0 := rfl
theorem A0_5 (c : Dev nD) : (rd0 V c).A 5 = V c main_v0_1 := rfl

/-- Entry: the five buffers at the full share make the six windows' arrays at the region's shares, X's buffer split
    into its two halves. -/
theorem arr0_split (c : Dev nD) : (Pipeline.arrBufs spec0 c (V c) : sProp 𝕄) ⊢ (rd0 V c).arrays (rd0 V c).A := by
  rw [arrBufs0_chain]
  unfold RDat.arrays
  rw [bigSep_W0]
  simp only [share0_0, share0_1, share0_2, share0_3, share0_4, share0_5, A0_0, A0_1, A0_2, A0_3, A0_4, A0_5, View.set_whole]
  iintro ⟨H0, H1, HX, H4, H5⟩
  ihave HX' := (pointsTo_share (PosShare.mem_left_op_right fullShare)).1 $$ HX
  icases HX' with ⟨H2, H3⟩
  isplitl [H0]; · iexact H0
  isplitl [H1]; · iexact H1
  isplitl [H2]; · iexact H2
  isplitl [H3]; · iexact H3
  isplitl [H4]; · iexact H4
  iexact H5

/-- Exit: the six windows' arrays after every write-back make the five buffers at the full share, at any contents
    `V'` that keeps the three inputs and that every possible final contents of each output equals. -/
theorem arr0_exit (c : Dev nD) (V' : (b : Ref sig .tc) → Buf (Elt F) ((c : Thread nD τ).loc b))
    (h0 : V' main_arg1 = V c main_arg1) (h1 : V' main_arg2 = V c main_arg2) (h2 : V' main_arg0 = V c main_arg0)
    (h4 : ∀ G, (rd0 V c).ArrAt 4 cfg0.N G → G = V' main_v0_0) (h5 : ∀ G, (rd0 V c).ArrAt 5 cfg0.N G → G = V' main_v0_1) :
    ((rd0 V c).arraysAt cfg0.N : sProp 𝕄) ⊢ Pipeline.arrBufs spec0 c V' := by
  rw [arrBufs0_chain, h0, h1, h2]
  unfold RDat.arraysAt
  rw [bigSep_W0]
  simp only [share0_0, share0_1, share0_2, share0_3, share0_4, share0_5, View.set_whole]
  iintro ⟨H0, H1, H2, H3, H4, H5⟩
  icases H0 with ⟨%G0, %e0, H0⟩
  icases H1 with ⟨%G1, %e1, H1⟩
  icases H2 with ⟨%G2, %e2, H2⟩
  icases H3 with ⟨%G3, %e3, H3⟩
  icases H4 with ⟨%G4, %e4, H4⟩
  icases H5 with ⟨%G5, %e5, H5⟩
  have e0' : G0 = V c main_arg1 := (congrFun ((rd0 V c).ArrAt_in 0 rfl cfg0.N) G0).mp e0
  have e1' : G1 = V c main_arg2 := (congrFun ((rd0 V c).ArrAt_in 1 rfl cfg0.N) G1).mp e1
  have e2' : G2 = V c main_arg0 := (congrFun ((rd0 V c).ArrAt_in 2 rfl cfg0.N) G2).mp e2
  have e3' : G3 = V c main_arg0 := (congrFun ((rd0 V c).ArrAt_in 3 rfl cfg0.N) G3).mp e3
  have e4' : G4 = V' main_v0_0 := h4 G4 e4
  have e5' : G5 = V' main_v0_1 := h5 G5 e5
  subst e0' e1' e2' e3' e4' e5'
  ihave HX := (pointsTo_share (PosShare.mem_left_op_right fullShare)).2 $$ [H2 H3]
  · isplitl [H2]; · iexact H2
    iexact H3
  isplitl [H0]; · iexact H0
  isplitl [H1]; · iexact H1
  isplitl [HX]; · iexact HX
  isplitl [H4]; · iexact H4
  iexact H5

end Cert.KernelIdeal.Hand

end
-- ==== Proof.Shares1.lean ====
/-
  The second kernel region: the buffers behind its windows' arrays, at exit (and, for symmetry, at entry).

  The region has seven windows over seven distinct buffers, each held whole at the full share: six inputs and one
  output. At exit each window's array is held at some contents it may then hold; an input's array is never written,
  so it holds its entry contents; the output's contents is what the caller says every possible final contents is.
  So the seven arrays make the seven buffers at the full share, at any contents that keeps the six inputs and names
  the output. At entry the seven buffers at the full share are the seven windows' arrays, as they are.
-/
import proofs.«141685_g10428180595104_week1_w2_90_17_alg».proof.Proof.Forms1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The seven buffers behind the seven windows' arrays, one by one. -/
theorem arrBufs1_chain (c : Dev nD) (V' : (b : Ref sig .tc) → Buf (Elt F) ((c : Thread nD τ).loc b)) :
    (Pipeline.arrBufs spec1 c V' : sProp 𝕄)
      = iprop((((c : Thread nD τ).loc main_arg3) ↦{fullShare} V' main_arg3)
        ∗ (((c : Thread nD τ).loc main_arg4) ↦{fullShare} V' main_arg4)
        ∗ (((c : Thread nD τ).loc main_arg5) ↦{fullShare} V' main_arg5)
        ∗ (((c : Thread nD τ).loc main_v0_0) ↦{fullShare} V' main_v0_0)
        ∗ (((c : Thread nD τ).loc main_v0_1) ↦{fullShare} V' main_v0_1)
        ∗ (((c : Thread nD τ).loc main_arg0) ↦{fullShare} V' main_arg0)
        ∗ (((c : Thread nD τ).loc main_v1) ↦{fullShare} V' main_v1)) := by
  classical
  unfold Pipeline.arrBufs
  exact bigSep_eq_bigSepL_of_eq [main_arg3, main_arg4, main_arg5, main_v0_0, main_v0_1, main_arg0, main_v1] (by decide) (by decide) _

theorem share1_0 (c : Dev nD) : (rd1 V c).share 0 = fullShare := rfl
theorem share1_1 (c : Dev nD) : (rd1 V c).share 1 = fullShare := rfl
theorem share1_2 (c : Dev nD) : (rd1 V c).share 2 = fullShare := rfl
theorem share1_3 (c : Dev nD) : (rd1 V c).share 3 = fullShare := rfl
theorem share1_4 (c : Dev nD) : (rd1 V c).share 4 = fullShare := rfl
theorem share1_5 (c : Dev nD) : (rd1 V c).share 5 = fullShare := rfl
theorem share1_6 (c : Dev nD) : (rd1 V c).share 6 = fullShare := rfl

theorem A1_0 (c : Dev nD) : (rd1 V c).A 0 = V c main_arg3 := rfl
theorem A1_1 (c : Dev nD) : (rd1 V c).A 1 = V c main_arg4 := rfl
theorem A1_2 (c : Dev nD) : (rd1 V c).A 2 = V c main_arg5 := rfl
theorem A1_3 (c : Dev nD) : (rd1 V c).A 3 = V c main_v0_0 := rfl
theorem A1_4 (c : Dev nD) : (rd1 V c).A 4 = V c main_v0_1 := rfl
theorem A1_5 (c : Dev nD) : (rd1 V c).A 5 = V c main_arg0 := rfl
theorem A1_6 (c : Dev nD) : (rd1 V c).A 6 = V c main_v1 := rfl

/-- Entry: the seven buffers at the full share are the seven windows' arrays at the entry contents. -/
theorem arr1_split (c : Dev nD) : (Pipeline.arrBufs spec1 c (V c) : sProp 𝕄) ⊢ (rd1 V c).arrays (rd1 V c).A := by
  rw [arrBufs1_chain]
  unfold RDat.arrays
  rw [bigSep_W1]
  simp only [share1_0, share1_1, share1_2, share1_3, share1_4, share1_5, share1_6, A1_0, A1_1, A1_2, A1_3, A1_4, A1_5, A1_6,
    View.set_whole]
  iintro ⟨H0, H1, H2, H3, H4, H5, H6⟩
  isplitl [H0]; · iexact H0
  isplitl [H1]; · iexact H1
  isplitl [H2]; · iexact H2
  isplitl [H3]; · iexact H3
  isplitl [H4]; · iexact H4
  isplitl [H5]; · iexact H5
  iexact H6

/-- Exit: the seven windows' arrays after every write-back make the seven buffers at the full share, at any contents
    `V'` that keeps the six inputs and that every possible final contents of the output equals. -/
theorem arr1_exit (c : Dev nD) (V' : (b : Ref sig .tc) → Buf (Elt F) ((c : Thread nD τ).loc b))
    (h0 : V' main_arg3 = V c main_arg3) (h1 : V' main_arg4 = V c main_arg4) (h2 : V' main_arg5 = V c main_arg5)
    (h3 : V' main_v0_0 = V c main_v0_0) (h4 : V' main_v0_1 = V c main_v0_1) (h5 : V' main_arg0 = V c main_arg0)
    (h6 : ∀ G, (rd1 V c).ArrAt 6 cfg1.N G → G = V' main_v1) :
    ((rd1 V c).arraysAt cfg1.N : sProp 𝕄) ⊢ Pipeline.arrBufs spec1 c V' := by
  rw [arrBufs1_chain, h0, h1, h2, h3, h4, h5]
  unfold RDat.arraysAt
  rw [bigSep_W1]
  simp only [share1_0, share1_1, share1_2, share1_3, share1_4, share1_5, share1_6, View.set_whole]
  iintro ⟨H0, H1, H2, H3, H4, H5, H6⟩
  icases H0 with ⟨%G0, %e0, H0⟩
  icases H1 with ⟨%G1, %e1, H1⟩
  icases H2 with ⟨%G2, %e2, H2⟩
  icases H3 with ⟨%G3, %e3, H3⟩
  icases H4 with ⟨%G4, %e4, H4⟩
  icases H5 with ⟨%G5, %e5, H5⟩
  icases H6 with ⟨%G6, %e6, H6⟩
  have e0' : G0 = V c main_arg3 := (congrFun ((rd1 V c).ArrAt_in 0 rfl cfg1.N) G0).mp e0
  have e1' : G1 = V c main_arg4 := (congrFun ((rd1 V c).ArrAt_in 1 rfl cfg1.N) G1).mp e1
  have e2' : G2 = V c main_arg5 := (congrFun ((rd1 V c).ArrAt_in 2 rfl cfg1.N) G2).mp e2
  have e3' : G3 = V c main_v0_0 := (congrFun ((rd1 V c).ArrAt_in 3 rfl cfg1.N) G3).mp e3
  have e4' : G4 = V c main_v0_1 := (congrFun ((rd1 V c).ArrAt_in 4 rfl cfg1.N) G4).mp e4
  have e5' : G5 = V c main_arg0 := (congrFun ((rd1 V c).ArrAt_in 5 rfl cfg1.N) G5).mp e5
  have e6' : G6 = V' main_v1 := h6 G6 e6
  subst e0' e1' e2' e3' e4' e5' e6'
  isplitl [H0]; · iexact H0
  isplitl [H1]; · iexact H1
  isplitl [H2]; · iexact H2
  isplitl [H3]; · iexact H3
  isplitl [H4]; · iexact H4
  isplitl [H5]; · iexact H5
  iexact H6

end Cert.KernelIdeal.Hand

end
-- ==== Proof.Arr0.lean ====
/-
  The arrays the first region leaves.

  The region's 8 points each handle 512 rows.  Output window 4 writes its block back at every point: block u is the
  rows [512 u, 512 u + 512) and holds that point's summed block, so the array ends as the summed blocks stacked.
  Output window 5 is one whole-array block kept in its staging buffer across the points; each point replaces its own
  512 rows there, and the one write-back after the last point moves the whole buffer, so the array ends as the
  points' row blocks stacked.
-/
import proofs.«141685_g10428180595104_week1_w2_90_17_alg».proof.Proof.Forms0
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

open Cert.GraphConv

/-! ## An array after its write-backs, index by index -/

namespace Arr0

section General

variable {c : Dev nD} (rd : RDat τ (Elt F) Unit ℕ (UR sig nD τ) ℕ cfg0 c) (w : Fin cfg0.W)

/-- If what every flushing point may write back is ITS block of one whole-array contents G, an index in a flushed
    block below n reads G after the write-backs below n. -/
theorem arrAt_apply_of_mem (G : Buf (Elt F) ((cfg0.win w).arr.view.loc (c.tc : Thread nD τ)))
    (hG : ∀ (t : Fin cfg0.N) X, (cfg0.win w).flush t = true → rd.Leaves w t X →
      (cfg0.win w).cut (cfg0.grid.coords t) X = ((cfg0.win w).blk t).view.read (Elt F) G) :
    ∀ (n : Nat) (H : Buf (Elt F) ((cfg0.win w).arr.view.loc (c.tc : Thread nD τ))), rd.ArrAt w n H →
      ∀ (t : Fin cfg0.N) (i : ((cfg0.win w).arr.view.loc (c.tc : Thread nD τ)).2.ty.Idx),
        t.val < n → (cfg0.win w).flush t = true → i ∈ ((cfg0.win w).blk t).view.set → H i = G i
  | 0, _, _, _, _, ht, _, _ => absurd ht (Nat.not_lt_zero _)
  | n + 1, H, hH, t, i, ht, hf, hi => by
    by_cases hn : n < cfg0.N
    swap
    · have e : rd.ArrAt w (n + 1) = rd.ArrAt w n :=
        (rd.ArrAt_stable w (n + 1) (by omega)).trans (rd.ArrAt_stable w n (by omega)).symm
      exact arrAt_apply_of_mem G hG n H (e ▸ hH) t i (by have := t.isLt; omega) hf hi
    have hH' : (if (cfg0.win w).flush ⟨n, hn⟩ then rd.ArrStep w ⟨n, hn⟩ (rd.ArrAt w n) else rd.ArrAt w n) H :=
      Eq.mp (congrFun (rd.ArrAt_succ w ⟨n, hn⟩) H) hH
    by_cases hfn : (cfg0.win w).flush ⟨n, hn⟩ = true
    · rw [if_pos hfn] at hH'
      obtain ⟨H₀, X, hH₀, hX, rfl⟩ := hH'
      rw [hG _ X hfn hX, View.write_read_eq_piecewise]
      by_cases hin : i ∈ ((cfg0.win w).blk ⟨n, hn⟩).view.setOn Finset.univ
      · rw [Finset.piecewise_eq_of_mem _ _ _ hin]
      · rw [Finset.piecewise_eq_of_notMem _ _ _ hin]
        have htn : t.val ≠ n := fun e => hin (by rw [View.setOn_univ]; have : t = ⟨n, hn⟩ := Fin.ext e; exact this ▸ hi)
        exact arrAt_apply_of_mem G hG n H₀ hH₀ t i (by omega) hf hi
    · rw [if_neg hfn] at hH'
      have htn : t.val ≠ n := fun e => hfn (by have : t = ⟨n, hn⟩ := Fin.ext e; exact this ▸ hf)
      exact arrAt_apply_of_mem G hG n H hH' t i (by omega) hf hi

/-- When every index is in some flushing point's block, the array ends holding G. -/
theorem arrAt_eq_of_cover (G : Buf (Elt F) ((cfg0.win w).arr.view.loc (c.tc : Thread nD τ)))
    (hG : ∀ (t : Fin cfg0.N) X, (cfg0.win w).flush t = true → rd.Leaves w t X →
      (cfg0.win w).cut (cfg0.grid.coords t) X = ((cfg0.win w).blk t).view.read (Elt F) G)
    (hcover : ∀ i : ((cfg0.win w).arr.view.loc (c.tc : Thread nD τ)).2.ty.Idx,
      ∃ t : Fin cfg0.N, (cfg0.win w).flush t = true ∧ i ∈ ((cfg0.win w).blk t).view.set)
    (H : Buf (Elt F) ((cfg0.win w).arr.view.loc (c.tc : Thread nD τ))) (hH : rd.ArrAt w cfg0.N H) : H = G :=
  funext fun i => by
    obtain ⟨t, hf, hi⟩ := hcover i
    exact arrAt_apply_of_mem rd w G hG cfg0.N H hH t i t.isLt hf hi

end General

end Arr0

/-! ## The region's windows, point by point -/

variable (V : (c : Dev nD) → (b : Ref sig .tc) → Buf (Elt F) ((c : Thread nD τ).loc b))

namespace Arr0

theorem hz2 : (![0, 0] : Fin 2 → Nat) = fun _ => 0 := funext fun a => by fin_cases a <;> rfl

/-- The windows' block indices at each point: windows 0, 1, 3 and 4 move down one block of rows per point, windows 2 and 5 stay. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0 :=
  (by decide +kernel : ∀ t : Fin grid0.N, _)

/-- The point that handles row r. -/
theorem pt_lt (r : ℕ) (h : r < 4096) : r / 512 < cfg0.N := by
  have hN : cfg0.N = 8 := N_0
  omega

end Arr0

open Arr0

/-- The summed matrix as the points' blocks stacked: row r is row r % 512 of point r / 512's block. -/
def Sarr (c : Dev nD) : Vec F S4096x4096 .bf16 := fun y =>
  sBlk0 V c ⟨(y 0).val / 512, pt_lt _ (ValueIdx.idx2_lt0 y)⟩
    (ValueIdx.ix2 ⟨(y 0).val % 512, Nat.mod_lt _ (by decide)⟩ ⟨(y 1).val, ValueIdx.idx2_lt1 y⟩)

/-- The product as the points' row blocks stacked. -/
def Yarr (c : Dev nD) : Vec F S4096x64 .bf16 := fun y =>
  yBlk0 V c ⟨(y 0).val / 512, pt_lt _ (ValueIdx.idx2_lt0 y)⟩
    (ValueIdx.ix2 ⟨(y 0).val % 512, Nat.mod_lt _ (by decide)⟩ ⟨(y 1).val, ValueIdx.idx2_lt1 y⟩)

/-- The stacked matrix at row 512 t + r is point t's block at row r. -/
theorem Sarr_apply (c : Dev nD) (t : Fin cfg0.N) (x : S512x4096.Idx) (y : S4096x4096.Idx)
    (h0 : (y 0).val = 512 * t.val + (x 0).val) (h1 : (y 1).val = (x 1).val) : Sarr V c y = sBlk0 V c t x := by
  have hx0 : (x 0).val < 512 := ValueIdx.idx2_lt0 x
  unfold Sarr
  have ht : (⟨(y 0).val / 512, pt_lt _ (ValueIdx.idx2_lt0 y)⟩ : Fin cfg0.N) = t := Fin.ext (by show (y 0).val / 512 = t.val; omega)
  have hx : (ValueIdx.ix2 ⟨(y 0).val % 512, Nat.mod_lt _ (by decide)⟩ ⟨(y 1).val, ValueIdx.idx2_lt1 y⟩ : S512x4096.Idx) = x :=
    funext fun a => Fin.ext (by
      match a with
      | ⟨0, _⟩ => show (y 0).val % 512 = (x 0).val; omega
      | ⟨1, _⟩ => exact h1)
  rw [ht, hx]

theorem Yarr_apply (c : Dev nD) (t : Fin cfg0.N) (x : S512x64.Idx) (y : S4096x64.Idx)
    (h0 : (y 0).val = 512 * t.val + (x 0).val) (h1 : (y 1).val = (x 1).val) : Yarr V c y = yBlk0 V c t x := by
  have hx0 : (x 0).val < 512 := ValueIdx.idx2_lt0 x
  unfold Yarr
  have ht : (⟨(y 0).val / 512, pt_lt _ (ValueIdx.idx2_lt0 y)⟩ : Fin cfg0.N) = t := Fin.ext (by show (y 0).val / 512 = t.val; omega)
  have hx : (ValueIdx.ix2 ⟨(y 0).val % 512, Nat.mod_lt _ (by decide)⟩ ⟨(y 1).val, ValueIdx.idx2_lt1 y⟩ : S512x64.Idx) = x :=
    funext fun a => Fin.ext (by
      match a with
      | ⟨0, _⟩ => show (y 0).val % 512 = (x 0).val; omega
      | ⟨1, _⟩ => exact h1)
  rw [ht, hx]

/-! ## Output window 4: a block of rows written back at every point -/

namespace Arr0

/-- An index of the array is in point t's block iff its row is among the point's 512. -/
theorem mem_blk0_4 (t : Fin cfg0.N) (i : S4096x4096.Idx) :
    i ∈ ((cfg0.win 4).blk t).view.set ↔ 512 * t.val ≤ (i 0).val ∧ (i 0).val < 512 * t.val + 512 := by
  show i ∈ ((View.whole main_v0_0).slice (win0_4.rect t)).set ↔ _
  rw [View.set_slice_whole, Rect.mem_set_unit]
  obtain ⟨-, -, -, -, -, -, -, -, e0, e1, -, -⟩ := idx_facts0 t
  have hi1 : (i 1).val < 4096 := ValueIdx.idx2_lt1 i
  constructor
  · intro h
    have b0 : win0_4.index t (0 : Fin 2) * 512 ≤ (i 0).val ∧ (i 0).val < win0_4.index t (0 : Fin 2) * 512 + 512 := h 0
    omega
  · intro h a
    match a with
    | ⟨0, _⟩ => show win0_4.index t (0 : Fin 2) * 512 ≤ (i 0).val ∧ (i 0).val < win0_4.index t (0 : Fin 2) * 512 + 512; omega
    | ⟨1, _⟩ => show win0_4.index t (1 : Fin 2) * 4096 ≤ (i 1).val ∧ (i 1).val < win0_4.index t (1 : Fin 2) * 4096 + 4096; omega

/-- What point t may write back is block t of the stacked matrix. -/
theorem flushed0_4 (c : Dev nD) (t : Fin cfg0.N) (X : (cfg0.win 4).block.Idx → Elt F (cfg0.win 4).elt)
    (hX : (rd0 V c).Leaves 4 t X) :
    (cfg0.win 4).cut (cfg0.grid.coords t) X = ((cfg0.win 4).blk t).view.read (Elt F) (Sarr V c) := by
  obtain ⟨Y, -, hY⟩ := hX
  have hX' : X = View.canon [⟨rW0, sBlk0 V c t⟩] := hY
  rw [hX', View.canon_unit_zero hz2]
  obtain ⟨-, -, -, -, -, -, -, -, e0, e1, -, -⟩ := idx_facts0 t
  funext j
  show sBlk0 V c t j = Sarr V c (((cfg0.win 4).blk t).view.emb j)
  refine (Sarr_apply V c t j _ ?_ ?_).symm
  · show win0_4.index t (0 : Fin 2) * 512 + 1 * (j 0).val = 512 * t.val + (j 0).val; omega
  · show win0_4.index t (1 : Fin 2) * 4096 + 1 * (j 1).val = (j 1).val; omega

/-- Every row is some point's. -/
theorem rows_cover0_4 (i : S4096x4096.Idx) : ∃ t : Fin cfg0.N, (cfg0.win 4).flush t = true ∧ i ∈ ((cfg0.win 4).blk t).view.set := by
  refine ⟨⟨(i 0).val / 512, pt_lt _ (ValueIdx.idx2_lt0 i)⟩, flush0_4 _, ?_⟩
  rw [mem_blk0_4]
  show 512 * ((i 0).val / 512) ≤ (i 0).val ∧ (i 0).val < 512 * ((i 0).val / 512) + 512
  omega

end Arr0

/-- The summed matrix's array after the region: the points' blocks stacked. -/
theorem arrAt0_4 (c : Dev nD) (G : Buf (Elt F) ((cfg0.win 4).arr.view.loc (c.tc : Thread nD τ)))
    (h : (rd0 V c).ArrAt 4 cfg0.N G) : G = Sarr V c :=
  arrAt_eq_of_cover (rd0 V c) 4 (Sarr V c) (fun t X _ hX => flushed0_4 V c t X hX) rows_cover0_4 G h

/-! ## Output window 5: the whole product, carried across the points and written back once -/

namespace Arr0

/-- Window 5 is an output: never fetched. -/
theorem fetch0_5 (t : Fin cfg0.N) : (cfg0.win 5).fetch t = false := rfl

/-- What the carried buffer may hold after point n: the rows of the points up to n are theirs of the stacked product. -/
theorem leaves0_5 (c : Dev nD) : ∀ (n : ℕ) (hn : n < cfg0.N) (X : (cfg0.win 5).block.Idx → Elt F (cfg0.win 5).elt),
    (rd0 V c).Leaves 5 ⟨n, hn⟩ X → ∀ y : S4096x64.Idx, (y 0).val < 512 * (n + 1) → X y = Yarr V c y
  | n, hn, X, hX, y, hy => by
    obtain ⟨Y, hY, hXY⟩ := hX
    have hR : RowsUpd (R := 4096) (C := 64) (W := 512) (512 * n) (yBlk0 V c ⟨n, hn⟩) Y X := hXY
    have hy1 : (y 1).val < 64 := ValueIdx.idx2_lt1 y
    by_cases hlo : (y 0).val < 512 * n
    · -- a row of an earlier point: the buffer kept it
      rw [hR.2 y (Or.inl hlo)]
      match n, hn, hY, hR, hlo with
      | 0, _, _, _, hlo => exact absurd hlo (by omega)
      | m + 1, hn, hY, _, hlo =>
        have hN : cfg0.N = 8 := N_0
        rw [(rd0 V c).finds_of_pos (fetch0_5 _) (by show m + 1 ≠ 0; omega)] at hY
        have e : (⟨(⟨m + 1, hn⟩ : Fin cfg0.N).val - 1, Nat.lt_of_le_of_lt (Nat.sub_le _ _) (⟨m + 1, hn⟩ : Fin cfg0.N).isLt⟩ : Fin cfg0.N)
            = ⟨m, by omega⟩ := Fin.ext (by show m + 1 - 1 = m; omega)
        rw [e] at hY
        rcases hY with hf | hL
        · exact absurd ((flush0_5 _).mp hf) (by show ¬ m % 8 = 7; omega)
        · exact leaves0_5 c m (by omega) Y hL y (by omega)
    · -- a row of this point
      have hx0 : (y 0).val - 512 * n < 512 := by omega
      let x : S512x64.Idx := ValueIdx.ix2 ⟨(y 0).val - 512 * n, hx0⟩ ⟨(y 1).val, hy1⟩
      have h0 : (y (0 : Fin 2)).val = 512 * n + (x (0 : Fin 2)).val := by show (y 0).val = 512 * n + ((y 0).val - 512 * n); omega
      have h1 : (y (1 : Fin 2)).val = (x (1 : Fin 2)).val := rfl
      rw [hR.1 x y h0 h1]
      exact (Yarr_apply V c ⟨n, hn⟩ x y h0 h1).symm

/-- An index of the array is in window 5's one block. -/
theorem mem_blk0_5 (t : Fin cfg0.N) (i : S4096x64.Idx) : i ∈ ((cfg0.win 5).blk t).view.set := by
  show i ∈ ((View.whole main_v0_1).slice (win0_5.rect t)).set
  rw [View.set_slice_whole, Rect.mem_set_unit]
  obtain ⟨-, -, -, -, -, -, -, -, -, -, e0, e1⟩ := idx_facts0 t
  have hi0 : (i 0).val < 4096 := ValueIdx.idx2_lt0 i
  have hi1 : (i 1).val < 64 := ValueIdx.idx2_lt1 i
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 64 ≤ (i 1).val ∧ (i 1).val < win0_5.index t (1 : Fin 2) * 64 + 64; omega

/-- What the last point may write back is the stacked product. -/
theorem flushed0_5 (c : Dev nD) (t : Fin cfg0.N) (X : (cfg0.win 5).block.Idx → Elt F (cfg0.win 5).elt)
    (hf : (cfg0.win 5).flush t = true) (hX : (rd0 V c).Leaves 5 t X) :
    (cfg0.win 5).cut (cfg0.grid.coords t) X = ((cfg0.win 5).blk t).view.read (Elt F) (Yarr V c) := by
  have ht : t.val % 8 = 7 := (flush0_5 t).mp hf
  obtain ⟨-, -, -, -, -, -, -, -, -, -, e0, e1⟩ := idx_facts0 t
  funext j
  show X j = Yarr V c (((cfg0.win 5).blk t).view.emb j)
  have hemb : ((cfg0.win 5).blk t).view.emb j = j := funext fun a => Fin.ext (by
    match a with
    | ⟨0, _⟩ => show win0_5.index t (0 : Fin 2) * 4096 + 1 * (j 0).val = (j 0).val; omega
    | ⟨1, _⟩ => show win0_5.index t (1 : Fin 2) * 64 + 1 * (j 1).val = (j 1).val; omega)
  rw [hemb]
  have hj0 : (j 0).val < 4096 := ValueIdx.idx2_lt0 j
  obtain ⟨n, hn⟩ := t
  exact leaves0_5 V c n hn X hX j (by have hN : cfg0.N = 8 := N_0; show (j 0).val < 512 * (n + 1); simp only at ht; omega)

theorem rows_cover0_5 (i : S4096x64.Idx) : ∃ t : Fin cfg0.N, (cfg0.win 5).flush t = true ∧ i ∈ ((cfg0.win 5).blk t).view.set :=
  ⟨⟨7, by have hN : cfg0.N = 8 := N_0; omega⟩, (flush0_5 _).mpr rfl, mem_blk0_5 _ i⟩

end Arr0

/-- The product's array after the region: the points' row blocks stacked. -/
theorem arrAt0_5 (c : Dev nD) (G : Buf (Elt F) ((cfg0.win 5).arr.view.loc (c.tc : Thread nD τ)))
    (h : (rd0 V c).ArrAt 5 cfg0.N G) : G = Yarr V c :=
  arrAt_eq_of_cover (rd0 V c) 5 (Yarr V c) (fun t X hf hX => flushed0_5 V c t X hf hX) rows_cover0_5 G h

end Cert.KernelIdeal.Hand

end
-- ==== Proof.Arr1.lean ====
/-
  The array the second region leaves.

  The region's 96 points are three sweeps over 32 row blocks of 128 rows.  Its one output is a single whole-array block kept
  in its staging buffer across all the points: the first two sweeps leave it as they find it, point 64 + b of the third
  replaces the rows [128 b, 128 b + 128) by that row block's rows of the result, and the one write-back after the last
  point moves the whole buffer.  So the array ends as the row blocks' results stacked.
-/
import proofs.«141685_g10428180595104_week1_w2_90_17_alg».proof.Proof.Forms1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

open Cert.GraphConv

/-! ## An array after its write-backs, index by index (any region) -/

namespace Arr1

section General

variable {cfg : Cfg sig Λ₀} {c : Dev nD} (rd : RDat τ (Elt F) Unit ℕ (UR sig nD τ) ℕ cfg c) (w : Fin cfg.W)

/-- If what every flushing point may write back is ITS block of one whole-array contents G, an index in a flushed
    block below n reads G after the write-backs below n. -/
theorem arrAt_apply_of_mem (G : Buf (Elt F) ((cfg.win w).arr.view.loc (c.tc : Thread nD τ)))
    (hG : ∀ (t : Fin cfg.N) X, (cfg.win w).flush t = true → rd.Leaves w t X →
      (cfg.win w).cut (cfg.grid.coords t) X = ((cfg.win w).blk t).view.read (Elt F) G) :
    ∀ (n : Nat) (H : Buf (Elt F) ((cfg.win w).arr.view.loc (c.tc : Thread nD τ))), rd.ArrAt w n H →
      ∀ (t : Fin cfg.N) (i : ((cfg.win w).arr.view.loc (c.tc : Thread nD τ)).2.ty.Idx),
        t.val < n → (cfg.win w).flush t = true → i ∈ ((cfg.win w).blk t).view.set → H i = G i
  | 0, _, _, _, _, ht, _, _ => absurd ht (Nat.not_lt_zero _)
  | n + 1, H, hH, t, i, ht, hf, hi => by
    by_cases hn : n < cfg.N
    swap
    · have e : rd.ArrAt w (n + 1) = rd.ArrAt w n :=
        (rd.ArrAt_stable w (n + 1) (by omega)).trans (rd.ArrAt_stable w n (by omega)).symm
      exact arrAt_apply_of_mem G hG n H (e ▸ hH) t i (by have := t.isLt; omega) hf hi
    have hH' : (if (cfg.win w).flush ⟨n, hn⟩ then rd.ArrStep w ⟨n, hn⟩ (rd.ArrAt w n) else rd.ArrAt w n) H :=
      Eq.mp (congrFun (rd.ArrAt_succ w ⟨n, hn⟩) H) hH
    by_cases hfn : (cfg.win w).flush ⟨n, hn⟩ = true
    · rw [if_pos hfn] at hH'
      obtain ⟨H₀, X, hH₀, hX, rfl⟩ := hH'
      rw [hG _ X hfn hX, View.write_read_eq_piecewise]
      by_cases hin : i ∈ ((cfg.win w).blk ⟨n, hn⟩).view.setOn Finset.univ
      · rw [Finset.piecewise_eq_of_mem _ _ _ hin]
      · rw [Finset.piecewise_eq_of_notMem _ _ _ hin]
        have htn : t.val ≠ n := fun e => hin (by rw [View.setOn_univ]; have : t = ⟨n, hn⟩ := Fin.ext e; exact this ▸ hi)
        exact arrAt_apply_of_mem G hG n H₀ hH₀ t i (by omega) hf hi
    · rw [if_neg hfn] at hH'
      have htn : t.val ≠ n := fun e => hfn (by have : t = ⟨n, hn⟩ := Fin.ext e; exact this ▸ hf)
      exact arrAt_apply_of_mem G hG n H hH' t i (by omega) hf hi

/-- When every index is in some flushing point's block, the array ends holding G. -/
theorem arrAt_eq_of_cover (G : Buf (Elt F) ((cfg.win w).arr.view.loc (c.tc : Thread nD τ)))
    (hG : ∀ (t : Fin cfg.N) X, (cfg.win w).flush t = true → rd.Leaves w t X →
      (cfg.win w).cut (cfg.grid.coords t) X = ((cfg.win w).blk t).view.read (Elt F) G)
    (hcover : ∀ i : ((cfg.win w).arr.view.loc (c.tc : Thread nD τ)).2.ty.Idx,
      ∃ t : Fin cfg.N, (cfg.win w).flush t = true ∧ i ∈ ((cfg.win w).blk t).view.set)
    (H : Buf (Elt F) ((cfg.win w).arr.view.loc (c.tc : Thread nD τ))) (hH : rd.ArrAt w cfg.N H) : H = G :=
  funext fun i => by
    obtain ⟨t, hf, hi⟩ := hcover i
    exact arrAt_apply_of_mem rd w G hG cfg.N H hH t i t.isLt hf hi

end General

end Arr1

/-! ## The result stacked, at a row of a row block -/

variable (V : (c : Dev nD) → (b : Ref sig .tc) → Buf (Elt F) ((c : Thread nD τ).loc b))

/-- The stacked result at row 128 b + r is row block b's result at row r. -/
theorem OUT_apply (c : Dev nD) (b : Fin 32) (x : S128x64.Idx) (y : S4096x64.Idx)
    (h0 : (y 0).val = 128 * b.val + (x 0).val) (h1 : (y 1).val = (x 1).val) : OUT V c y = outBlk V c b x := by
  have hx0 : (x 0).val < 128 := ValueIdx.idx2_lt0 x
  unfold OUT
  have hb : rowBlk y = b := Fin.ext (by show (y 0).val / 128 = b.val; omega)
  have hx : (ValueIdx.ix2 (n0 := 128) (n1 := 64) (rowIn y) (y 1) : S128x64.Idx) = x :=
    funext fun a => Fin.ext (by
      match a with
      | ⟨0, _⟩ => show (y 0).val % 128 = (x 0).val; omega
      | ⟨1, _⟩ => exact h1)
  rw [hb, hx]

/-! ## Output window 6: the whole result, carried across the points and written back once -/

namespace Arr1

/-- Window 6's block index: the one whole-array block at every point. -/
theorem idx_facts1_6 : ∀ t : Fin cfg1.N, win1_6.index t (0 : Fin 2) = 0 ∧ win1_6.index t (1 : Fin 2) = 0 :=
  (by decide +kernel : ∀ t : Fin grid1.N, _)

/-- Window 6 is an output: never fetched. -/
theorem fetch1_6 (t : Fin cfg1.N) : (cfg1.win 6).fetch t = false := rfl

/-- What the carried buffer may hold after point n: the rows of the third sweep's row blocks up to n - 64 are theirs of the
    stacked result. -/
theorem leaves1_6 (c : Dev nD) : ∀ (n : ℕ) (hn : n < cfg1.N) (X : (cfg1.win 6).block.Idx → Elt F (cfg1.win 6).elt),
    (rd1 V c).Leaves 6 ⟨n, hn⟩ X → ∀ y : S4096x64.Idx, (y 0).val + 8192 < 128 * (n + 1) → X y = OUT V c y
  | n, hn, X, hX, y, hy => by
    have hN : cfg1.N = 96 := N_1
    obtain ⟨Y, hY, hXY⟩ := hX
    have hXY' : if h : n < 64 then X = Y
        else RowsUpd (R := 4096) (C := 64) (W := 128) (128 * (n - 64)) (outBlk V c ⟨n - 64, by omega⟩) Y X := hXY
    have hn64 : ¬ n < 64 := by omega
    rw [dif_neg hn64] at hXY'
    have hy1 : (y 1).val < 64 := ValueIdx.idx2_lt1 y
    by_cases hlo : (y 0).val < 128 * (n - 64)
    · -- a row of an earlier row block: the buffer kept it
      rw [hXY'.2 y (Or.inl hlo)]
      match n, hn, hY, hlo, hy with
      | 0, _, _, hlo, _ => exact absurd hlo (by omega)
      | m + 1, hn, hY, hlo, hy =>
        rw [(rd1 V c).finds_of_pos (fetch1_6 _) (by show m + 1 ≠ 0; omega)] at hY
        have e : (⟨(⟨m + 1, hn⟩ : Fin cfg1.N).val - 1, Nat.lt_of_le_of_lt (Nat.sub_le _ _) (⟨m + 1, hn⟩ : Fin cfg1.N).isLt⟩ : Fin cfg1.N)
            = ⟨m, by omega⟩ := Fin.ext (by show m + 1 - 1 = m; omega)
        rw [e] at hY
        rcases hY with hf | hL
        · exact absurd ((flush1_6 _).mp hf) (by show ¬ m % 96 = 95; omega)
        · exact leaves1_6 c m (by omega) Y hL y (by omega)
    · -- a row of this row block
      have hx0 : (y 0).val - 128 * (n - 64) < 128 := by omega
      let x : S128x64.Idx := ValueIdx.ix2 ⟨(y 0).val - 128 * (n - 64), hx0⟩ ⟨(y 1).val, hy1⟩
      have h0 : (y (0 : Fin 2)).val = 128 * (n - 64) + (x (0 : Fin 2)).val := by
        show (y 0).val = 128 * (n - 64) + ((y 0).val - 128 * (n - 64)); omega
      have h1 : (y (1 : Fin 2)).val = (x (1 : Fin 2)).val := rfl
      rw [hXY'.1 x y h0 h1]
      exact (OUT_apply V c ⟨n - 64, by omega⟩ x y h0 h1).symm

/-- Every index of the array is in window 6's one block. -/
theorem mem_blk1_6 (t : Fin cfg1.N) (i : S4096x64.Idx) : i ∈ ((cfg1.win 6).blk t).view.set := by
  show i ∈ ((View.whole main_v1).slice (win1_6.rect t)).set
  rw [View.set_slice_whole, Rect.mem_set_unit]
  obtain ⟨e0, e1⟩ := idx_facts1_6 t
  have hi0 : (i 0).val < 4096 := ValueIdx.idx2_lt0 i
  have hi1 : (i 1).val < 64 := ValueIdx.idx2_lt1 i
  intro a
  match a with
  | ⟨0, _⟩ => show win1_6.index t (0 : Fin 2) * 4096 ≤ (i 0).val ∧ (i 0).val < win1_6.index t (0 : Fin 2) * 4096 + 4096; omega
  | ⟨1, _⟩ => show win1_6.index t (1 : Fin 2) * 64 ≤ (i 1).val ∧ (i 1).val < win1_6.index t (1 : Fin 2) * 64 + 64; omega

/-- What the last point may write back is the stacked result. -/
theorem flushed1_6 (c : Dev nD) (t : Fin cfg1.N) (X : (cfg1.win 6).block.Idx → Elt F (cfg1.win 6).elt)
    (hf : (cfg1.win 6).flush t = true) (hX : (rd1 V c).Leaves 6 t X) :
    (cfg1.win 6).cut (cfg1.grid.coords t) X = ((cfg1.win 6).blk t).view.read (Elt F) (OUT V c) := by
  have ht : t.val % 96 = 95 := (flush1_6 t).mp hf
  obtain ⟨e0, e1⟩ := idx_facts1_6 t
  funext j
  show X j = OUT V c (((cfg1.win 6).blk t).view.emb j)
  have hemb : ((cfg1.win 6).blk t).view.emb j = j := funext fun a => Fin.ext (by
    match a with
    | ⟨0, _⟩ => show win1_6.index t (0 : Fin 2) * 4096 + 1 * (j 0).val = (j 0).val; omega
    | ⟨1, _⟩ => show win1_6.index t (1 : Fin 2) * 64 + 1 * (j 1).val = (j 1).val; omega)
  rw [hemb]
  have hj0 : (j 0).val < 4096 := ValueIdx.idx2_lt0 j
  obtain ⟨n, hn⟩ := t
  exact leaves1_6 V c n hn X hX j (by have hN : cfg1.N = 96 := N_1; show (j 0).val + 8192 < 128 * (n + 1); simp only at ht; omega)

theorem rows_cover1_6 (i : S4096x64.Idx) : ∃ t : Fin cfg1.N, (cfg1.win 6).flush t = true ∧ i ∈ ((cfg1.win 6).blk t).view.set :=
  ⟨⟨95, by have hN : cfg1.N = 96 := N_1; omega⟩, (flush1_6 _).mpr rfl, mem_blk1_6 _ i⟩

end Arr1

open Arr1

/-- The result's array after the region: the row blocks' results stacked. -/
theorem arrAt1_6 (c : Dev nD) (G : Buf (Elt F) ((cfg1.win 6).arr.view.loc (c.tc : Thread nD τ)))
    (h : (rd1 V c).ArrAt 6 cfg1.N G) : G = OUT V c :=
  arrAt_eq_of_cover (rd1 V c) 6 (OUT V c) (fun t X hf hX => flushed1_6 V c t X hf hX) rows_cover1_6 G h

end Cert.KernelIdeal.Hand

end
-- ==== Proof.Launch.lean ====
import proofs.«141685_g10428180595104_week1_w2_90_17_alg».proof.Proof.Gen.KernelIdeal.Launch
import proofs.«141685_g10428180595104_week1_w2_90_17_alg».proof.Proof.Gen.KernelIdeal.Skeleton
import proofs.«141685_g10428180595104_week1_w2_90_17_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Oblig0
import proofs.«141685_g10428180595104_week1_w2_90_17_alg».proof.Proof.Oblig1
import proofs.«141685_g10428180595104_week1_w2_90_17_alg».proof.Proof.Phi1
import proofs.«141685_g10428180595104_week1_w2_90_17_alg».proof.Proof.Shares0
import proofs.«141685_g10428180595104_week1_w2_90_17_alg».proof.Proof.Shares1
import proofs.«141685_g10428180595104_week1_w2_90_17_alg».proof.Proof.Arr0
import proofs.«141685_g10428180595104_week1_w2_90_17_alg».proof.Proof.Arr1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Cert.GraphConv

/-! # The run of the whole program: two kernel regions in a row

The buffers' contents at the three boundaries — at launch, between the regions (the summed matrix and the first product in the
first region's two outputs), at the end (the result in the second region's output) —, each region as a segment entered from the
contents before it and left at the contents after it, and the run: every weakly fair execution terminates, and every unscoped
buffer ends at the last boundary's contents. -/

variable (m : (ℓ : Loc nD τ sig) → Buf (Elt F) ℓ) (ρ : Dev nD → PrngReg)

/-- Core `c`'s buffers at launch. -/
abbrev W0 : Dev nD → Valuation τ sig (Elt F) := fun c b => m (c, b)
/-- The same read at the TensorCore's references: what the first region finds. -/
abbrev V1 : (c : Dev nD) → (b : Ref sig .tc) → Buf (Elt F) ((c : Thread nD τ).loc b) := fun c b => W0 m c b
/-- Between the regions: the first region's two outputs hold the summed matrix and the first product. -/
def W2 (c : Dev nD) : Valuation τ sig (Elt F) :=
  Function.update (Function.update (W0 m c) main_v0_0 (Sarr (V1 m) c)) main_v0_1 (Yarr (V1 m) c)
/-- The same read at the TensorCore's references: what the second region finds. -/
abbrev V3 : (c : Dev nD) → (b : Ref sig .tc) → Buf (Elt F) ((c : Thread nD τ).loc b) := fun c b => W2 m c b
/-- At the end: the second region's output holds the result. -/
def W4 (c : Dev nD) : Valuation τ sig (Elt F) := Function.update (W2 m c) main_v1 (OUT (V3 m) c)
abbrev V5 : (c : Dev nD) → (b : Ref sig .tc) → Buf (Elt F) ((c : Thread nD τ).loc b) := fun c b => W4 m c b

theorem W2_v0_1 (c : Dev nD) : W2 m c main_v0_1 = Yarr (V1 m) c := by
  unfold W2; exact Function.update_self _ _ _
theorem W2_v0_0 (c : Dev nD) : W2 m c main_v0_0 = Sarr (V1 m) c := by
  unfold W2
  rw [Function.update_of_ne (StableHlo.devRef_ne_of_ne (by decide) : (Proc.devRef .tc main_v0_0 : DevRef τ sig) ≠ Proc.devRef .tc main_v0_1)]
  exact Function.update_self _ _ _
theorem W2_of_ne (c : Dev nD) (b : Ref sig .tc) (h0 : b ≠ main_v0_0) (h1 : b ≠ main_v0_1) : W2 m c b = W0 m c b := by
  unfold W2
  rw [Function.update_of_ne (StableHlo.devRef_ne_of_ne h1 : (Proc.devRef .tc b : DevRef τ sig) ≠ Proc.devRef .tc main_v0_1),
    Function.update_of_ne (StableHlo.devRef_ne_of_ne h0 : (Proc.devRef .tc b : DevRef τ sig) ≠ Proc.devRef .tc main_v0_0)]
theorem W4_v1 (c : Dev nD) : W4 m c main_v1 = OUT (V3 m) c := by
  unfold W4; exact Function.update_self _ _ _
theorem W4_of_ne (c : Dev nD) (b : Ref sig .tc) (h : b ≠ main_v1) : W4 m c b = W2 m c b := by
  unfold W4
  rw [Function.update_of_ne (StableHlo.devRef_ne_of_ne h : (Proc.devRef .tc b : DevRef τ sig) ≠ Proc.devRef .tc main_v1)]

/-- An argument array ends as launched: no region writes it. -/
theorem W4_arg (c : Dev nD) (b : Ref sig .tc) (h1 : b ≠ main_v1) (h2 : b ≠ main_v0_0) (h3 : b ≠ main_v0_1) :
    W4 m c b = m ((c : Thread nD τ).loc b) :=
  (W4_of_ne m c b h1).trans ((W2_of_ne m c b h2 h3).trans rfl)

/-! ## The proof data family and the thread state -/

abbrev adm : (p : Fin 2) → (pcfgs (F := F) p).Adm := fun p => (cfgs p).toPCfg_adm
/-- Every pipeline's proof data, each at its region's entry contents. -/
def rdats : (p : Fin 2) → (c : Dev nD) → RDat τ (Elt F) Unit ℕ (UR sig nD τ) ℕ (Pipeline.pin (pcfgs (F := F)) adm p) c
  | ⟨0, _⟩ => fun c => rd0 (V1 m) c
  | ⟨1, _⟩ => fun c => rd1 (V3 m) c
abbrev 𝒱₀ : Variants := Variants.none
abbrev L : GSem nD τ sig → Finset Unit := fun _ => ∅
abbrev lv : GSem nD τ sig → Unit → ℕ := fun _ _ => 0
/-- What rides beside the buffers: the core's generator register at some state, and the core owing nothing. -/
abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W4 m c) ∗ ∃ r, prngReg c r)

/-- The buffers no window of the first region stages keep their contents across it. -/
theorem rest0_eq (c : Dev nD) :
    (Pipeline.unscopedRest (Ix := Unit) (Name := ℕ) (U := UR sig nD τ) (Lvl := ℕ) spec0 c (V1 m c) : sProp 𝕄)
      = Pipeline.unscopedRest spec0 c (V3 m c) := by
  unfold Pipeline.unscopedRest
  refine bigSep_congr fun b hb => ?_
  have hb' := (Finset.mem_sdiff.mp hb).2
  have e : V3 m c b = V1 m c b := W2_of_ne m c b (fun e => hb' (e ▸ Finset.mem_image.mpr ⟨4, Finset.mem_univ _, rfl⟩))
    (fun e => hb' (e ▸ Finset.mem_image.mpr ⟨5, Finset.mem_univ _, rfl⟩))
  rw [e]
/-- The buffers no window of the second region stages keep their contents across it. -/
theorem rest1_eq (c : Dev nD) :
    (Pipeline.unscopedRest (Ix := Unit) (Name := ℕ) (U := UR sig nD τ) (Lvl := ℕ) spec1 c (V3 m c) : sProp 𝕄)
      = Pipeline.unscopedRest spec1 c (V5 m c) := by
  unfold Pipeline.unscopedRest
  refine bigSep_congr fun b hb => ?_
  have hb' := (Finset.mem_sdiff.mp hb).2
  have e : V5 m c b = V3 m c b := W4_of_ne m c b (fun e => hb' (e ▸ Finset.mem_image.mpr ⟨6, Finset.mem_univ _, rfl⟩))
  rw [e]

/-! ## The regions as segments -/

set_option backward.isDefEq.respectTransparency.types false in
/-- The first region: entered from the launch contents, left at the contents between the regions. -/
def reg0 : Pipeline.RDat.RegionSeg (pcfgs (F := F)) adm (rdats m) () defs₀ 𝒱₀ L lv 0 where
  win := winFacts₀0
  block_pos := block_pos0
  stage_whole := stage_whole0
  K := PEmpty
  osem k := k.elim
  ho := Pipeline.OwnSemFacts.none _
  hbody c := body_obligation0 (V1 m) c
  hwaits := Pipeline.RDat.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (StableHlo.held (c : Thread nD τ) (Pipeline.ucRefs τ sig) (W0 m c) : sProp 𝕄)
        ⊢ iprop((rd0 (V1 m) c).arrays (rd0 (V1 m) c).A ∗ Pipeline.unscopedRest spec0 c (V1 m c)) := by
      rw [← Pipeline.unscopedBufs_held (Ix := Unit) (Name := ℕ) (U := UR sig nD τ) (Lvl := ℕ) c (W0 m c),
        Pipeline.unscopedBufs_split₀ cfgs 0 winFacts₀0.arr_unscoped c]
      exact sep_mono (arr0_split (V1 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop(((rd0 (V1 m) c).arraysAt cfg0.N : sProp 𝕄) ∗ Pipeline.unscopedRest spec0 c (V1 m c))
        ⊢ StableHlo.held (c : Thread nD τ) (Pipeline.ucRefs τ sig) (W2 m c) := by
      rw [← Pipeline.unscopedBufs_held (Ix := Unit) (Name := ℕ) (U := UR sig nD τ) (Lvl := ℕ) c (W2 m c),
        Pipeline.unscopedBufs_split₀ cfgs 0 winFacts₀0.arr_unscoped c, rest0_eq m c]
      exact sep_mono (arr0_exit (V1 m) c (V3 m c) (W2_of_ne m c main_arg1 (by decide) (by decide)) (W2_of_ne m c main_arg2 (by decide) (by decide))
        (W2_of_ne m c main_arg0 (by decide) (by decide))
        (fun G hG => (arrAt0_4 (V1 m) c G hG).trans (W2_v0_0 m c).symm) (fun G hG => (arrAt0_5 (V1 m) c G hG).trans (W2_v0_1 m c).symm)) .rfl
    iintro ⟨Ha, HO, HY, Hrest⟩
    imodintro
    isplitl [Ha Hrest]
    · iapply hjoin
      isplitl [Ha]; · iexact Ha
      iexact Hrest
    isplitl [HY]; · iexact HY
    unfold Pipeline.RDat.owesAt Pipeline.owesWithin
    icases HO with ⟨%W, -, HO⟩; iexists W; iexact HO

set_option backward.isDefEq.respectTransparency.types false in
/-- The second region: entered from the contents between the regions, left at the final contents. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m) c
  hwaits := Pipeline.RDat.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (StableHlo.held (c : Thread nD τ) (Pipeline.ucRefs τ sig) (W2 m c) : sProp 𝕄)
        ⊢ iprop((rdats m 1 c).arrays (rdats m 1 c).A ∗ Pipeline.unscopedRest spec1 c (V3 m c)) := by
      rw [← Pipeline.unscopedBufs_held (Ix := Unit) (Name := ℕ) (U := UR sig nD τ) (Lvl := ℕ) c (W2 m c)]
      exact Pipeline.RDat.arrays_of_unscopedBufs (p := 1) (pcfgs (F := F)) adm (rdats m) launch1.win launch1.arr_whole c
        ((rdats m 1 c).share_full fun _ => rfl) (V3 m c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = (rd1 (V3 m) c).Φ 0 from rfl]
    refine BIBase.Entails.trans ?_ (hin1 (V3 m) c)
    unfold Pipeline.ΦA
    iintro ⟨Hp, -, Hr⟩
    isplitl [Hr]; · iexact Hr
    iexact Hp
  hout c := by
    rw [Pipeline.ownSems0_none, show (rdats m 1 c).Φ (Fin.last _) = (rd1 (V3 m) c).Φ (Fin.last _) from rfl]
    refine BIBase.Entails.trans (hout1 (V3 m) c) ?_
    unfold Pipeline.ΦA
    iintro ⟨Hr, Hp⟩
    isplitl [Hp]; · iexact Hp
    isplitr; · iempintro
    iexact Hr
  hexit c := by
    have hjoin : iprop(((rd1 (V3 m) c).arraysAt cfg1.N : sProp 𝕄) ∗ Pipeline.unscopedRest spec1 c (V3 m c))
        ⊢ StableHlo.held (c : Thread nD τ) (Pipeline.ucRefs τ sig) (W4 m c) := by
      rw [← Pipeline.unscopedBufs_held (Ix := Unit) (Name := ℕ) (U := UR sig nD τ) (Lvl := ℕ) c (W4 m c),
        Pipeline.unscopedBufs_split₀ cfgs 1 launch1.win.arr_unscoped c, rest1_eq m c]
      exact sep_mono (arr1_exit (V3 m) c (V5 m c) (W4_of_ne m c main_arg3 (by decide)) (W4_of_ne m c main_arg4 (by decide))
        (W4_of_ne m c main_arg5 (by decide)) (W4_of_ne m c main_v0_0 (by decide)) (W4_of_ne m c main_v0_1 (by decide)) (W4_of_ne m c main_arg0 (by decide))
        (fun G hG => (arrAt1_6 (V3 m) c G hG).trans (W4_v1 m c).symm)) .rfl
    iintro ⟨Ha, HO, HY, Hrest⟩
    imodintro
    isplitl [Ha Hrest HY]
    · isplitl [Ha Hrest]
      · iapply hjoin
        isplitl [Ha]; · iexact Ha
        iexact Hrest
      iexact HY
    unfold Pipeline.RDat.owesAt Pipeline.owesWithin
    icases HO with ⟨%W, -, HO⟩; iexists W; iexact HO

/-! ## The program as segments, and the launch -/

abbrev segs : List (Pipeline.RDat.Seg (pcfgs (F := F)) adm (rdats m) () defs₀ 𝒱₀ L lv) :=
  [ .region (reg0 m), .region (reg1 m) ]

theorem main_run (c : Dev nD) : main (F := F) c = Pipeline.RDat.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution terminates, nothing faulting, and every unscoped
    buffer of every core ends at the final contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.RDat.θ_run_regions_kit (pcfgs (F := F)) adm (rdats m) () cellOf_inj emb₁ defs₀ 𝒱₀ L lv m ρ main (segs m)
    (fun c Q => by rw [main_run m c])
    (by simp only [segs, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.Bits.Forms0.lean ====
import proofs.«141685_g10428180595104_week1_w2_90_17_alg».proof.Proof.Gen.Kernel.Launch
import proofs.«141685_g10428180595104_week1_w2_90_17_alg».proof.Proof.Gen.Kernel.Skeleton
import proofs.«141685_g10428180595104_week1_w2_90_17_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Rows

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Cert.GraphConv

/-! # The first kernel region: S = 1·A_beta + 1·A_gamma block by block, and S · X + X into one carried output

The region's grid has 8 points; point `t` handles the rows `[512 t, 512 t + 512)`. Its windows: 0 and 1 the row blocks of the
two adjacency matrices, 2 the whole of X, 3 the row block of X (windows 2 and 3 read ONE array), 4 the row block of the
summed matrix (written back at every point), 5 the whole product (its staging buffer kept across the points, each point
storing its 512 rows, written back once at the end). -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangles the body loads and stores through: whole blocks, and the point's 512 rows of the carried output. -/
abbrev rW0 : Rect S512x4096 := Rect.unit (s := S512x4096) ![0, 0] S512x4096.size inb_S512x4096_S512x4096_0_0
abbrev rX0 : Rect S4096x64 := Rect.unit (s := S4096x64) ![0, 0] S4096x64.size inb_S4096x64_S4096x64_0_0
abbrev rB0 : Rect S512x64 := Rect.unit (s := S512x64) ![0, 0] S512x64.size inb_S512x64_S512x64_0_0

/-- The summed block the body stores at point `t`, and the 512 rows of the product it stores there. -/
def sBlk0 (c : Dev nD) (t : Fin cfg0.N) : FVec F S512x4096 .bf16 :=
  k0_pay2 (View.ld (iblk0 V c 0 t) rW0) (View.ld (iblk0 V c 1 t) rW0)
def yBlk0 (c : Dev nD) (t : Fin cfg0.N) : FVec F S512x64 .bf16 :=
  k0_pay3 (View.ld (iblk0 V c 0 t) rW0) (View.ld (iblk0 V c 1 t) rW0) (View.ld (iblk0 V c 2 t) rX0) (View.ld (iblk0 V c 3 t) rB0)

/-- The region's proof data: the inputs' buffers are left as found; output 4's holds the summed block; output 5's holds what
    it held with the point's 512 rows replaced. The two windows that read X hold half of its buffer each. -/
def rd0 (c : Dev nD) : RDat τ (Elt F) Unit ℕ (UR sig nD τ) ℕ cfg0 c where
  A w := V c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => X = View.canon [⟨rW0, sBlk0 V c t⟩]
    | ⟨5, _⟩ => fun Y X => RowsUpd (R := 4096) (C := 64) (W := 512) (512 * t.val) (yBlk0 V c t) Y X
  Φ _ := Pipeline.ΦA spec0 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

end Cert.Kernel.Hand

end
-- ==== Proof.Bits.Body0.lean ====
import proofs.«141685_g10428180595104_week1_w2_90_17_alg».proof.Proof.Gen.Kernel.Launch
import proofs.«141685_g10428180595104_week1_w2_90_17_alg».proof.Proof.Gen.Kernel.Skeleton
import proofs.«141685_g10428180595104_week1_w2_90_17_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Bits.Forms0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Cert.GraphConv

/-! # The first kernel's body: its triple on any staging memrefs, and the body obligation -/

variable (V : (c : Dev nD) → (b : Ref sig .tc) → Buf (Elt F) ((c : Thread nD τ).loc b))

/-- The one store into output 4's buffer covers it. -/
theorem cover0_4 (p0 : Vec F S512x4096 .bf16) (y : S512x4096.Idx) :
    ∃ pc ∈ ([⟨rW0, p0⟩] : List (View.Piece (Elt F) S512x4096 .bf16)), y ∈ pc.1.set :=
  View.cover_of_tiled [⟨rW0, p0⟩] S512x4096.size (by rfl) y

/-- The row offset of the point's store into the carried output: 512 times the point. -/
theorem hoff0 : ∀ t : Fin cfg0.N, k0_off1 (grid0.coords t) = ![512 * t.val, 0] :=
  (by decide +kernel : ∀ t : Fin grid0.N, k0_off1 (grid0.coords t) = ![512 * t.val, 0])

set_option maxHeartbeats 2000000 in
/-- The body on whole staging memrefs: the four inputs' buffers at contents `x·` are left as they are, output 4's buffer ends at
    the summed block, and output 5's buffer, handed at `d5`, ends at `d5` with the rows `[o, o + 512)` replaced by the point's rows of
    the product. -/
theorem sound_kernel0 (c : Dev nD) (E : Set ℕ) (i : grid0.Coords)
    (arg1 : Memref sig .tc .vmem S512x4096 .f32) (harg1 : arg1.IsWhole) (arg2 : Memref sig .tc .vmem S512x4096 .f32) (harg2 : arg2.IsWhole)
    (arg3 : Memref sig .tc .vmem S4096x64 .f32) (harg3 : arg3.IsWhole) (arg4 : Memref sig .tc .vmem S512x64 .f32) (harg4 : arg4.IsWhole)
    (arg5 : Memref sig .tc .vmem S512x4096 .bf16) (harg5 : arg5.IsWhole) (arg6 : Memref sig .tc .vmem S4096x64 .bf16) (harg6 : arg6.IsWhole)
    (x0 x1 : Vec F S512x4096 .f32) (x2 : Vec F S4096x64 .f32) (x3 : Vec F S512x64 .f32) (d5 : Vec F S4096x64 .bf16)
    (o : ℕ) (hoff : k0_off1 i = ![o, 0]) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare d5
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (View.canon [⟨rW0, k0_pay2 (View.ld x0 rW0) (View.ld x1 rW0)⟩])
            ∗ (∃ X : Vec F S4096x64 .bf16, ⌜RowsUpd (R := 4096) (C := 64) (W := 512) o
                  (k0_pay3 (View.ld x0 rW0) (View.ld x1 rW0) (View.ld x2 rX0) (View.ld x3 rB0)) d5 X⌝
                ∗ owns (c : Thread nD τ) arg6 fullShare X)) -∗ K ⟨⟩))
      ⊢ wp frame (wpE (defs₀ (F := F)) Variants.none c none) E (cc0__call1 i arg1 harg1 arg2 harg2 arg3 harg3 arg4 harg4 arg5 harg5 arg6 harg6) K := by
  simp only [cc0__call1_eq_skeleton]; unfold cc0__call1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _
  isplitr
  swap
  · iexists _; isplitr
    swap; · iexact H5
    ipureintro; rfl
  ipureintro
  exact rowsUpd_of_writes arg6.view f5 (k0_off1_inb i) _ hoff

end Cert.Kernel.Hand

end
-- ==== Proof.Bits.Oblig0.lean ====
import proofs.«141685_g10428180595104_week1_w2_90_17_alg».proof.Proof.Gen.Kernel.Launch
import proofs.«141685_g10428180595104_week1_w2_90_17_alg».proof.Proof.Gen.Kernel.Skeleton
import proofs.«141685_g10428180595104_week1_w2_90_17_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Bits.Body0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Cert.GraphConv

/-! # The first kernel region's body obligation -/

variable (V : (c : Dev nD) → (b : Ref sig .tc) → Buf (Elt F) ((c : Thread nD τ).loc b))

/-- An input window's staging buffer holds its block wherever the body is handed it: the body leaves it as found, and where the
    pipeline does not fetch it the block index has not moved. -/
theorem finds0_0 (c : Dev nD) (t : Fin cfg0.N) (Y) (h : (rd0 V c).Finds 0 t Y) : Y = iblk0 V c 0 t := by
  obtain ⟨d, hd⟩ := RDat.finds_in_eq_fetched (rd0 V c) 0 rfl (fun _ _ _ => rfl) (fun t Y X h => h) t Y h
  rw [hd]; unfold RDat.fetched RDat.blockOf iblk0; rfl
theorem finds0_1 (c : Dev nD) (t : Fin cfg0.N) (Y) (h : (rd0 V c).Finds 1 t Y) : Y = iblk0 V c 1 t := by
  obtain ⟨d, hd⟩ := RDat.finds_in_eq_fetched (rd0 V c) 1 rfl (fun _ _ _ => rfl) (fun t Y X h => h) t Y h
  rw [hd]; unfold RDat.fetched RDat.blockOf iblk0; rfl
theorem finds0_2 (c : Dev nD) (t : Fin cfg0.N) (Y) (h : (rd0 V c).Finds 2 t Y) : Y = iblk0 V c 2 t := by
  obtain ⟨d, hd⟩ := RDat.finds_in_eq_fetched (rd0 V c) 2 rfl (fun _ _ _ => rfl) (fun t Y X h => h) t Y h
  rw [hd]; unfold RDat.fetched RDat.blockOf iblk0; rfl
theorem finds0_3 (c : Dev nD) (t : Fin cfg0.N) (Y) (h : (rd0 V c).Finds 3 t Y) : Y = iblk0 V c 3 t := by
  obtain ⟨d, hd⟩ := RDat.finds_in_eq_fetched (rd0 V c) 3 rfl (fun _ _ _ => rfl) (fun t Y X h => h) t Y h
  rw [hd]; unfold RDat.fetched RDat.blockOf iblk0; rfl

set_option maxHeartbeats 1000000 in
/-- The body at point `t`, called as the pipeline calls it: the inputs' current buffers at their blocks, the outputs' at
    whatever they hold; each buffer is left in its relation, the invariant and what the core owes pass through. -/
theorem sound_body0 (c : Dev nD) (t : Fin cfg0.N) (Y4 : Vec F S512x4096 .bf16) (Y5 : Vec F S4096x64 .bf16) :
    iprop((rd0 V c).Φ t.castSucc ∗ (rd0 V c).owesAt () t.castSucc
        ∗ owns (c : Thread nD τ) (st0_0 t) fullShare (iblk0 V c 0 t) ∗ owns (c : Thread nD τ) (st0_1 t) fullShare (iblk0 V c 1 t)
        ∗ owns (c : Thread nD τ) (st0_2 t) fullShare (iblk0 V c 2 t) ∗ owns (c : Thread nD τ) (st0_3 t) fullShare (iblk0 V c 3 t)
        ∗ owns (c : Thread nD τ) (st0_4 t) fullShare Y4 ∗ owns (c : Thread nD τ) (st0_5 t) fullShare Y5)
      ⊢ wp frame (wpE (defs₀ (F := F)) Variants.none c none) Set.univ (bodyAt0 t) (fun _ =>
          iprop((rd0 V c).Φ t.succ ∗ (rd0 V c).owesAt () t.succ
            ∗ (∃ X, ⌜(rd0 V c).after 0 t (iblk0 V c 0 t) X⌝ ∗ owns (c : Thread nD τ) (st0_0 t) fullShare X)
            ∗ (∃ X, ⌜(rd0 V c).after 1 t (iblk0 V c 1 t) X⌝ ∗ owns (c : Thread nD τ) (st0_1 t) fullShare X)
            ∗ (∃ X, ⌜(rd0 V c).after 2 t (iblk0 V c 2 t) X⌝ ∗ owns (c : Thread nD τ) (st0_2 t) fullShare X)
            ∗ (∃ X, ⌜(rd0 V c).after 3 t (iblk0 V c 3 t) X⌝ ∗ owns (c : Thread nD τ) (st0_3 t) fullShare X)
            ∗ (∃ X, ⌜(rd0 V c).after 4 t Y4 X⌝ ∗ owns (c : Thread nD τ) (st0_4 t) fullShare X)
            ∗ (∃ X, ⌜(rd0 V c).after 5 t Y5 X⌝ ∗ owns (c : Thread nD τ) (st0_5 t) fullShare X))) := by
  unfold bodyAt0
  dsimp only [rd0]
  iintro ⟨HΦ, Ho, H0, H1, H2, H3, H4, H5⟩
  iapply (sound_kernel0 c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5))
    (iblk0 V c 0 t) (iblk0 V c 1 t) (iblk0 V c 2 t) (iblk0 V c 3 t) Y5 (512 * t.val) (hoff0 t) _)
  isplitl [H0]; · iexact H0
  isplitl [H1]; · iexact H1
  isplitl [H2]; · iexact H2
  isplitl [H3]; · iexact H3
  isplitl [H4]; · iexists _; iexact H4
  isplitl [H5]; · iexact H5
  iintro ⟨H0, H1, H2, H3, H4, ⟨%X, %hX, H5⟩⟩
  isplitl [HΦ]; · iexact HΦ
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  iexists X; isplitr; · ipureintro; exact hX
  iexact H5

/-- At every point the body, handed the inputs' blocks and whatever the outputs' buffers hold, leaves each buffer in its relation. -/
theorem body_obligation0 (c : Dev nD) : (rd0 V c).BodyObligation (defs₀ (F := F)) Variants.none () Set.univ := by
  intro t Y hY
  rw [bigSep_W0, bigSep_W0]
  have e0 := finds0_0 V c t (Y 0) (hY 0)
  have e1 := finds0_1 V c t (Y 1) (hY 1)
  have e2 := finds0_2 V c t (Y 2) (hY 2)
  have e3 := finds0_3 V c t (Y 3) (hY 3)
  rw [e0, e1, e2, e3]
  exact sound_body0 V c t (Y 4) (Y 5)

end Cert.Kernel.Hand

end
-- ==== Proof.Bits.Forms1.lean ====
import proofs.«141685_g10428180595104_week1_w2_90_17_alg».proof.Proof.Gen.Kernel.Launch
import proofs.«141685_g10428180595104_week1_w2_90_17_alg».proof.Proof.Gen.Kernel.Skeleton
import proofs.«141685_g10428180595104_week1_w2_90_17_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx
import proofs.«141685_g10428180595104_week1_w2_90_17_alg».proof.Proof.Rows

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Cert.GraphConv

/-! # The second kernel region: three sweeps over 32 row blocks, four matrices carried between them

The region's grid has 3 × 32 points; point `t = 32 p + b` is sweep `p` at row block `b` (the rows `[128 b, 128 b + 128)`).
Sweep 0 reads the row blocks of the three degree matrices (windows 0, 1, 2), the row block of X (window 5) and the whole of
the first propagated matrix (window 4); it stores the row block of the scaled reciprocal, of the first update and of the
first update rounded, into three carried matrices. Sweep 1 reads the row block of the summed adjacency (window 3), the
whole rounded first update and the row block of X, and stores the row block of the second propagated matrix into a fourth
carried matrix. Sweep 2 reads the row block of the first update and of the scaled reciprocal and the whole second
propagated matrix, and stores the row block of the result into the output's buffer (window 6), written back once at the end. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A point of the grid is below 96. -/
theorem lt96 (t : Fin cfg1.N) : t.val < 96 := lt_of_lt_of_eq t.isLt N_1

/-- The point of sweep `p` at row block `b`. -/
def pt (p : Fin 3) (b : Fin 32) : Fin cfg1.N := ⟨32 * p.val + b.val, by
  have hp := p.isLt; have hb := b.isLt
  show 32 * p.val + b.val < grid1.N
  rw [N_1]; omega⟩

@[simp] theorem pt_val (p : Fin 3) (b : Fin 32) : (pt p b).val = 32 * p.val + b.val := rfl

/-- The rectangles the body loads through: whole blocks, the whole of a 4096 × 64 matrix, and the rows of row block `b`. -/
abbrev rD1 : Rect S128x4096 := Rect.unit (s := S128x4096) ![0, 0] S128x4096.size inb_S128x4096_S128x4096_0_0
abbrev rY1 : Rect S4096x64 := Rect.unit (s := S4096x64) ![0, 0] S4096x64.size inb_S4096x64_S4096x64_0_0
abbrev rB1 : Rect S128x64 := Rect.unit (s := S128x64) ![0, 0] S128x64.size inb_S128x64_S128x64_0_0

theorem rows_inb64 (b : Fin 32) : ∀ a : Fin 2, (![128 * b.val, 0] : Fin 2 → ℕ) a + S128x64.size a ≤ S4096x64.size a :=
  Fin.forall_fin_two.mpr ⟨by have := b.isLt; show 128 * b.val + 128 ≤ 4096; omega, by show 0 + 64 ≤ 64; omega⟩
theorem rows_inb4096 (b : Fin 32) : ∀ a : Fin 2, (![128 * b.val, 0] : Fin 2 → ℕ) a + S128x4096.size a ≤ S4096x4096.size a :=
  Fin.forall_fin_two.mpr ⟨by have := b.isLt; show 128 * b.val + 128 ≤ 4096; omega, by show 0 + 4096 ≤ 4096; omega⟩

abbrev rRows64 (b : Fin 32) : Rect S4096x64 := Rect.unit (s := S4096x64) ![128 * b.val, 0] S128x64.size (rows_inb64 b)
abbrev rRows4096 (b : Fin 32) : Rect S4096x4096 := Rect.unit (s := S4096x4096) ![128 * b.val, 0] S128x4096.size (rows_inb4096 b)

/-- The row block and the row inside it of a row of a 4096-row matrix. -/
def rowBlk {C : ℕ} (y : (⟨2, ![4096, C]⟩ : Shape).Idx) : Fin 32 := ⟨(y 0).val / 128, by have := ValueIdx.idx2_lt0 y; omega⟩
def rowIn {C : ℕ} (y : (⟨2, ![4096, C]⟩ : Shape).Idx) : Fin 128 := ⟨(y 0).val % 128, Nat.mod_lt _ (by decide)⟩

/-! ## What each sweep stores at row block `b` -/

/-- Sweep 0 at row block `b`: the scaled reciprocal of the three degree blocks, rounded. -/
def qsBlk (c : Dev nD) (b : Fin 32) : FVec F S128x4096 .bf16 :=
  k1_pay2 (View.ld (iblk1 V c 0 (pt 0 b)) rD1) (View.ld (iblk1 V c 1 (pt 0 b)) rD1) (View.ld (iblk1 V c 2 (pt 0 b)) rD1)
/-- Sweep 0 at row block `b`: the first update's rows. -/
def y1Blk (c : Dev nD) (b : Fin 32) : FVec F S128x64 .f32 :=
  k1_pay4 (View.ld (iblk1 V c 0 (pt 0 b)) rD1) (View.ld (iblk1 V c 1 (pt 0 b)) rD1) (View.ld (iblk1 V c 2 (pt 0 b)) rD1)
    (View.ld (iblk1 V c 5 (pt 0 b)) rB1) (View.ld (iblk1 V c 4 (pt 0 b)) rY1)
/-- Sweep 0 at row block `b`: the first update's rows, rounded. -/
def y1bBlk (c : Dev nD) (b : Fin 32) : FVec F S128x64 .bf16 :=
  k1_pay5 (View.ld (iblk1 V c 0 (pt 0 b)) rD1) (View.ld (iblk1 V c 1 (pt 0 b)) rD1) (View.ld (iblk1 V c 2 (pt 0 b)) rD1)
    (View.ld (iblk1 V c 5 (pt 0 b)) rB1) (View.ld (iblk1 V c 4 (pt 0 b)) rY1)

/-- The three matrices sweep 0 fills, whole: row `128 b + r` is row `r` of what row block `b` stores. -/
def QS (c : Dev nD) : Vec F S4096x4096 .bf16 := fun y => qsBlk V c (rowBlk y) (ValueIdx.ix2 (n0 := 128) (n1 := 4096) (rowIn y) (y 1))
def Y1 (c : Dev nD) : Vec F S4096x64 .f32 := fun y => y1Blk V c (rowBlk y) (ValueIdx.ix2 (n0 := 128) (n1 := 64) (rowIn y) (y 1))
def Y1B (c : Dev nD) : Vec F S4096x64 .bf16 := fun y => y1bBlk V c (rowBlk y) (ValueIdx.ix2 (n0 := 128) (n1 := 64) (rowIn y) (y 1))

/-- Sweep 1 at row block `b`: the second propagated matrix's rows, from the WHOLE rounded first update. -/
def yh2Blk (c : Dev nD) (b : Fin 32) : FVec F S128x64 .bf16 :=
  k1_pay6 (View.ld (iblk1 V c 3 (pt 1 b)) rD1) (View.ld (Y1B V c) rY1) (View.ld (iblk1 V c 5 (pt 1 b)) rB1)
def YH2 (c : Dev nD) : Vec F S4096x64 .bf16 := fun y => yh2Blk V c (rowBlk y) (ValueIdx.ix2 (n0 := 128) (n1 := 64) (rowIn y) (y 1))

/-- Sweep 2 at row block `b`: the result's rows, from the first update's and the scaled reciprocal's rows of the block and the
    WHOLE second propagated matrix. -/
def outBlk (c : Dev nD) (b : Fin 32) : FVec F S128x64 .f32 :=
  k1_pay7 (View.ld (Y1 V c) (rRows64 b)) (View.ld (QS V c) (rRows4096 b)) (View.ld (YH2 V c) rY1)
def OUT (c : Dev nD) : Vec F S4096x64 .f32 := fun y => outBlk V c (rowBlk y) (ValueIdx.ix2 (n0 := 128) (n1 := 64) (rowIn y) (y 1))

/-- What the four carried matrices hold before point `t`: the rows of the row blocks already swept agree with the closed forms
    (sweep 0 fills the first three, sweep 1 the fourth). -/
def Inv1 (c : Dev nD) (t : ℕ) (q : Vec F S4096x4096 .bf16) (y : Vec F S4096x64 .f32) (yb h : Vec F S4096x64 .bf16) : Prop :=
  (∀ j : S4096x4096.Idx, (j 0).val < 128 * min t 32 → q j = QS V c j)
    ∧ (∀ j : S4096x64.Idx, (j 0).val < 128 * min t 32 → y j = Y1 V c j)
    ∧ (∀ j : S4096x64.Idx, (j 0).val < 128 * min t 32 → yb j = Y1B V c j)
    ∧ (∀ j : S4096x64.Idx, (j 0).val + 4096 < 128 * min t 64 → h j = YH2 V c j)

/-- The core's scoped buffers the region neither stages nor carries, at some contents each, and the generator register. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ r, prngReg c r))

/-- The four carried matrices before point `t`. -/
def carried1 (c : Dev nD) (t : ℕ) : sProp 𝕄 :=
  iprop(∃ (q : Vec F S4096x4096 .bf16) (y : Vec F S4096x64 .f32) (yb h : Vec F S4096x64 .bf16), ⌜Inv1 V c t q y yb h⌝
    ∗ owns (c : Thread nD τ) (Memref.whole cc1_scratch0) fullShare q ∗ owns (c : Thread nD τ) (Memref.whole cc1_scratch1) fullShare y
    ∗ owns (c : Thread nD τ) (Memref.whole cc1_scratch2) fullShare yb ∗ owns (c : Thread nD τ) (Memref.whole cc1_scratch3) fullShare h)

/-- The region's proof data: the six inputs' buffers are left as found; the output's buffer is left as found in sweeps 0 and 1 and
    has the point's 128 rows replaced in sweep 2. -/
def rd1 (c : Dev nD) : RDat τ (Elt F) Unit ℕ (UR sig nD τ) ℕ cfg1 c where
  A w := V c (Pipeline.arrRef spec1 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => if h : t.val < 64 then X = Y
        else RowsUpd (R := 4096) (C := 64) (W := 128) (128 * (t.val - 64)) (outBlk V c ⟨t.val - 64, by have := lt96 t; omega⟩) Y X
  Φ t := iprop(rest1 (F := F) c ∗ carried1 V c t.val)
  q _ := fullShare
  owed _ := 0

end Cert.Kernel.Hand

end
-- ==== Proof.Bits.Inv1Steps.lean ====
import proofs.«141685_g10428180595104_week1_w2_90_17_alg».proof.Proof.Gen.Kernel.Launch
import proofs.«141685_g10428180595104_week1_w2_90_17_alg».proof.Proof.Gen.Kernel.Skeleton
import proofs.«141685_g10428180595104_week1_w2_90_17_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx
import proofs.«141685_g10428180595104_week1_w2_90_17_alg».proof.Proof.Bits.Forms1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Cert.GraphConv

/-! # How each sweep's stores carry the invariant on the four carried matrices

A point of sweep `p` at row block `b` replaces the rows `[128 b, 128 b + 128)` of a carried matrix by what the closed form holds there;
the rows of the row blocks below `b` already agree with the closed form, so the rows of the row blocks up to `b` do. -/

variable (V : (c : Dev nD) → (b : Ref sig .tc) → Buf (Elt F) ((c : Thread nD τ).loc b))

/-- A point is a sweep and a row block. -/
theorem pt_mod (p : Fin 3) (b : Fin 32) : (pt p b).val % 32 = b.val := by
  have := b.isLt; show (32 * p.val + b.val) % 32 = b.val; omega
theorem pt_div (p : Fin 3) (b : Fin 32) : (pt p b).val / 32 = p.val := by
  have := b.isLt; show (32 * p.val + b.val) / 32 = p.val; omega
theorem eq_pt (t : Fin cfg1.N) (p : Fin 3) (hp : t.val / 32 = p.val) : t = pt p ⟨t.val % 32, Nat.mod_lt _ (by decide)⟩ :=
  Fin.ext (by show t.val = 32 * p.val + t.val % 32; omega)

/-- One matrix, one point: if the rows below `128 b` agree with a matrix `G` whose row block `b` is `blk b`, and the rows
    `[128 b, 128 b + 128)` are replaced by `blk b`, the rows below `128 (b + 1)` agree with `G`. -/
theorem rows_step {C : ℕ} {α : Type} (G : (⟨2, ![4096, C]⟩ : Shape).Idx → α) (blk : Fin 32 → (⟨2, ![128, C]⟩ : Shape).Idx → α)
    (hG : ∀ y, G y = blk (rowBlk y) (ValueIdx.ix2 (n0 := 128) (n1 := C) (rowIn y) (y 1)))
    (b : Fin 32) (d d' : (⟨2, ![4096, C]⟩ : Shape).Idx → α)
    (hd : ∀ j : (⟨2, ![4096, C]⟩ : Shape).Idx, (j 0).val < 128 * b.val → d j = G j)
    (hupd : RowsUpd (R := 4096) (C := C) (W := 128) (128 * b.val) (blk b) d d') :
    ∀ j : (⟨2, ![4096, C]⟩ : Shape).Idx, (j 0).val < 128 * (b.val + 1) → d' j = G j := by
  intro j hj
  by_cases hlt : (j 0).val < 128 * b.val
  · rw [hupd.2 j (Or.inl hlt)]; exact hd j hlt
  · have hb : rowBlk j = b := Fin.ext (by show (j 0).val / 128 = b.val; omega)
    rw [hG j, hb]
    exact hupd.1 (ValueIdx.ix2 (n0 := 128) (n1 := C) (rowIn j) (j 1)) j
      (by show (j 0).val = 128 * b.val + (j 0).val % 128; omega) rfl

/-- Sweep 0 at row block `b`: its three stores carry the invariant from point `b` to point `b + 1`. -/
theorem inv1_step_A (c : Dev nD) (b : Fin 32) (q q' : Vec F S4096x4096 .bf16) (y y' : Vec F S4096x64 .f32) (yb yb' h : Vec F S4096x64 .bf16)
    (hinv : Inv1 V c b.val q y yb h)
    (hq : RowsUpd (R := 4096) (C := 4096) (W := 128) (128 * b.val) (qsBlk V c b) q q')
    (hy : RowsUpd (R := 4096) (C := 64) (W := 128) (128 * b.val) (y1Blk V c b) y y')
    (hyb : RowsUpd (R := 4096) (C := 64) (W := 128) (128 * b.val) (y1bBlk V c b) yb yb') :
    Inv1 V c (b.val + 1) q' y' yb' h := by
  have hb := b.isLt
  obtain ⟨iq, iy, iyb, ih⟩ := hinv
  have m0 : min b.val 32 = b.val := by omega
  have m1 : min (b.val + 1) 32 = b.val + 1 := by omega
  rw [m0] at iq iy iyb
  refine ⟨?_, ?_, ?_, ?_⟩
  · rw [m1]; exact rows_step (QS V c) (qsBlk V c) (fun _ => rfl) b q q' iq hq
  · rw [m1]; exact rows_step (Y1 V c) (y1Blk V c) (fun _ => rfl) b y y' iy hy
  · rw [m1]; exact rows_step (Y1B V c) (y1bBlk V c) (fun _ => rfl) b yb yb' iyb hyb
  · intro j hj; exact absurd hj (by omega)

/-- In sweeps 1 and 2 the first three carried matrices are the closed forms. -/
theorem inv1_full (c : Dev nD) (t : ℕ) (ht : 32 ≤ t) (q : Vec F S4096x4096 .bf16) (y : Vec F S4096x64 .f32) (yb h : Vec F S4096x64 .bf16)
    (hinv : Inv1 V c t q y yb h) : q = QS V c ∧ y = Y1 V c ∧ yb = Y1B V c := by
  obtain ⟨iq, iy, iyb, -⟩ := hinv
  have m : min t 32 = 32 := by omega
  rw [m] at iq iy iyb
  exact ⟨funext fun j => iq j (by have := ValueIdx.idx2_lt0 j; omega), funext fun j => iy j (by have := ValueIdx.idx2_lt0 j; omega),
    funext fun j => iyb j (by have := ValueIdx.idx2_lt0 j; omega)⟩

/-- In sweep 2 the fourth is too. -/
theorem inv1_full4 (c : Dev nD) (t : ℕ) (ht : 64 ≤ t) (q : Vec F S4096x4096 .bf16) (y : Vec F S4096x64 .f32) (yb h : Vec F S4096x64 .bf16)
    (hinv : Inv1 V c t q y yb h) : h = YH2 V c := by
  obtain ⟨-, -, -, ih⟩ := hinv
  have m : min t 64 = 64 := by omega
  rw [m] at ih
  exact funext fun j => ih j (by have := ValueIdx.idx2_lt0 j; omega)

/-- Sweep 1 at row block `b`: its store carries the invariant from point `32 + b` to point `32 + b + 1`. -/
theorem inv1_step_B (c : Dev nD) (b : Fin 32) (q : Vec F S4096x4096 .bf16) (y : Vec F S4096x64 .f32) (yb h h' : Vec F S4096x64 .bf16)
    (hinv : Inv1 V c (32 + b.val) q y yb h)
    (hh : RowsUpd (R := 4096) (C := 64) (W := 128) (128 * b.val) (yh2Blk V c b) h h') :
    Inv1 V c (32 + b.val + 1) q y yb h' := by
  have hb := b.isLt
  obtain ⟨iq, iy, iyb, ih⟩ := hinv
  have m0 : min (32 + b.val) 32 = 32 := by omega
  have m1 : min (32 + b.val + 1) 32 = 32 := by omega
  have n0 : min (32 + b.val) 64 = 32 + b.val := by omega
  have n1 : min (32 + b.val + 1) 64 = 32 + b.val + 1 := by omega
  rw [m0] at iq iy iyb
  rw [n0] at ih
  refine ⟨?_, ?_, ?_, ?_⟩
  · rw [m1]; exact iq
  · rw [m1]; exact iy
  · rw [m1]; exact iyb
  · rw [n1]; intro j hj
    exact rows_step (YH2 V c) (yh2Blk V c) (fun _ => rfl) b h h' (fun j hj => ih j (by omega)) hh j (by omega)

/-- Sweep 2 stores into none of the four: the invariant passes from a point to the next. -/
theorem inv1_step_C (c : Dev nD) (t : ℕ) (ht : 64 ≤ t) (q : Vec F S4096x4096 .bf16) (y : Vec F S4096x64 .f32) (yb h : Vec F S4096x64 .bf16)
    (hinv : Inv1 V c t q y yb h) : Inv1 V c (t + 1) q y yb h := by
  obtain ⟨iq, iy, iyb, ih⟩ := hinv
  have m0 : min t 32 = 32 := by omega
  have m1 : min (t + 1) 32 = 32 := by omega
  have n0 : min t 64 = 64 := by omega
  have n1 : min (t + 1) 64 = 64 := by omega
  rw [m0] at iq iy iyb; rw [n0] at ih
  exact ⟨by rw [m1]; exact iq, by rw [m1]; exact iy, by rw [m1]; exact iyb, by rw [n1]; exact ih⟩

end Cert.Kernel.Hand

end
-- ==== Proof.Bits.Oblig1Pre.lean ====
import proofs.«141685_g10428180595104_week1_w2_90_17_alg».proof.Proof.Gen.Kernel.Launch
import proofs.«141685_g10428180595104_week1_w2_90_17_alg».proof.Proof.Gen.Kernel.Skeleton
import proofs.«141685_g10428180595104_week1_w2_90_17_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Bits.Forms1
import proofs.«141685_g10428180595104_week1_w2_90_17_alg».proof.Proof.Bits.Inv1Steps

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Cert.GraphConv

/-! # The second region's body obligation: what the body is handed and what it must return -/

variable (V : (c : Dev nD) → (b : Ref sig .tc) → Buf (Elt F) ((c : Thread nD τ).loc b))

/-- What the body may leave, window by window (the proof data's `match` reduced). -/
theorem after1_0 (c : Dev nD) (t : Fin cfg1.N) : (rd1 V c).after 0 t = fun Y X => X = Y := by dsimp only [rd1]
theorem after1_1 (c : Dev nD) (t : Fin cfg1.N) : (rd1 V c).after 1 t = fun Y X => X = Y := by dsimp only [rd1]
theorem after1_2 (c : Dev nD) (t : Fin cfg1.N) : (rd1 V c).after 2 t = fun Y X => X = Y := by dsimp only [rd1]
theorem after1_3 (c : Dev nD) (t : Fin cfg1.N) : (rd1 V c).after 3 t = fun Y X => X = Y := by dsimp only [rd1]
theorem after1_4 (c : Dev nD) (t : Fin cfg1.N) : (rd1 V c).after 4 t = fun Y X => X = Y := by dsimp only [rd1]
theorem after1_5 (c : Dev nD) (t : Fin cfg1.N) : (rd1 V c).after 5 t = fun Y X => X = Y := by dsimp only [rd1]
theorem after1_6 (c : Dev nD) (t : Fin cfg1.N) : (rd1 V c).after 6 t = fun Y X => if h : t.val < 64 then X = Y
    else RowsUpd (R := 4096) (C := 64) (W := 128) (128 * (t.val - 64)) (outBlk V c ⟨t.val - 64, by have := lt96 t; omega⟩) Y X := by
  dsimp only [rd1]; rfl

/-- In sweeps 0 and 1 the output's buffer is left as found; in sweep 2 its rows of the row block are replaced. -/
theorem after1_6_lt (c : Dev nD) (t : Fin cfg1.N) (ht : t.val < 64) (Y X : Vec F S4096x64 .f32) : (rd1 V c).after 6 t Y X ↔ X = Y := by
  rw [after1_6]; dsimp only; rw [dif_pos ht]
theorem after1_6_ge (c : Dev nD) (t : Fin cfg1.N) (ht : ¬ t.val < 64) (Y X : Vec F S4096x64 .f32) : (rd1 V c).after 6 t Y X ↔
    RowsUpd (R := 4096) (C := 64) (W := 128) (128 * (t.val - 64)) (outBlk V c ⟨t.val - 64, by have := lt96 t; omega⟩) Y X := by
  rw [after1_6]; dsimp only; rw [dif_neg ht]

/-- Each input's current staging buffer holds its block at every point, fetched there or not: the body leaves it as found, and
    where it is not fetched its block index has not moved. -/
theorem finds1_0 (c : Dev nD) (t : Fin cfg1.N) (Y : (cfg1.win 0).block.Idx → Elt F (cfg1.win 0).elt) (hY : (rd1 V c).Finds 0 t Y) :
    Y = iblk1 V c 0 t := by
  obtain ⟨d, rfl⟩ := RDat.finds_in_eq_fetched (rd1 V c) 0 rfl (fun _ _ _ => rfl) (fun t Y X h => by rw [after1_0] at h; exact h) t Y hY
  unfold RDat.fetched RDat.blockOf iblk1; rfl
theorem finds1_1 (c : Dev nD) (t : Fin cfg1.N) (Y : (cfg1.win 1).block.Idx → Elt F (cfg1.win 1).elt) (hY : (rd1 V c).Finds 1 t Y) :
    Y = iblk1 V c 1 t := by
  obtain ⟨d, rfl⟩ := RDat.finds_in_eq_fetched (rd1 V c) 1 rfl (fun _ _ _ => rfl) (fun t Y X h => by rw [after1_1] at h; exact h) t Y hY
  unfold RDat.fetched RDat.blockOf iblk1; rfl
theorem finds1_2 (c : Dev nD) (t : Fin cfg1.N) (Y : (cfg1.win 2).block.Idx → Elt F (cfg1.win 2).elt) (hY : (rd1 V c).Finds 2 t Y) :
    Y = iblk1 V c 2 t := by
  obtain ⟨d, rfl⟩ := RDat.finds_in_eq_fetched (rd1 V c) 2 rfl (fun _ _ _ => rfl) (fun t Y X h => by rw [after1_2] at h; exact h) t Y hY
  unfold RDat.fetched RDat.blockOf iblk1; rfl
theorem finds1_3 (c : Dev nD) (t : Fin cfg1.N) (Y : (cfg1.win 3).block.Idx → Elt F (cfg1.win 3).elt) (hY : (rd1 V c).Finds 3 t Y) :
    Y = iblk1 V c 3 t := by
  obtain ⟨d, rfl⟩ := RDat.finds_in_eq_fetched (rd1 V c) 3 rfl (fun _ _ _ => rfl) (fun t Y X h => by rw [after1_3] at h; exact h) t Y hY
  unfold RDat.fetched RDat.blockOf iblk1; rfl
theorem finds1_4 (c : Dev nD) (t : Fin cfg1.N) (Y : (cfg1.win 4).block.Idx → Elt F (cfg1.win 4).elt) (hY : (rd1 V c).Finds 4 t Y) :
    Y = iblk1 V c 4 t := by
  obtain ⟨d, rfl⟩ := RDat.finds_in_eq_fetched (rd1 V c) 4 rfl (fun _ _ _ => rfl) (fun t Y X h => by rw [after1_4] at h; exact h) t Y hY
  unfold RDat.fetched RDat.blockOf iblk1; rfl
theorem finds1_5 (c : Dev nD) (t : Fin cfg1.N) (Y : (cfg1.win 5).block.Idx → Elt F (cfg1.win 5).elt) (hY : (rd1 V c).Finds 5 t Y) :
    Y = iblk1 V c 5 t := by
  obtain ⟨d, rfl⟩ := RDat.finds_in_eq_fetched (rd1 V c) 5 rfl (fun _ _ _ => rfl) (fun t Y X h => by rw [after1_5] at h; exact h) t Y hY
  unfold RDat.fetched RDat.blockOf iblk1; rfl

/-- What the body is called with at point `t`, the output's buffer at `Y6`, -/
def bodyPre1 (c : Dev nD) (t : Fin cfg1.N) (Y6 : Vec F S4096x64 .f32) : sProp 𝕄 :=
  iprop((rd1 V c).Φ t.castSucc ∗ (rd1 V c).owesAt () t.castSucc
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ owns (c : Thread nD τ) (st1_3 t) fullShare (iblk1 V c 3 t)
    ∗ owns (c : Thread nD τ) (st1_4 t) fullShare (iblk1 V c 4 t)
    ∗ owns (c : Thread nD τ) (st1_5 t) fullShare (iblk1 V c 5 t)
    ∗ owns (c : Thread nD τ) (st1_6 t) fullShare Y6)

/-- and what it returns. -/
def bodyPost1 (c : Dev nD) (t : Fin cfg1.N) (Y6 : Vec F S4096x64 .f32) : sProp 𝕄 :=
  iprop((rd1 V c).Φ t.succ ∗ (rd1 V c).owesAt () t.succ
    ∗ (∃ X, ⌜(rd1 V c).after 0 t (iblk1 V c 0 t) X⌝ ∗ owns (c : Thread nD τ) (st1_0 t) fullShare X)
    ∗ (∃ X, ⌜(rd1 V c).after 1 t (iblk1 V c 1 t) X⌝ ∗ owns (c : Thread nD τ) (st1_1 t) fullShare X)
    ∗ (∃ X, ⌜(rd1 V c).after 2 t (iblk1 V c 2 t) X⌝ ∗ owns (c : Thread nD τ) (st1_2 t) fullShare X)
    ∗ (∃ X, ⌜(rd1 V c).after 3 t (iblk1 V c 3 t) X⌝ ∗ owns (c : Thread nD τ) (st1_3 t) fullShare X)
    ∗ (∃ X, ⌜(rd1 V c).after 4 t (iblk1 V c 4 t) X⌝ ∗ owns (c : Thread nD τ) (st1_4 t) fullShare X)
    ∗ (∃ X, ⌜(rd1 V c).after 5 t (iblk1 V c 5 t) X⌝ ∗ owns (c : Thread nD τ) (st1_5 t) fullShare X)
    ∗ (∃ X, ⌜(rd1 V c).after 6 t Y6 X⌝ ∗ owns (c : Thread nD τ) (st1_6 t) fullShare X))

/-- The invariant before and after point `t`, spelled out. -/
theorem Phi1_castSucc (c : Dev nD) (t : Fin cfg1.N) : (rd1 V c).Φ t.castSucc = iprop(rest1 (F := F) c ∗ carried1 V c t.val) := rfl
theorem Phi1_succ (c : Dev nD) (t : Fin cfg1.N) : (rd1 V c).Φ t.succ = iprop(rest1 (F := F) c ∗ carried1 V c (t.val + 1)) := rfl
theorem owes1_succ (c : Dev nD) (t : Fin cfg1.N) : (rd1 V c).owesAt () t.succ = (rd1 V c).owesAt () t.castSucc := rfl

/-- The points of the three sweeps. -/
theorem pt0_val (b : Fin 32) : (pt 0 b).val = b.val := by show 32 * 0 + b.val = b.val; omega
theorem pt1_val (b : Fin 32) : (pt 1 b).val = 32 + b.val := by show 32 * 1 + b.val = 32 + b.val; omega
theorem pt2_val (b : Fin 32) : (pt 2 b).val = 64 + b.val := by show 32 * 2 + b.val = 64 + b.val; omega

end Cert.Kernel.Hand

end
-- ==== Proof.Bits.Body1Conds.lean ====
import proofs.«141685_g10428180595104_week1_w2_90_17_alg».proof.Proof.Gen.Kernel.Launch
import proofs.«141685_g10428180595104_week1_w2_90_17_alg».proof.Proof.Gen.Kernel.Skeleton
import proofs.«141685_g10428180595104_week1_w2_90_17_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Bits.Forms1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Cert.GraphConv

/-! # The second kernel's body: where its three branches run, and where its stores land -/

/-- The first branch runs in sweep 0, the second in sweep 1, the third in sweep 2. -/
theorem hcond1_1 : ∀ t : Fin cfg1.N, k1_cond1 (grid1.coords t) = 1#1 ↔ t.val / 32 = 0 :=
  (by decide +kernel : ∀ t : Fin grid1.N, k1_cond1 (grid1.coords t) = 1#1 ↔ t.val / 32 = 0)
theorem hcond1_2 : ∀ t : Fin cfg1.N, k1_cond2 (grid1.coords t) = 1#1 ↔ t.val / 32 = 1 :=
  (by decide +kernel : ∀ t : Fin grid1.N, k1_cond2 (grid1.coords t) = 1#1 ↔ t.val / 32 = 1)
theorem hcond1_3 : ∀ t : Fin cfg1.N, k1_cond3 (grid1.coords t) = 1#1 ↔ t.val / 32 = 2 :=
  (by decide +kernel : ∀ t : Fin grid1.N, k1_cond3 (grid1.coords t) = 1#1 ↔ t.val / 32 = 2)

/-- Every row access of the body at point `t` starts at row 128 times the row block of `t`. -/
theorem hoff1_1 : ∀ t : Fin cfg1.N, k1_off1 (grid1.coords t) = ![128 * (t.val % 32), 0] :=
  (by decide +kernel : ∀ t : Fin grid1.N, k1_off1 (grid1.coords t) = ![128 * (t.val % 32), 0])
theorem hoff1_2 : ∀ t : Fin cfg1.N, k1_off2 (grid1.coords t) = ![128 * (t.val % 32), 0] :=
  (by decide +kernel : ∀ t : Fin grid1.N, k1_off2 (grid1.coords t) = ![128 * (t.val % 32), 0])
theorem hoff1_3 : ∀ t : Fin cfg1.N, k1_off3 (grid1.coords t) = ![128 * (t.val % 32), 0] :=
  (by decide +kernel : ∀ t : Fin grid1.N, k1_off3 (grid1.coords t) = ![128 * (t.val % 32), 0])
theorem hoff1_4 : ∀ t : Fin cfg1.N, k1_off4 (grid1.coords t) = ![128 * (t.val % 32), 0] :=
  (by decide +kernel : ∀ t : Fin grid1.N, k1_off4 (grid1.coords t) = ![128 * (t.val % 32), 0])
theorem hoff1_5 : ∀ t : Fin cfg1.N, k1_off5 (grid1.coords t) = ![128 * (t.val % 32), 0] :=
  (by decide +kernel : ∀ t : Fin grid1.N, k1_off5 (grid1.coords t) = ![128 * (t.val % 32), 0])

/-- Two unit-stride rectangles of one size at equal offsets are one rectangle. -/
theorem rect_unit_congr {s : Shape} {off off' size : Fin s.rank → ℕ} (h : off = off') (inb : ∀ a, off a + size a ≤ s.size a)
    (inb' : ∀ a, off' a + size a ≤ s.size a) : Rect.unit (s := s) off size inb = Rect.unit (s := s) off' size inb' := by
  subst h; rfl

/-- What a load through a unit-stride rectangle reads depends on the rectangle's offsets only up to equality. -/
theorem ld_unit_congr {s : Shape} {e : EltTy} {Val : EltTy → Type} (X : s.Idx → Val e) {off off' size : Fin s.rank → ℕ} (h : off = off')
    (inb : ∀ a, off a + size a ≤ s.size a) (inb' : ∀ a, off' a + size a ≤ s.size a) :
    (View.ld X (Rect.unit (s := s) off size inb) : (⟨s.rank, size⟩ : Shape).Idx → Val e) = View.ld X (Rect.unit (s := s) off' size inb') := by
  subst h; rfl

end Cert.Kernel.Hand

end
-- ==== Proof.Bits.Body1A.lean ====
import proofs.«141685_g10428180595104_week1_w2_90_17_alg».proof.Proof.Gen.Kernel.Launch
import proofs.«141685_g10428180595104_week1_w2_90_17_alg».proof.Proof.Gen.Kernel.Skeleton
import proofs.«141685_g10428180595104_week1_w2_90_17_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Bits.Forms1
import proofs.«141685_g10428180595104_week1_w2_90_17_alg».proof.Proof.Bits.Body1Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Cert.GraphConv

/-! # The second kernel's body in sweep 0 -/

set_option maxHeartbeats 2000000 in
/-- The body where only its first branch runs, on whole memrefs: the six inputs' buffers, the output's buffer and the fourth carried
    matrix are left as they are; the first three carried matrices, handed at `dq`, `dy`, `dyb`, end with the rows `[o, o + 128)`
    replaced by the scaled reciprocal of the three degree blocks, the first update's rows and the same rounded. -/
theorem sound_kernel1_A (c : Dev nD) (E : Set ℕ) (i : grid1.Coords)
    (arg2 : Memref sig .tc .vmem S128x4096 .f32) (harg2 : arg2.IsWhole) (arg3 : Memref sig .tc .vmem S128x4096 .f32) (harg3 : arg3.IsWhole)
    (arg4 : Memref sig .tc .vmem S128x4096 .f32) (harg4 : arg4.IsWhole) (arg5 : Memref sig .tc .vmem S128x4096 .bf16) (harg5 : arg5.IsWhole)
    (arg6 : Memref sig .tc .vmem S4096x64 .bf16) (harg6 : arg6.IsWhole) (arg7 : Memref sig .tc .vmem S128x64 .f32) (harg7 : arg7.IsWhole)
    (arg8 : Memref sig .tc .vmem S4096x64 .f32) (harg8 : arg8.IsWhole) (arg9 : Memref sig .tc .vmem S4096x4096 .bf16) (harg9 : arg9.IsWhole)
    (arg10 : Memref sig .tc .vmem S4096x64 .f32) (harg10 : arg10.IsWhole) (arg11 : Memref sig .tc .vmem S4096x64 .bf16) (harg11 : arg11.IsWhole)
    (arg12 : Memref sig .tc .vmem S4096x64 .bf16) (harg12 : arg12.IsWhole)
    (h1 : k1_cond1 i = 1#1) (h2 : ¬ k1_cond2 i = 1#1) (h3 : ¬ k1_cond3 i = 1#1)
    (x0 x1 x2 : Vec F S128x4096 .f32) (x3 : Vec F S128x4096 .bf16) (x4 : Vec F S4096x64 .bf16) (x5 : Vec F S128x64 .f32) (d6 : Vec F S4096x64 .f32)
    (dq : Vec F S4096x4096 .bf16) (dy : Vec F S4096x64 .f32) (dyb dh : Vec F S4096x64 .bf16)
    (o : ℕ) (hoff1 : k1_off1 i = ![o, 0]) (hoff2 : k1_off2 i = ![o, 0]) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare d6 ∗ owns (c : Thread nD τ) arg9 fullShare dq ∗ owns (c : Thread nD τ) arg10 fullShare dy
        ∗ owns (c : Thread nD τ) arg11 fullShare dyb ∗ owns (c : Thread nD τ) arg12 fullShare dh
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare d6
            ∗ (∃ X : Vec F S4096x4096 .bf16, ⌜RowsUpd (R := 4096) (C := 4096) (W := 128) o (k1_pay2 (View.ld x0 rD1) (View.ld x1 rD1) (View.ld x2 rD1)) dq X⌝
                ∗ owns (c : Thread nD τ) arg9 fullShare X)
            ∗ (∃ X : Vec F S4096x64 .f32, ⌜RowsUpd (R := 4096) (C := 64) (W := 128) o
                  (k1_pay4 (View.ld x0 rD1) (View.ld x1 rD1) (View.ld x2 rD1) (View.ld x5 rB1) (View.ld x4 rY1)) dy X⌝
                ∗ owns (c : Thread nD τ) arg10 fullShare X)
            ∗ (∃ X : Vec F S4096x64 .bf16, ⌜RowsUpd (R := 4096) (C := 64) (W := 128) o
                  (k1_pay5 (View.ld x0 rD1) (View.ld x1 rD1) (View.ld x2 rD1) (View.ld x5 rB1) (View.ld x4 rY1)) dyb X⌝
                ∗ owns (c : Thread nD τ) arg11 fullShare X)
            ∗ owns (c : Thread nD τ) arg12 fullShare dh) -∗ K ⟨⟩))
      ⊢ wp frame (wpE (defs₀ (F := F)) Variants.none c none) E (cc1__call2 i arg2 harg2 arg3 harg3 arg4 harg4 arg5 harg5 arg6 harg6 arg7 harg7 arg8 harg8 arg9 harg9 arg10 harg10 arg11 harg11 arg12 harg12) K := by
  simp only [cc1__call2_eq_skeleton]; unfold cc1__call2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2 hf3 hf4 hf5 hf6 hf7 hf8 hf9 hf10 hf11 hf12
  sl_exec (disch := first | exact h1 | exact h2 | exact h3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr; swap
    · iexists _; isplitr; swap; · iexact H9
      ipureintro; rfl
    ipureintro
    exact rowsUpd_of_writes arg9.view f9 (k1_off1_inb i h1) _ hoff1
  isplitl [H10]
  · iexists _; isplitr; swap
    · iexists _; isplitr; swap; · iexact H10
      ipureintro; rfl
    ipureintro
    exact rowsUpd_of_writes arg10.view f10 (k1_off2_inb i h1) _ hoff2
  isplitl [H11]
  · iexists _; isplitr; swap
    · iexists _; isplitr; swap; · iexact H11
      ipureintro; rfl
    ipureintro
    exact rowsUpd_of_writes arg11.view f11 (k1_off2_inb i h1) _ hoff2
  iexists f12; isplitr; · ipureintro; rfl
  iexact H12

end Cert.Kernel.Hand

end
-- ==== Proof.Bits.Oblig1A.lean ====
import proofs.«141685_g10428180595104_week1_w2_90_17_alg».proof.Proof.Gen.Kernel.Launch
import proofs.«141685_g10428180595104_week1_w2_90_17_alg».proof.Proof.Gen.Kernel.Skeleton
import proofs.«141685_g10428180595104_week1_w2_90_17_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Bits.Forms1
import proofs.«141685_g10428180595104_week1_w2_90_17_alg».proof.Proof.Bits.Inv1Steps
import proofs.«141685_g10428180595104_week1_w2_90_17_alg».proof.Proof.Bits.Body1Conds
import proofs.«141685_g10428180595104_week1_w2_90_17_alg».proof.Proof.Bits.Body1A
import proofs.«141685_g10428180595104_week1_w2_90_17_alg».proof.Proof.Bits.Oblig1Pre

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Cert.GraphConv

/-! # The second region's body at a point of sweep 0 -/

variable (V : (c : Dev nD) → (b : Ref sig .tc) → Buf (Elt F) ((c : Thread nD τ).loc b))

set_option maxHeartbeats 1000000 in
/-- At row block `b` of sweep 0 the inputs' memrefs hold their blocks, so the body's triple applies; its three stores carry the
    invariant on the carried matrices to the next point, and the output's buffer is left as found. -/
theorem sound_body1_A (c : Dev nD) (b : Fin 32) (Y6 : Vec F S4096x64 .f32) :
    bodyPre1 V c (pt 0 b) Y6 ⊢ wp frame (wpE (defs₀ (F := F)) Variants.none c none) Set.univ (bodyAt1 (pt 0 b)) (fun _ => bodyPost1 V c (pt 0 b) Y6) := by
  have hb := b.isLt
  have hp : (pt 0 b).val / 32 = 0 := pt_div 0 b
  have h1 : k1_cond1 (grid1.coords (pt 0 b)) = 1#1 := (hcond1_1 (pt 0 b)).mpr hp
  have h2 : ¬ k1_cond2 (grid1.coords (pt 0 b)) = 1#1 := fun h => by have := (hcond1_2 (pt 0 b)).mp h; omega
  have h3 : ¬ k1_cond3 (grid1.coords (pt 0 b)) = 1#1 := fun h => by have := (hcond1_3 (pt 0 b)).mp h; omega
  have ho1 : k1_off1 (grid1.coords (pt 0 b)) = ![128 * b.val, 0] := by rw [hoff1_1, pt_mod]
  have ho2 : k1_off2 (grid1.coords (pt 0 b)) = ![128 * b.val, 0] := by rw [hoff1_2, pt_mod]
  unfold bodyPre1 bodyPost1 bodyAt1
  rw [Phi1_castSucc, Phi1_succ, owes1_succ, pt0_val]
  unfold carried1
  iintro ⟨⟨Hrest, ⟨%q, %y, %yb, %h, %hinv, Hq, Hy, Hyb, Hh⟩⟩, Ho, H0, H1, H2, H3, H4, H5, H6⟩
  iapply (sound_kernel1_A c Set.univ (grid1.coords (pt 0 b)) _ _ _ _ _ _ _ _ _ _ _ _ _ _ _ _ _ _ _ _ _ _ h1 h2 h3
    (iblk1 V c 0 (pt 0 b)) (iblk1 V c 1 (pt 0 b)) (iblk1 V c 2 (pt 0 b)) (iblk1 V c 3 (pt 0 b)) (iblk1 V c 4 (pt 0 b)) (iblk1 V c 5 (pt 0 b))
    Y6 q y yb h (128 * b.val) ho1 ho2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hq]; · iexact Hq
  isplitl [Hy]; · iexact Hy
  isplitl [Hyb]; · iexact Hyb
  isplitl [Hh]; · iexact Hh
  iintro ⟨H0, H1, H2, H3, H4, H5, H6, ⟨%q', %hq', Hq⟩, ⟨%y', %hy', Hy⟩, ⟨%yb', %hyb', Hyb⟩, Hh⟩
  isplitl [Hrest Hq Hy Hyb Hh]
  · isplitl [Hrest]; · iexact Hrest
    iexists q', y', yb', h
    isplitr
    · ipureintro; exact inv1_step_A V c b q q' y y' yb yb' h hinv hq' hy' hyb'
    isplitl [Hq]; · iexact Hq
    isplitl [Hy]; · iexact Hy
    isplitl [Hyb]; · iexact Hyb
    iexact Hh
  isplitl [Ho]; · iexact Ho
  isplitl [H0]
  · iexists (iblk1 V c 0 (pt 0 b)); isplitr
    · ipureintro; rw [after1_0]
    iexact H0
  isplitl [H1]
  · iexists (iblk1 V c 1 (pt 0 b)); isplitr
    · ipureintro; rw [after1_1]
    iexact H1
  isplitl [H2]
  · iexists (iblk1 V c 2 (pt 0 b)); isplitr
    · ipureintro; rw [after1_2]
    iexact H2
  isplitl [H3]
  · iexists (iblk1 V c 3 (pt 0 b)); isplitr
    · ipureintro; rw [after1_3]
    iexact H3
  isplitl [H4]
  · iexists (iblk1 V c 4 (pt 0 b)); isplitr
    · ipureintro; rw [after1_4]
    iexact H4
  isplitl [H5]
  · iexists (iblk1 V c 5 (pt 0 b)); isplitr
    · ipureintro; rw [after1_5]
    iexact H5
  iexists Y6; isplitr
  · ipureintro; exact (after1_6_lt V c (pt 0 b) (by rw [pt0_val]; omega) Y6 Y6).mpr rfl
  iexact H6

end Cert.Kernel.Hand

end
-- ==== Proof.Bits.Body1B.lean ====
import proofs.«141685_g10428180595104_week1_w2_90_17_alg».proof.Proof.Gen.Kernel.Launch
import proofs.«141685_g10428180595104_week1_w2_90_17_alg».proof.Proof.Gen.Kernel.Skeleton
import proofs.«141685_g10428180595104_week1_w2_90_17_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Bits.Forms1
import proofs.«141685_g10428180595104_week1_w2_90_17_alg».proof.Proof.Bits.Body1Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Cert.GraphConv

/-! # The second kernel's body in sweep 1 -/

set_option maxHeartbeats 2000000 in
/-- The body where only its second branch runs, on whole memrefs: everything is left as it is but the fourth carried matrix, which,
    handed at `dh`, ends with the rows `[o, o + 128)` replaced by the second propagated matrix's rows, computed from the summed
    adjacency's block, the WHOLE third carried matrix and the block of X. -/
theorem sound_kernel1_B (c : Dev nD) (E : Set ℕ) (i : grid1.Coords)
    (arg2 : Memref sig .tc .vmem S128x4096 .f32) (harg2 : arg2.IsWhole) (arg3 : Memref sig .tc .vmem S128x4096 .f32) (harg3 : arg3.IsWhole)
    (arg4 : Memref sig .tc .vmem S128x4096 .f32) (harg4 : arg4.IsWhole) (arg5 : Memref sig .tc .vmem S128x4096 .bf16) (harg5 : arg5.IsWhole)
    (arg6 : Memref sig .tc .vmem S4096x64 .bf16) (harg6 : arg6.IsWhole) (arg7 : Memref sig .tc .vmem S128x64 .f32) (harg7 : arg7.IsWhole)
    (arg8 : Memref sig .tc .vmem S4096x64 .f32) (harg8 : arg8.IsWhole) (arg9 : Memref sig .tc .vmem S4096x4096 .bf16) (harg9 : arg9.IsWhole)
    (arg10 : Memref sig .tc .vmem S4096x64 .f32) (harg10 : arg10.IsWhole) (arg11 : Memref sig .tc .vmem S4096x64 .bf16) (harg11 : arg11.IsWhole)
    (arg12 : Memref sig .tc .vmem S4096x64 .bf16) (harg12 : arg12.IsWhole)
    (h1 : ¬ k1_cond1 i = 1#1) (h2 : k1_cond2 i = 1#1) (h3 : ¬ k1_cond3 i = 1#1)
    (x0 x1 x2 : Vec F S128x4096 .f32) (x3 : Vec F S128x4096 .bf16) (x4 : Vec F S4096x64 .bf16) (x5 : Vec F S128x64 .f32) (d6 : Vec F S4096x64 .f32)
    (dq : Vec F S4096x4096 .bf16) (dy : Vec F S4096x64 .f32) (dyb dh : Vec F S4096x64 .bf16)
    (o : ℕ) (hoff3 : k1_off3 i = ![o, 0]) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare d6 ∗ owns (c : Thread nD τ) arg9 fullShare dq ∗ owns (c : Thread nD τ) arg10 fullShare dy
        ∗ owns (c : Thread nD τ) arg11 fullShare dyb ∗ owns (c : Thread nD τ) arg12 fullShare dh
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare d6 ∗ owns (c : Thread nD τ) arg9 fullShare dq ∗ owns (c : Thread nD τ) arg10 fullShare dy
            ∗ owns (c : Thread nD τ) arg11 fullShare dyb
            ∗ (∃ X : Vec F S4096x64 .bf16, ⌜RowsUpd (R := 4096) (C := 64) (W := 128) o
                  (k1_pay6 (View.ld x3 rD1) (View.ld dyb rY1) (View.ld x5 rB1)) dh X⌝
                ∗ owns (c : Thread nD τ) arg12 fullShare X)) -∗ K ⟨⟩))
      ⊢ wp frame (wpE (defs₀ (F := F)) Variants.none c none) E (cc1__call2 i arg2 harg2 arg3 harg3 arg4 harg4 arg5 harg5 arg6 harg6 arg7 harg7 arg8 harg8 arg9 harg9 arg10 harg10 arg11 harg11 arg12 harg12) K := by
  simp only [cc1__call2_eq_skeleton]; unfold cc1__call2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2 hf3 hf4 hf5 hf6 hf7 hf8 hf9 hf10 hf11 hf12
  sl_exec (disch := first | exact h1 | exact h2 | exact h3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr; swap
  · iexists _; isplitr; swap; · iexact H12
    ipureintro; rfl
  ipureintro
  exact rowsUpd_of_writes arg12.view f12 (k1_off3_inb i h2) _ hoff3

end Cert.Kernel.Hand

end
-- ==== Proof.Bits.Oblig1B.lean ====
import proofs.«141685_g10428180595104_week1_w2_90_17_alg».proof.Proof.Gen.Kernel.Launch
import proofs.«141685_g10428180595104_week1_w2_90_17_alg».proof.Proof.Gen.Kernel.Skeleton
import proofs.«141685_g10428180595104_week1_w2_90_17_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Bits.Forms1
import proofs.«141685_g10428180595104_week1_w2_90_17_alg».proof.Proof.Bits.Inv1Steps
import proofs.«141685_g10428180595104_week1_w2_90_17_alg».proof.Proof.Bits.Body1Conds
import proofs.«141685_g10428180595104_week1_w2_90_17_alg».proof.Proof.Bits.Body1B
import proofs.«141685_g10428180595104_week1_w2_90_17_alg».proof.Proof.Bits.Oblig1Pre

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Cert.GraphConv

/-! # The second region's body at a point of sweep 1 -/

variable (V : (c : Dev nD) → (b : Ref sig .tc) → Buf (Elt F) ((c : Thread nD τ).loc b))

set_option maxHeartbeats 1000000 in
/-- At row block `b` of sweep 1 the third carried matrix is the whole rounded first update, so the body's store puts the closed
    form's rows into the fourth; the other carried matrices and the output's buffer are left as found. -/
theorem sound_body1_B (c : Dev nD) (b : Fin 32) (Y6 : Vec F S4096x64 .f32) :
    bodyPre1 V c (pt 1 b) Y6 ⊢ wp frame (wpE (defs₀ (F := F)) Variants.none c none) Set.univ (bodyAt1 (pt 1 b)) (fun _ => bodyPost1 V c (pt 1 b) Y6) := by
  have hb := b.isLt
  have hp : (pt 1 b).val / 32 = 1 := pt_div 1 b
  have h1 : ¬ k1_cond1 (grid1.coords (pt 1 b)) = 1#1 := fun h => by have := (hcond1_1 (pt 1 b)).mp h; omega
  have h2 : k1_cond2 (grid1.coords (pt 1 b)) = 1#1 := (hcond1_2 (pt 1 b)).mpr hp
  have h3 : ¬ k1_cond3 (grid1.coords (pt 1 b)) = 1#1 := fun h => by have := (hcond1_3 (pt 1 b)).mp h; omega
  have ho3 : k1_off3 (grid1.coords (pt 1 b)) = ![128 * b.val, 0] := by rw [hoff1_3, pt_mod]
  unfold bodyPre1 bodyPost1 bodyAt1
  rw [Phi1_castSucc, Phi1_succ, owes1_succ, pt1_val]
  unfold carried1
  iintro ⟨⟨Hrest, ⟨%q, %y, %yb, %h, %hinv, Hq, Hy, Hyb, Hh⟩⟩, Ho, H0, H1, H2, H3, H4, H5, H6⟩
  obtain ⟨-, -, hyb⟩ := inv1_full V c (32 + b.val) (by omega) q y yb h hinv
  subst hyb
  iapply (sound_kernel1_B c Set.univ (grid1.coords (pt 1 b)) _ _ _ _ _ _ _ _ _ _ _ _ _ _ _ _ _ _ _ _ _ _ h1 h2 h3
    (iblk1 V c 0 (pt 1 b)) (iblk1 V c 1 (pt 1 b)) (iblk1 V c 2 (pt 1 b)) (iblk1 V c 3 (pt 1 b)) (iblk1 V c 4 (pt 1 b)) (iblk1 V c 5 (pt 1 b))
    Y6 q y (Y1B V c) h (128 * b.val) ho3 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hq]; · iexact Hq
  isplitl [Hy]; · iexact Hy
  isplitl [Hyb]; · iexact Hyb
  isplitl [Hh]; · iexact Hh
  iintro ⟨H0, H1, H2, H3, H4, H5, H6, Hq, Hy, Hyb, ⟨%h', %hh', Hh⟩⟩
  isplitl [Hrest Hq Hy Hyb Hh]
  · isplitl [Hrest]; · iexact Hrest
    iexists q, y, (Y1B V c), h'
    isplitr
    · ipureintro; exact inv1_step_B V c b q y (Y1B V c) h h' hinv hh'
    isplitl [Hq]; · iexact Hq
    isplitl [Hy]; · iexact Hy
    isplitl [Hyb]; · iexact Hyb
    iexact Hh
  isplitl [Ho]; · iexact Ho
  isplitl [H0]
  · iexists (iblk1 V c 0 (pt 1 b)); isplitr
    · ipureintro; rw [after1_0]
    iexact H0
  isplitl [H1]
  · iexists (iblk1 V c 1 (pt 1 b)); isplitr
    · ipureintro; rw [after1_1]
    iexact H1
  isplitl [H2]
  · iexists (iblk1 V c 2 (pt 1 b)); isplitr
    · ipureintro; rw [after1_2]
    iexact H2
  isplitl [H3]
  · iexists (iblk1 V c 3 (pt 1 b)); isplitr
    · ipureintro; rw [after1_3]
    iexact H3
  isplitl [H4]
  · iexists (iblk1 V c 4 (pt 1 b)); isplitr
    · ipureintro; rw [after1_4]
    iexact H4
  isplitl [H5]
  · iexists (iblk1 V c 5 (pt 1 b)); isplitr
    · ipureintro; rw [after1_5]
    iexact H5
  iexists Y6; isplitr
  · ipureintro; exact (after1_6_lt V c (pt 1 b) (by rw [pt1_val]; omega) Y6 Y6).mpr rfl
  iexact H6

end Cert.Kernel.Hand

end
-- ==== Proof.Bits.Body1C.lean ====
import proofs.«141685_g10428180595104_week1_w2_90_17_alg».proof.Proof.Gen.Kernel.Launch
import proofs.«141685_g10428180595104_week1_w2_90_17_alg».proof.Proof.Gen.Kernel.Skeleton
import proofs.«141685_g10428180595104_week1_w2_90_17_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Bits.Forms1
import proofs.«141685_g10428180595104_week1_w2_90_17_alg».proof.Proof.Bits.Body1Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Cert.GraphConv

/-! # The second kernel's body in sweep 2 -/

set_option maxHeartbeats 2000000 in
/-- The body where only its third branch runs, at row block `b`, on whole memrefs: everything is left as it is but the output's
    buffer, which, handed at `d6`, ends with the rows `[128 b, 128 b + 128)` replaced by the result's rows, computed from those rows
    of the second and of the first carried matrix and the WHOLE fourth carried matrix. -/
theorem sound_kernel1_C (c : Dev nD) (E : Set ℕ) (i : grid1.Coords)
    (arg2 : Memref sig .tc .vmem S128x4096 .f32) (harg2 : arg2.IsWhole) (arg3 : Memref sig .tc .vmem S128x4096 .f32) (harg3 : arg3.IsWhole)
    (arg4 : Memref sig .tc .vmem S128x4096 .f32) (harg4 : arg4.IsWhole) (arg5 : Memref sig .tc .vmem S128x4096 .bf16) (harg5 : arg5.IsWhole)
    (arg6 : Memref sig .tc .vmem S4096x64 .bf16) (harg6 : arg6.IsWhole) (arg7 : Memref sig .tc .vmem S128x64 .f32) (harg7 : arg7.IsWhole)
    (arg8 : Memref sig .tc .vmem S4096x64 .f32) (harg8 : arg8.IsWhole) (arg9 : Memref sig .tc .vmem S4096x4096 .bf16) (harg9 : arg9.IsWhole)
    (arg10 : Memref sig .tc .vmem S4096x64 .f32) (harg10 : arg10.IsWhole) (arg11 : Memref sig .tc .vmem S4096x64 .bf16) (harg11 : arg11.IsWhole)
    (arg12 : Memref sig .tc .vmem S4096x64 .bf16) (harg12 : arg12.IsWhole)
    (h1 : ¬ k1_cond1 i = 1#1) (h2 : ¬ k1_cond2 i = 1#1) (h3 : k1_cond3 i = 1#1)
    (x0 x1 x2 : Vec F S128x4096 .f32) (x3 : Vec F S128x4096 .bf16) (x4 : Vec F S4096x64 .bf16) (x5 : Vec F S128x64 .f32) (d6 : Vec F S4096x64 .f32)
    (dq : Vec F S4096x4096 .bf16) (dy : Vec F S4096x64 .f32) (dyb dh : Vec F S4096x64 .bf16)
    (b : Fin 32) (hoff4 : k1_off4 i = ![128 * b.val, 0]) (hoff5 : k1_off5 i = ![128 * b.val, 0]) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare d6 ∗ owns (c : Thread nD τ) arg9 fullShare dq ∗ owns (c : Thread nD τ) arg10 fullShare dy
        ∗ owns (c : Thread nD τ) arg11 fullShare dyb ∗ owns (c : Thread nD τ) arg12 fullShare dh
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ X : Vec F S4096x64 .f32, ⌜RowsUpd (R := 4096) (C := 64) (W := 128) (128 * b.val)
                  (k1_pay7 (View.ld dy (rRows64 b)) (View.ld dq (rRows4096 b)) (View.ld dh rY1)) d6 X⌝
                ∗ owns (c : Thread nD τ) arg8 fullShare X)
            ∗ owns (c : Thread nD τ) arg9 fullShare dq ∗ owns (c : Thread nD τ) arg10 fullShare dy
            ∗ owns (c : Thread nD τ) arg11 fullShare dyb ∗ owns (c : Thread nD τ) arg12 fullShare dh) -∗ K ⟨⟩))
      ⊢ wp frame (wpE (defs₀ (F := F)) Variants.none c none) E (cc1__call2 i arg2 harg2 arg3 harg3 arg4 harg4 arg5 harg5 arg6 harg6 arg7 harg7 arg8 harg8 arg9 harg9 arg10 harg10 arg11 harg11 arg12 harg12) K := by
  simp only [cc1__call2_eq_skeleton]; unfold cc1__call2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2 hf3 hf4 hf5 hf6 hf7 hf8 hf9 hf10 hf11 hf12
  sl_exec (disch := first | exact h1 | exact h2 | exact h3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap
    · iexists _; isplitr; swap; · iexact H8
      ipureintro; rfl
    ipureintro
    rw [ld_unit_congr (View.read (Elt F) arg10.view f10) hoff4.symm (rows_inb64 b) (k1_off4_inb i h3),
      ld_unit_congr (View.read (Elt F) arg9.view f9) hoff5.symm (rows_inb4096 b) (k1_off5_inb i h3)]
    exact rowsUpd_of_writes arg8.view f8 (k1_off4_inb i h3) _ hoff4
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists f12; isplitr; · ipureintro; rfl
  iexact H12

end Cert.Kernel.Hand

end
-- ==== Proof.Bits.Oblig1C.lean ====
import proofs.«141685_g10428180595104_week1_w2_90_17_alg».proof.Proof.Gen.Kernel.Launch
import proofs.«141685_g10428180595104_week1_w2_90_17_alg».proof.Proof.Gen.Kernel.Skeleton
import proofs.«141685_g10428180595104_week1_w2_90_17_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Bits.Forms1
import proofs.«141685_g10428180595104_week1_w2_90_17_alg».proof.Proof.Bits.Inv1Steps
import proofs.«141685_g10428180595104_week1_w2_90_17_alg».proof.Proof.Bits.Body1Conds
import proofs.«141685_g10428180595104_week1_w2_90_17_alg».proof.Proof.Bits.Body1C
import proofs.«141685_g10428180595104_week1_w2_90_17_alg».proof.Proof.Bits.Oblig1Pre

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Cert.GraphConv

/-! # The second region's body at a point of sweep 2 -/

variable (V : (c : Dev nD) → (b : Ref sig .tc) → Buf (Elt F) ((c : Thread nD τ).loc b))

set_option maxHeartbeats 1000000 in
/-- At row block `b` of sweep 2 the four carried matrices are the closed forms, so the body's store puts the result's rows of the
    row block into the output's buffer; the carried matrices are left as found. -/
theorem sound_body1_C (c : Dev nD) (b : Fin 32) (Y6 : Vec F S4096x64 .f32) :
    bodyPre1 V c (pt 2 b) Y6 ⊢ wp frame (wpE (defs₀ (F := F)) Variants.none c none) Set.univ (bodyAt1 (pt 2 b)) (fun _ => bodyPost1 V c (pt 2 b) Y6) := by
  have hb := b.isLt
  have hp : (pt 2 b).val / 32 = 2 := pt_div 2 b
  have h1 : ¬ k1_cond1 (grid1.coords (pt 2 b)) = 1#1 := fun h => by have := (hcond1_1 (pt 2 b)).mp h; omega
  have h2 : ¬ k1_cond2 (grid1.coords (pt 2 b)) = 1#1 := fun h => by have := (hcond1_2 (pt 2 b)).mp h; omega
  have h3 : k1_cond3 (grid1.coords (pt 2 b)) = 1#1 := (hcond1_3 (pt 2 b)).mpr hp
  have ho4 : k1_off4 (grid1.coords (pt 2 b)) = ![128 * b.val, 0] := by rw [hoff1_4, pt_mod]
  have ho5 : k1_off5 (grid1.coords (pt 2 b)) = ![128 * b.val, 0] := by rw [hoff1_5, pt_mod]
  have hge : ¬ (pt 2 b).val < 64 := by rw [pt2_val]; omega
  have eb : (⟨(pt 2 b).val - 64, by have := lt96 (pt 2 b); omega⟩ : Fin 32) = b :=
    Fin.ext (by show (pt 2 b).val - 64 = b.val; rw [pt2_val]; omega)
  have ev : (pt 2 b).val - 64 = b.val := by rw [pt2_val]; omega
  unfold bodyPre1 bodyPost1 bodyAt1
  rw [Phi1_castSucc, Phi1_succ, owes1_succ, pt2_val]
  unfold carried1
  iintro ⟨⟨Hrest, ⟨%q, %y, %yb, %h, %hinv, Hq, Hy, Hyb, Hh⟩⟩, Ho, H0, H1, H2, H3, H4, H5, H6⟩
  have hinv' := inv1_step_C V c (64 + b.val) (by omega) q y yb h hinv
  obtain ⟨hq, hy, -⟩ := inv1_full V c (64 + b.val) (by omega) q y yb h hinv
  have hh := inv1_full4 V c (64 + b.val) (by omega) q y yb h hinv
  iapply (sound_kernel1_C c Set.univ (grid1.coords (pt 2 b)) _ _ _ _ _ _ _ _ _ _ _ _ _ _ _ _ _ _ _ _ _ _ h1 h2 h3
    (iblk1 V c 0 (pt 2 b)) (iblk1 V c 1 (pt 2 b)) (iblk1 V c 2 (pt 2 b)) (iblk1 V c 3 (pt 2 b)) (iblk1 V c 4 (pt 2 b)) (iblk1 V c 5 (pt 2 b))
    Y6 q y yb h b ho4 ho5 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hq]; · iexact Hq
  isplitl [Hy]; · iexact Hy
  isplitl [Hyb]; · iexact Hyb
  isplitl [Hh]; · iexact Hh
  iintro ⟨H0, H1, H2, H3, H4, H5, ⟨%X, %hX, H6⟩, Hq, Hy, Hyb, Hh⟩
  isplitl [Hrest Hq Hy Hyb Hh]
  · isplitl [Hrest]; · iexact Hrest
    iexists q, y, yb, h
    isplitr
    · ipureintro; exact hinv'
    isplitl [Hq]; · iexact Hq
    isplitl [Hy]; · iexact Hy
    isplitl [Hyb]; · iexact Hyb
    iexact Hh
  isplitl [Ho]; · iexact Ho
  isplitl [H0]
  · iexists (iblk1 V c 0 (pt 2 b)); isplitr
    · ipureintro; rw [after1_0]
    iexact H0
  isplitl [H1]
  · iexists (iblk1 V c 1 (pt 2 b)); isplitr
    · ipureintro; rw [after1_1]
    iexact H1
  isplitl [H2]
  · iexists (iblk1 V c 2 (pt 2 b)); isplitr
    · ipureintro; rw [after1_2]
    iexact H2
  isplitl [H3]
  · iexists (iblk1 V c 3 (pt 2 b)); isplitr
    · ipureintro; rw [after1_3]
    iexact H3
  isplitl [H4]
  · iexists (iblk1 V c 4 (pt 2 b)); isplitr
    · ipureintro; rw [after1_4]
    iexact H4
  isplitl [H5]
  · iexists (iblk1 V c 5 (pt 2 b)); isplitr
    · ipureintro; rw [after1_5]
    iexact H5
  iexists X; isplitr
  · ipureintro
    refine (after1_6_ge V c (pt 2 b) hge Y6 X).mpr ?_
    rw [eb, ev]
    rw [hq, hy, hh] at hX
    exact hX
  iexact H6

end Cert.Kernel.Hand

end
-- ==== Proof.Bits.Oblig1.lean ====
import proofs.«141685_g10428180595104_week1_w2_90_17_alg».proof.Proof.Gen.Kernel.Launch
import proofs.«141685_g10428180595104_week1_w2_90_17_alg».proof.Proof.Gen.Kernel.Skeleton
import proofs.«141685_g10428180595104_week1_w2_90_17_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Bits.Forms1
import proofs.«141685_g10428180595104_week1_w2_90_17_alg».proof.Proof.Bits.Inv1Steps
import proofs.«141685_g10428180595104_week1_w2_90_17_alg».proof.Proof.Bits.Oblig1Pre
import proofs.«141685_g10428180595104_week1_w2_90_17_alg».proof.Proof.Bits.Oblig1A
import proofs.«141685_g10428180595104_week1_w2_90_17_alg».proof.Proof.Bits.Oblig1B
import proofs.«141685_g10428180595104_week1_w2_90_17_alg».proof.Proof.Bits.Oblig1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Cert.GraphConv

/-! # The second region's body obligation -/

variable (V : (c : Dev nD) → (b : Ref sig .tc) → Buf (Elt F) ((c : Thread nD τ).loc b))

/-- The body at any point: the point lies in one of the three sweeps. -/
theorem sound_body1 (c : Dev nD) (t : Fin cfg1.N) (Y6 : Vec F S4096x64 .f32) :
    bodyPre1 V c t Y6 ⊢ wp frame (wpE (defs₀ (F := F)) Variants.none c none) Set.univ (bodyAt1 t) (fun _ => bodyPost1 V c t Y6) := by
  have ht := lt96 t
  by_cases hp0 : t.val / 32 = 0
  · rw [eq_pt t 0 hp0]; exact sound_body1_A V c _ Y6
  by_cases hp1 : t.val / 32 = 1
  · rw [eq_pt t 1 hp1]; exact sound_body1_B V c _ Y6
  have hp2 : t.val / 32 = 2 := by omega
  rw [eq_pt t 2 hp2]; exact sound_body1_C V c _ Y6

/-- The library's body obligation for the region's relational proof data, at every point: each input's buffer holds its block. -/
theorem body_obligation1 (c : Dev nD) : (rd1 V c).BodyObligation (defs₀ (F := F)) Variants.none () Set.univ := by
  intro t Y hY
  rw [bigSep_W1, bigSep_W1]
  rw [finds1_0 V c t (Y 0) (hY 0), finds1_1 V c t (Y 1) (hY 1), finds1_2 V c t (Y 2) (hY 2), finds1_3 V c t (Y 3) (hY 3),
    finds1_4 V c t (Y 4) (hY 4), finds1_5 V c t (Y 5) (hY 5)]
  exact sound_body1 V c t (Y 6)

end Cert.Kernel.Hand

end
-- ==== Proof.Bits.Phi1.lean ====
import proofs.«141685_g10428180595104_week1_w2_90_17_alg».proof.Proof.Gen.Kernel.Launch
import proofs.«141685_g10428180595104_week1_w2_90_17_alg».proof.Proof.Gen.Kernel.Skeleton
import proofs.«141685_g10428180595104_week1_w2_90_17_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Bits.Forms1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Cert.GraphConv

/-! # The second region's invariant at its two ends

Before the first point nothing is said of the four carried matrices; after the last point what is known of them is forgotten. -/

variable (V : (c : Dev nD) → (b : Ref sig .tc) → Buf (Elt F) ((c : Thread nD τ).loc b))

/-- Before the first point the invariant on the carried matrices asks nothing. -/
theorem inv1_zero (c : Dev nD) (q : Vec F S4096x4096 .bf16) (y : Vec F S4096x64 .f32) (yb h : Vec F S4096x64 .bf16) :
    Inv1 V c 0 q y yb h :=
  ⟨fun j hj => absurd hj (by simp), fun j hj => absurd hj (by simp), fun j hj => absurd hj (by simp),
   fun j hj => absurd hj (by simp)⟩

/-- The class invariant is the region's invariant before its first point. -/
theorem hin1 (c : Dev nD) : (Pipeline.ΦA (U := UR sig nD τ) (Val := Elt F) spec1 c : sProp 𝕄) ⊢ (rd1 V c).Φ 0 := by
  unfold Pipeline.ΦA; rw [scopedRest1_eq]
  show _ ⊢ iprop(rest1 (F := F) c ∗ carried1 V c 0)
  unfold rest1 carried1
  simp only [owns_whole]
  iintro ⟨⟨G0, G1, G2, G3, G4, G5, G6, G7, G8, G9, ⟨%q, Hq⟩, ⟨%y, Hy⟩, ⟨%yb, Hyb⟩, ⟨%h, Hh⟩⟩, Hr⟩
  isplitl [G0 G1 G2 G3 G4 G5 G6 G7 G8 G9 Hr]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    iexact Hr
  iexists q, y, yb, h
  isplitr; · ipureintro; exact inv1_zero V c q y yb h
  isplitl [Hq]; · iexact Hq
  isplitl [Hy]; · iexact Hy
  isplitl [Hyb]; · iexact Hyb
  iexact Hh

/-- The region's invariant after its last point gives the class invariant back. -/
theorem hout1 (c : Dev nD) : (rd1 V c).Φ (Fin.last _) ⊢ (Pipeline.ΦA (U := UR sig nD τ) (Val := Elt F) spec1 c : sProp 𝕄) := by
  unfold Pipeline.ΦA; rw [scopedRest1_eq]
  show iprop(rest1 (F := F) c ∗ carried1 V c _) ⊢ _
  unfold rest1 carried1
  simp only [owns_whole]
  iintro ⟨⟨G0, G1, G2, G3, G4, G5, G6, G7, G8, G9, Hr⟩, ⟨%q, %y, %yb, %h, -, Hq, Hy, Hyb, Hh⟩⟩
  isplitr [Hr]
  swap; · iexact Hr
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [Hq]; · iexists q; iexact Hq
  isplitl [Hy]; · iexists y; iexact Hy
  isplitl [Hyb]; · iexists yb; iexact Hyb
  iexists h; iexact Hh

end Cert.Kernel.Hand

end
-- ==== Proof.Bits.Shares0.lean ====
/-
  The first kernel region: the buffers behind its windows' arrays, at entry and at exit.

  The region has six windows over FIVE buffers: windows 2 and 3 both read X. At entry the five buffers are held whole
  at the full share; the region holds each window's array at the window's own share, which for windows 2 and 3 is
  the left and the right half of the full share: X's buffer is split into its two halves, the other four are handed
  over as they are. At exit each window's array is held at some contents it may then hold; an input's array is never
  written, so it holds its entry contents; the two halves of X's buffer, at equal contents, join to the full share;
  the two outputs' contents are what the caller says every possible final contents is.
-/
import proofs.«141685_g10428180595104_week1_w2_90_17_alg».proof.Proof.Bits.Forms0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The five distinct buffers behind the six windows' arrays, one by one. -/
theorem arrBufs0_chain (c : Dev nD) (V' : (b : Ref sig .tc) → Buf (Elt F) ((c : Thread nD τ).loc b)) :
    (Pipeline.arrBufs spec0 c V' : sProp 𝕄)
      = iprop((((c : Thread nD τ).loc main_arg1) ↦{fullShare} V' main_arg1) ∗ (((c : Thread nD τ).loc main_arg2) ↦{fullShare} V' main_arg2)
        ∗ (((c : Thread nD τ).loc main_arg0) ↦{fullShare} V' main_arg0) ∗ (((c : Thread nD τ).loc main_v0_0) ↦{fullShare} V' main_v0_0)
        ∗ (((c : Thread nD τ).loc main_v0_1) ↦{fullShare} V' main_v0_1)) := by
  classical
  unfold Pipeline.arrBufs
  exact bigSep_eq_bigSepL_of_eq [main_arg1, main_arg2, main_arg0, main_v0_0, main_v0_1] (by decide) (by decide) _

/-- Holding every element of a whole buffer's view is holding the buffer. -/
theorem whole_pt (c : Dev nD) (b : Ref sig .tc) (q : PosShare TreeShare) (G : Buf (Elt F) ((c : Thread nD τ).loc b)) :
    (View.loc (c.tc : Thread nD τ) (View.whole b) ↦[(View.whole b).set]{q} G : sProp 𝕄) = (((c : Thread nD τ).loc b) ↦{q} G) := by
  rw [View.set_whole]

theorem share0_0 (c : Dev nD) : (rd0 V c).share 0 = fullShare := rfl
theorem share0_1 (c : Dev nD) : (rd0 V c).share 1 = fullShare := rfl
theorem share0_2 (c : Dev nD) : (rd0 V c).share 2 = fullShare.left := rfl
theorem share0_3 (c : Dev nD) : (rd0 V c).share 3 = fullShare.right := rfl
theorem share0_4 (c : Dev nD) : (rd0 V c).share 4 = fullShare := rfl
theorem share0_5 (c : Dev nD) : (rd0 V c).share 5 = fullShare := rfl

theorem A0_0 (c : Dev nD) : (rd0 V c).A 0 = V c main_arg1 := rfl
theorem A0_1 (c : Dev nD) : (rd0 V c).A 1 = V c main_arg2 := rfl
theorem A0_2 (c : Dev nD) : (rd0 V c).A 2 = V c main_arg0 := rfl
theorem A0_3 (c : Dev nD) : (rd0 V c).A 3 = V c main_arg0 := rfl
theorem A0_4 (c : Dev nD) : (rd0 V c).A 4 = V c main_v0_0 := rfl
theorem A0_5 (c : Dev nD) : (rd0 V c).A 5 = V c main_v0_1 := rfl

/-- Entry: the five buffers at the full share make the six windows' arrays at the region's shares, X's buffer split
    into its two halves. -/
theorem arr0_split (c : Dev nD) : (Pipeline.arrBufs spec0 c (V c) : sProp 𝕄) ⊢ (rd0 V c).arrays (rd0 V c).A := by
  rw [arrBufs0_chain]
  unfold RDat.arrays
  rw [bigSep_W0]
  simp only [share0_0, share0_1, share0_2, share0_3, share0_4, share0_5, A0_0, A0_1, A0_2, A0_3, A0_4, A0_5, View.set_whole]
  iintro ⟨H0, H1, HX, H4, H5⟩
  ihave HX' := (pointsTo_share (PosShare.mem_left_op_right fullShare)).1 $$ HX
  icases HX' with ⟨H2, H3⟩
  isplitl [H0]; · iexact H0
  isplitl [H1]; · iexact H1
  isplitl [H2]; · iexact H2
  isplitl [H3]; · iexact H3
  isplitl [H4]; · iexact H4
  iexact H5

/-- Exit: the six windows' arrays after every write-back make the five buffers at the full share, at any contents
    `V'` that keeps the three inputs and that every possible final contents of each output equals. -/
theorem arr0_exit (c : Dev nD) (V' : (b : Ref sig .tc) → Buf (Elt F) ((c : Thread nD τ).loc b))
    (h0 : V' main_arg1 = V c main_arg1) (h1 : V' main_arg2 = V c main_arg2) (h2 : V' main_arg0 = V c main_arg0)
    (h4 : ∀ G, (rd0 V c).ArrAt 4 cfg0.N G → G = V' main_v0_0) (h5 : ∀ G, (rd0 V c).ArrAt 5 cfg0.N G → G = V' main_v0_1) :
    ((rd0 V c).arraysAt cfg0.N : sProp 𝕄) ⊢ Pipeline.arrBufs spec0 c V' := by
  rw [arrBufs0_chain, h0, h1, h2]
  unfold RDat.arraysAt
  rw [bigSep_W0]
  simp only [share0_0, share0_1, share0_2, share0_3, share0_4, share0_5, View.set_whole]
  iintro ⟨H0, H1, H2, H3, H4, H5⟩
  icases H0 with ⟨%G0, %e0, H0⟩
  icases H1 with ⟨%G1, %e1, H1⟩
  icases H2 with ⟨%G2, %e2, H2⟩
  icases H3 with ⟨%G3, %e3, H3⟩
  icases H4 with ⟨%G4, %e4, H4⟩
  icases H5 with ⟨%G5, %e5, H5⟩
  have e0' : G0 = V c main_arg1 := (congrFun ((rd0 V c).ArrAt_in 0 rfl cfg0.N) G0).mp e0
  have e1' : G1 = V c main_arg2 := (congrFun ((rd0 V c).ArrAt_in 1 rfl cfg0.N) G1).mp e1
  have e2' : G2 = V c main_arg0 := (congrFun ((rd0 V c).ArrAt_in 2 rfl cfg0.N) G2).mp e2
  have e3' : G3 = V c main_arg0 := (congrFun ((rd0 V c).ArrAt_in 3 rfl cfg0.N) G3).mp e3
  have e4' : G4 = V' main_v0_0 := h4 G4 e4
  have e5' : G5 = V' main_v0_1 := h5 G5 e5
  subst e0' e1' e2' e3' e4' e5'
  ihave HX := (pointsTo_share (PosShare.mem_left_op_right fullShare)).2 $$ [H2 H3]
  · isplitl [H2]; · iexact H2
    iexact H3
  isplitl [H0]; · iexact H0
  isplitl [H1]; · iexact H1
  isplitl [HX]; · iexact HX
  isplitl [H4]; · iexact H4
  iexact H5

end Cert.Kernel.Hand

end
-- ==== Proof.Bits.Shares1.lean ====
/-
  The second kernel region: the buffers behind its windows' arrays, at exit (and, for symmetry, at entry).

  The region has seven windows over seven distinct buffers, each held whole at the full share: six inputs and one
  output. At exit each window's array is held at some contents it may then hold; an input's array is never written,
  so it holds its entry contents; the output's contents is what the caller says every possible final contents is.
  So the seven arrays make the seven buffers at the full share, at any contents that keeps the six inputs and names
  the output. At entry the seven buffers at the full share are the seven windows' arrays, as they are.
-/
import proofs.«141685_g10428180595104_week1_w2_90_17_alg».proof.Proof.Bits.Forms1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The seven buffers behind the seven windows' arrays, one by one. -/
theorem arrBufs1_chain (c : Dev nD) (V' : (b : Ref sig .tc) → Buf (Elt F) ((c : Thread nD τ).loc b)) :
    (Pipeline.arrBufs spec1 c V' : sProp 𝕄)
      = iprop((((c : Thread nD τ).loc main_arg3) ↦{fullShare} V' main_arg3)
        ∗ (((c : Thread nD τ).loc main_arg4) ↦{fullShare} V' main_arg4)
        ∗ (((c : Thread nD τ).loc main_arg5) ↦{fullShare} V' main_arg5)
        ∗ (((c : Thread nD τ).loc main_v0_0) ↦{fullShare} V' main_v0_0)
        ∗ (((c : Thread nD τ).loc main_v0_1) ↦{fullShare} V' main_v0_1)
        ∗ (((c : Thread nD τ).loc main_arg0) ↦{fullShare} V' main_arg0)
        ∗ (((c : Thread nD τ).loc main_v1) ↦{fullShare} V' main_v1)) := by
  classical
  unfold Pipeline.arrBufs
  exact bigSep_eq_bigSepL_of_eq [main_arg3, main_arg4, main_arg5, main_v0_0, main_v0_1, main_arg0, main_v1] (by decide) (by decide) _

theorem share1_0 (c : Dev nD) : (rd1 V c).share 0 = fullShare := rfl
theorem share1_1 (c : Dev nD) : (rd1 V c).share 1 = fullShare := rfl
theorem share1_2 (c : Dev nD) : (rd1 V c).share 2 = fullShare := rfl
theorem share1_3 (c : Dev nD) : (rd1 V c).share 3 = fullShare := rfl
theorem share1_4 (c : Dev nD) : (rd1 V c).share 4 = fullShare := rfl
theorem share1_5 (c : Dev nD) : (rd1 V c).share 5 = fullShare := rfl
theorem share1_6 (c : Dev nD) : (rd1 V c).share 6 = fullShare := rfl

theorem A1_0 (c : Dev nD) : (rd1 V c).A 0 = V c main_arg3 := rfl
theorem A1_1 (c : Dev nD) : (rd1 V c).A 1 = V c main_arg4 := rfl
theorem A1_2 (c : Dev nD) : (rd1 V c).A 2 = V c main_arg5 := rfl
theorem A1_3 (c : Dev nD) : (rd1 V c).A 3 = V c main_v0_0 := rfl
theorem A1_4 (c : Dev nD) : (rd1 V c).A 4 = V c main_v0_1 := rfl
theorem A1_5 (c : Dev nD) : (rd1 V c).A 5 = V c main_arg0 := rfl
theorem A1_6 (c : Dev nD) : (rd1 V c).A 6 = V c main_v1 := rfl

/-- Entry: the seven buffers at the full share are the seven windows' arrays at the entry contents. -/
theorem arr1_split (c : Dev nD) : (Pipeline.arrBufs spec1 c (V c) : sProp 𝕄) ⊢ (rd1 V c).arrays (rd1 V c).A := by
  rw [arrBufs1_chain]
  unfold RDat.arrays
  rw [bigSep_W1]
  simp only [share1_0, share1_1, share1_2, share1_3, share1_4, share1_5, share1_6, A1_0, A1_1, A1_2, A1_3, A1_4, A1_5, A1_6,
    View.set_whole]
  iintro ⟨H0, H1, H2, H3, H4, H5, H6⟩
  isplitl [H0]; · iexact H0
  isplitl [H1]; · iexact H1
  isplitl [H2]; · iexact H2
  isplitl [H3]; · iexact H3
  isplitl [H4]; · iexact H4
  isplitl [H5]; · iexact H5
  iexact H6

/-- Exit: the seven windows' arrays after every write-back make the seven buffers at the full share, at any contents
    `V'` that keeps the six inputs and that every possible final contents of the output equals. -/
theorem arr1_exit (c : Dev nD) (V' : (b : Ref sig .tc) → Buf (Elt F) ((c : Thread nD τ).loc b))
    (h0 : V' main_arg3 = V c main_arg3) (h1 : V' main_arg4 = V c main_arg4) (h2 : V' main_arg5 = V c main_arg5)
    (h3 : V' main_v0_0 = V c main_v0_0) (h4 : V' main_v0_1 = V c main_v0_1) (h5 : V' main_arg0 = V c main_arg0)
    (h6 : ∀ G, (rd1 V c).ArrAt 6 cfg1.N G → G = V' main_v1) :
    ((rd1 V c).arraysAt cfg1.N : sProp 𝕄) ⊢ Pipeline.arrBufs spec1 c V' := by
  rw [arrBufs1_chain, h0, h1, h2, h3, h4, h5]
  unfold RDat.arraysAt
  rw [bigSep_W1]
  simp only [share1_0, share1_1, share1_2, share1_3, share1_4, share1_5, share1_6, View.set_whole]
  iintro ⟨H0, H1, H2, H3, H4, H5, H6⟩
  icases H0 with ⟨%G0, %e0, H0⟩
  icases H1 with ⟨%G1, %e1, H1⟩
  icases H2 with ⟨%G2, %e2, H2⟩
  icases H3 with ⟨%G3, %e3, H3⟩
  icases H4 with ⟨%G4, %e4, H4⟩
  icases H5 with ⟨%G5, %e5, H5⟩
  icases H6 with ⟨%G6, %e6, H6⟩
  have e0' : G0 = V c main_arg3 := (congrFun ((rd1 V c).ArrAt_in 0 rfl cfg1.N) G0).mp e0
  have e1' : G1 = V c main_arg4 := (congrFun ((rd1 V c).ArrAt_in 1 rfl cfg1.N) G1).mp e1
  have e2' : G2 = V c main_arg5 := (congrFun ((rd1 V c).ArrAt_in 2 rfl cfg1.N) G2).mp e2
  have e3' : G3 = V c main_v0_0 := (congrFun ((rd1 V c).ArrAt_in 3 rfl cfg1.N) G3).mp e3
  have e4' : G4 = V c main_v0_1 := (congrFun ((rd1 V c).ArrAt_in 4 rfl cfg1.N) G4).mp e4
  have e5' : G5 = V c main_arg0 := (congrFun ((rd1 V c).ArrAt_in 5 rfl cfg1.N) G5).mp e5
  have e6' : G6 = V' main_v1 := h6 G6 e6
  subst e0' e1' e2' e3' e4' e5' e6'
  isplitl [H0]; · iexact H0
  isplitl [H1]; · iexact H1
  isplitl [H2]; · iexact H2
  isplitl [H3]; · iexact H3
  isplitl [H4]; · iexact H4
  isplitl [H5]; · iexact H5
  iexact H6

end Cert.Kernel.Hand

end
-- ==== Proof.Bits.Arr0.lean ====
/-
  The arrays the first region leaves.

  The region's 8 points each handle 512 rows.  Output window 4 writes its block back at every point: block u is the
  rows [512 u, 512 u + 512) and holds that point's summed block, so the array ends as the summed blocks stacked.
  Output window 5 is one whole-array block kept in its staging buffer across the points; each point replaces its own
  512 rows there, and the one write-back after the last point moves the whole buffer, so the array ends as the
  points' row blocks stacked.
-/
import proofs.«141685_g10428180595104_week1_w2_90_17_alg».proof.Proof.Bits.Forms0
import Idealize.ShloMosaic.Lib.Pipeline.Value
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

open Cert.GraphConv

/-! ## An array after its write-backs, index by index -/

namespace Arr0

section General

variable {c : Dev nD} (rd : RDat τ (Elt F) Unit ℕ (UR sig nD τ) ℕ cfg0 c) (w : Fin cfg0.W)

/-- If what every flushing point may write back is ITS block of one whole-array contents G, an index in a flushed
    block below n reads G after the write-backs below n. -/
theorem arrAt_apply_of_mem (G : Buf (Elt F) ((cfg0.win w).arr.view.loc (c.tc : Thread nD τ)))
    (hG : ∀ (t : Fin cfg0.N) X, (cfg0.win w).flush t = true → rd.Leaves w t X →
      (cfg0.win w).cut (cfg0.grid.coords t) X = ((cfg0.win w).blk t).view.read (Elt F) G) :
    ∀ (n : Nat) (H : Buf (Elt F) ((cfg0.win w).arr.view.loc (c.tc : Thread nD τ))), rd.ArrAt w n H →
      ∀ (t : Fin cfg0.N) (i : ((cfg0.win w).arr.view.loc (c.tc : Thread nD τ)).2.ty.Idx),
        t.val < n → (cfg0.win w).flush t = true → i ∈ ((cfg0.win w).blk t).view.set → H i = G i
  | 0, _, _, _, _, ht, _, _ => absurd ht (Nat.not_lt_zero _)
  | n + 1, H, hH, t, i, ht, hf, hi => by
    by_cases hn : n < cfg0.N
    swap
    · have e : rd.ArrAt w (n + 1) = rd.ArrAt w n :=
        (rd.ArrAt_stable w (n + 1) (by omega)).trans (rd.ArrAt_stable w n (by omega)).symm
      exact arrAt_apply_of_mem G hG n H (e ▸ hH) t i (by have := t.isLt; omega) hf hi
    have hH' : (if (cfg0.win w).flush ⟨n, hn⟩ then rd.ArrStep w ⟨n, hn⟩ (rd.ArrAt w n) else rd.ArrAt w n) H :=
      Eq.mp (congrFun (rd.ArrAt_succ w ⟨n, hn⟩) H) hH
    by_cases hfn : (cfg0.win w).flush ⟨n, hn⟩ = true
    · rw [if_pos hfn] at hH'
      obtain ⟨H₀, X, hH₀, hX, rfl⟩ := hH'
      rw [hG _ X hfn hX, View.write_read_eq_piecewise]
      by_cases hin : i ∈ ((cfg0.win w).blk ⟨n, hn⟩).view.setOn Finset.univ
      · rw [Finset.piecewise_eq_of_mem _ _ _ hin]
      · rw [Finset.piecewise_eq_of_notMem _ _ _ hin]
        have htn : t.val ≠ n := fun e => hin (by rw [View.setOn_univ]; have : t = ⟨n, hn⟩ := Fin.ext e; exact this ▸ hi)
        exact arrAt_apply_of_mem G hG n H₀ hH₀ t i (by omega) hf hi
    · rw [if_neg hfn] at hH'
      have htn : t.val ≠ n := fun e => hfn (by have : t = ⟨n, hn⟩ := Fin.ext e; exact this ▸ hf)
      exact arrAt_apply_of_mem G hG n H hH' t i (by omega) hf hi

/-- When every index is in some flushing point's block, the array ends holding G. -/
theorem arrAt_eq_of_cover (G : Buf (Elt F) ((cfg0.win w).arr.view.loc (c.tc : Thread nD τ)))
    (hG : ∀ (t : Fin cfg0.N) X, (cfg0.win w).flush t = true → rd.Leaves w t X →
      (cfg0.win w).cut (cfg0.grid.coords t) X = ((cfg0.win w).blk t).view.read (Elt F) G)
    (hcover : ∀ i : ((cfg0.win w).arr.view.loc (c.tc : Thread nD τ)).2.ty.Idx,
      ∃ t : Fin cfg0.N, (cfg0.win w).flush t = true ∧ i ∈ ((cfg0.win w).blk t).view.set)
    (H : Buf (Elt F) ((cfg0.win w).arr.view.loc (c.tc : Thread nD τ))) (hH : rd.ArrAt w cfg0.N H) : H = G :=
  funext fun i => by
    obtain ⟨t, hf, hi⟩ := hcover i
    exact arrAt_apply_of_mem rd w G hG cfg0.N H hH t i t.isLt hf hi

end General

end Arr0

/-! ## The region's windows, point by point -/

variable (V : (c : Dev nD) → (b : Ref sig .tc) → Buf (Elt F) ((c : Thread nD τ).loc b))

namespace Arr0

theorem hz2 : (![0, 0] : Fin 2 → Nat) = fun _ => 0 := funext fun a => by fin_cases a <;> rfl

/-- The windows' block indices at each point: windows 0, 1, 3 and 4 move down one block of rows per point, windows 2 and 5 stay. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0 :=
  (by decide +kernel : ∀ t : Fin grid0.N, _)

/-- The point that handles row r. -/
theorem pt_lt (r : ℕ) (h : r < 4096) : r / 512 < cfg0.N := by
  have hN : cfg0.N = 8 := N_0
  omega

end Arr0

open Arr0

/-- The summed matrix as the points' blocks stacked: row r is row r % 512 of point r / 512's block. -/
def Sarr (c : Dev nD) : Vec F S4096x4096 .bf16 := fun y =>
  sBlk0 V c ⟨(y 0).val / 512, pt_lt _ (ValueIdx.idx2_lt0 y)⟩
    (ValueIdx.ix2 ⟨(y 0).val % 512, Nat.mod_lt _ (by decide)⟩ ⟨(y 1).val, ValueIdx.idx2_lt1 y⟩)

/-- The product as the points' row blocks stacked. -/
def Yarr (c : Dev nD) : Vec F S4096x64 .bf16 := fun y =>
  yBlk0 V c ⟨(y 0).val / 512, pt_lt _ (ValueIdx.idx2_lt0 y)⟩
    (ValueIdx.ix2 ⟨(y 0).val % 512, Nat.mod_lt _ (by decide)⟩ ⟨(y 1).val, ValueIdx.idx2_lt1 y⟩)

/-- The stacked matrix at row 512 t + r is point t's block at row r. -/
theorem Sarr_apply (c : Dev nD) (t : Fin cfg0.N) (x : S512x4096.Idx) (y : S4096x4096.Idx)
    (h0 : (y 0).val = 512 * t.val + (x 0).val) (h1 : (y 1).val = (x 1).val) : Sarr V c y = sBlk0 V c t x := by
  have hx0 : (x 0).val < 512 := ValueIdx.idx2_lt0 x
  unfold Sarr
  have ht : (⟨(y 0).val / 512, pt_lt _ (ValueIdx.idx2_lt0 y)⟩ : Fin cfg0.N) = t := Fin.ext (by show (y 0).val / 512 = t.val; omega)
  have hx : (ValueIdx.ix2 ⟨(y 0).val % 512, Nat.mod_lt _ (by decide)⟩ ⟨(y 1).val, ValueIdx.idx2_lt1 y⟩ : S512x4096.Idx) = x :=
    funext fun a => Fin.ext (by
      match a with
      | ⟨0, _⟩ => show (y 0).val % 512 = (x 0).val; omega
      | ⟨1, _⟩ => exact h1)
  rw [ht, hx]

theorem Yarr_apply (c : Dev nD) (t : Fin cfg0.N) (x : S512x64.Idx) (y : S4096x64.Idx)
    (h0 : (y 0).val = 512 * t.val + (x 0).val) (h1 : (y 1).val = (x 1).val) : Yarr V c y = yBlk0 V c t x := by
  have hx0 : (x 0).val < 512 := ValueIdx.idx2_lt0 x
  unfold Yarr
  have ht : (⟨(y 0).val / 512, pt_lt _ (ValueIdx.idx2_lt0 y)⟩ : Fin cfg0.N) = t := Fin.ext (by show (y 0).val / 512 = t.val; omega)
  have hx : (ValueIdx.ix2 ⟨(y 0).val % 512, Nat.mod_lt _ (by decide)⟩ ⟨(y 1).val, ValueIdx.idx2_lt1 y⟩ : S512x64.Idx) = x :=
    funext fun a => Fin.ext (by
      match a with
      | ⟨0, _⟩ => show (y 0).val % 512 = (x 0).val; omega
      | ⟨1, _⟩ => exact h1)
  rw [ht, hx]

/-! ## Output window 4: a block of rows written back at every point -/

namespace Arr0

/-- An index of the array is in point t's block iff its row is among the point's 512. -/
theorem mem_blk0_4 (t : Fin cfg0.N) (i : S4096x4096.Idx) :
    i ∈ ((cfg0.win 4).blk t).view.set ↔ 512 * t.val ≤ (i 0).val ∧ (i 0).val < 512 * t.val + 512 := by
  show i ∈ ((View.whole main_v0_0).slice (win0_4.rect t)).set ↔ _
  rw [View.set_slice_whole, Rect.mem_set_unit]
  obtain ⟨-, -, -, -, -, -, -, -, e0, e1, -, -⟩ := idx_facts0 t
  have hi1 : (i 1).val < 4096 := ValueIdx.idx2_lt1 i
  constructor
  · intro h
    have b0 : win0_4.index t (0 : Fin 2) * 512 ≤ (i 0).val ∧ (i 0).val < win0_4.index t (0 : Fin 2) * 512 + 512 := h 0
    omega
  · intro h a
    match a with
    | ⟨0, _⟩ => show win0_4.index t (0 : Fin 2) * 512 ≤ (i 0).val ∧ (i 0).val < win0_4.index t (0 : Fin 2) * 512 + 512; omega
    | ⟨1, _⟩ => show win0_4.index t (1 : Fin 2) * 4096 ≤ (i 1).val ∧ (i 1).val < win0_4.index t (1 : Fin 2) * 4096 + 4096; omega

/-- What point t may write back is block t of the stacked matrix. -/
theorem flushed0_4 (c : Dev nD) (t : Fin cfg0.N) (X : (cfg0.win 4).block.Idx → Elt F (cfg0.win 4).elt)
    (hX : (rd0 V c).Leaves 4 t X) :
    (cfg0.win 4).cut (cfg0.grid.coords t) X = ((cfg0.win 4).blk t).view.read (Elt F) (Sarr V c) := by
  obtain ⟨Y, -, hY⟩ := hX
  have hX' : X = View.canon [⟨rW0, sBlk0 V c t⟩] := hY
  rw [hX', View.canon_unit_zero hz2]
  obtain ⟨-, -, -, -, -, -, -, -, e0, e1, -, -⟩ := idx_facts0 t
  funext j
  show sBlk0 V c t j = Sarr V c (((cfg0.win 4).blk t).view.emb j)
  refine (Sarr_apply V c t j _ ?_ ?_).symm
  · show win0_4.index t (0 : Fin 2) * 512 + 1 * (j 0).val = 512 * t.val + (j 0).val; omega
  · show win0_4.index t (1 : Fin 2) * 4096 + 1 * (j 1).val = (j 1).val; omega

/-- Every row is some point's. -/
theorem rows_cover0_4 (i : S4096x4096.Idx) : ∃ t : Fin cfg0.N, (cfg0.win 4).flush t = true ∧ i ∈ ((cfg0.win 4).blk t).view.set := by
  refine ⟨⟨(i 0).val / 512, pt_lt _ (ValueIdx.idx2_lt0 i)⟩, flush0_4 _, ?_⟩
  rw [mem_blk0_4]
  show 512 * ((i 0).val / 512) ≤ (i 0).val ∧ (i 0).val < 512 * ((i 0).val / 512) + 512
  omega

end Arr0

/-- The summed matrix's array after the region: the points' blocks stacked. -/
theorem arrAt0_4 (c : Dev nD) (G : Buf (Elt F) ((cfg0.win 4).arr.view.loc (c.tc : Thread nD τ)))
    (h : (rd0 V c).ArrAt 4 cfg0.N G) : G = Sarr V c :=
  arrAt_eq_of_cover (rd0 V c) 4 (Sarr V c) (fun t X _ hX => flushed0_4 V c t X hX) rows_cover0_4 G h

/-! ## Output window 5: the whole product, carried across the points and written back once -/

namespace Arr0

/-- Window 5 is an output: never fetched. -/
theorem fetch0_5 (t : Fin cfg0.N) : (cfg0.win 5).fetch t = false := rfl

/-- What the carried buffer may hold after point n: the rows of the points up to n are theirs of the stacked product. -/
theorem leaves0_5 (c : Dev nD) : ∀ (n : ℕ) (hn : n < cfg0.N) (X : (cfg0.win 5).block.Idx → Elt F (cfg0.win 5).elt),
    (rd0 V c).Leaves 5 ⟨n, hn⟩ X → ∀ y : S4096x64.Idx, (y 0).val < 512 * (n + 1) → X y = Yarr V c y
  | n, hn, X, hX, y, hy => by
    obtain ⟨Y, hY, hXY⟩ := hX
    have hR : RowsUpd (R := 4096) (C := 64) (W := 512) (512 * n) (yBlk0 V c ⟨n, hn⟩) Y X := hXY
    have hy1 : (y 1).val < 64 := ValueIdx.idx2_lt1 y
    by_cases hlo : (y 0).val < 512 * n
    · -- a row of an earlier point: the buffer kept it
      rw [hR.2 y (Or.inl hlo)]
      match n, hn, hY, hR, hlo with
      | 0, _, _, _, hlo => exact absurd hlo (by omega)
      | m + 1, hn, hY, _, hlo =>
        have hN : cfg0.N = 8 := N_0
        rw [(rd0 V c).finds_of_pos (fetch0_5 _) (by show m + 1 ≠ 0; omega)] at hY
        have e : (⟨(⟨m + 1, hn⟩ : Fin cfg0.N).val - 1, Nat.lt_of_le_of_lt (Nat.sub_le _ _) (⟨m + 1, hn⟩ : Fin cfg0.N).isLt⟩ : Fin cfg0.N)
            = ⟨m, by omega⟩ := Fin.ext (by show m + 1 - 1 = m; omega)
        rw [e] at hY
        rcases hY with hf | hL
        · exact absurd ((flush0_5 _).mp hf) (by show ¬ m % 8 = 7; omega)
        · exact leaves0_5 c m (by omega) Y hL y (by omega)
    · -- a row of this point
      have hx0 : (y 0).val - 512 * n < 512 := by omega
      let x : S512x64.Idx := ValueIdx.ix2 ⟨(y 0).val - 512 * n, hx0⟩ ⟨(y 1).val, hy1⟩
      have h0 : (y (0 : Fin 2)).val = 512 * n + (x (0 : Fin 2)).val := by show (y 0).val = 512 * n + ((y 0).val - 512 * n); omega
      have h1 : (y (1 : Fin 2)).val = (x (1 : Fin 2)).val := rfl
      rw [hR.1 x y h0 h1]
      exact (Yarr_apply V c ⟨n, hn⟩ x y h0 h1).symm

/-- An index of the array is in window 5's one block. -/
theorem mem_blk0_5 (t : Fin cfg0.N) (i : S4096x64.Idx) : i ∈ ((cfg0.win 5).blk t).view.set := by
  show i ∈ ((View.whole main_v0_1).slice (win0_5.rect t)).set
  rw [View.set_slice_whole, Rect.mem_set_unit]
  obtain ⟨-, -, -, -, -, -, -, -, -, -, e0, e1⟩ := idx_facts0 t
  have hi0 : (i 0).val < 4096 := ValueIdx.idx2_lt0 i
  have hi1 : (i 1).val < 64 := ValueIdx.idx2_lt1 i
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 64 ≤ (i 1).val ∧ (i 1).val < win0_5.index t (1 : Fin 2) * 64 + 64; omega

/-- What the last point may write back is the stacked product. -/
theorem flushed0_5 (c : Dev nD) (t : Fin cfg0.N) (X : (cfg0.win 5).block.Idx → Elt F (cfg0.win 5).elt)
    (hf : (cfg0.win 5).flush t = true) (hX : (rd0 V c).Leaves 5 t X) :
    (cfg0.win 5).cut (cfg0.grid.coords t) X = ((cfg0.win 5).blk t).view.read (Elt F) (Yarr V c) := by
  have ht : t.val % 8 = 7 := (flush0_5 t).mp hf
  obtain ⟨-, -, -, -, -, -, -, -, -, -, e0, e1⟩ := idx_facts0 t
  funext j
  show X j = Yarr V c (((cfg0.win 5).blk t).view.emb j)
  have hemb : ((cfg0.win 5).blk t).view.emb j = j := funext fun a => Fin.ext (by
    match a with
    | ⟨0, _⟩ => show win0_5.index t (0 : Fin 2) * 4096 + 1 * (j 0).val = (j 0).val; omega
    | ⟨1, _⟩ => show win0_5.index t (1 : Fin 2) * 64 + 1 * (j 1).val = (j 1).val; omega)
  rw [hemb]
  have hj0 : (j 0).val < 4096 := ValueIdx.idx2_lt0 j
  obtain ⟨n, hn⟩ := t
  exact leaves0_5 V c n hn X hX j (by have hN : cfg0.N = 8 := N_0; show (j 0).val < 512 * (n + 1); simp only at ht; omega)

theorem rows_cover0_5 (i : S4096x64.Idx) : ∃ t : Fin cfg0.N, (cfg0.win 5).flush t = true ∧ i ∈ ((cfg0.win 5).blk t).view.set :=
  ⟨⟨7, by have hN : cfg0.N = 8 := N_0; omega⟩, (flush0_5 _).mpr rfl, mem_blk0_5 _ i⟩

end Arr0

/-- The product's array after the region: the points' row blocks stacked. -/
theorem arrAt0_5 (c : Dev nD) (G : Buf (Elt F) ((cfg0.win 5).arr.view.loc (c.tc : Thread nD τ)))
    (h : (rd0 V c).ArrAt 5 cfg0.N G) : G = Yarr V c :=
  arrAt_eq_of_cover (rd0 V c) 5 (Yarr V c) (fun t X hf hX => flushed0_5 V c t X hf hX) rows_cover0_5 G h

end Cert.Kernel.Hand

end
-- ==== Proof.Bits.Arr1.lean ====
/-
  The array the second region leaves.

  The region's 96 points are three sweeps over 32 row blocks of 128 rows.  Its one output is a single whole-array block kept
  in its staging buffer across all the points: the first two sweeps leave it as they find it, point 64 + b of the third
  replaces the rows [128 b, 128 b + 128) by that row block's rows of the result, and the one write-back after the last
  point moves the whole buffer.  So the array ends as the row blocks' results stacked.
-/
import proofs.«141685_g10428180595104_week1_w2_90_17_alg».proof.Proof.Bits.Forms1
import Idealize.ShloMosaic.Lib.Pipeline.Value
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

open Cert.GraphConv

/-! ## An array after its write-backs, index by index (any region) -/

namespace Arr1

section General

variable {cfg : Cfg sig Λ₀} {c : Dev nD} (rd : RDat τ (Elt F) Unit ℕ (UR sig nD τ) ℕ cfg c) (w : Fin cfg.W)

/-- If what every flushing point may write back is ITS block of one whole-array contents G, an index in a flushed
    block below n reads G after the write-backs below n. -/
theorem arrAt_apply_of_mem (G : Buf (Elt F) ((cfg.win w).arr.view.loc (c.tc : Thread nD τ)))
    (hG : ∀ (t : Fin cfg.N) X, (cfg.win w).flush t = true → rd.Leaves w t X →
      (cfg.win w).cut (cfg.grid.coords t) X = ((cfg.win w).blk t).view.read (Elt F) G) :
    ∀ (n : Nat) (H : Buf (Elt F) ((cfg.win w).arr.view.loc (c.tc : Thread nD τ))), rd.ArrAt w n H →
      ∀ (t : Fin cfg.N) (i : ((cfg.win w).arr.view.loc (c.tc : Thread nD τ)).2.ty.Idx),
        t.val < n → (cfg.win w).flush t = true → i ∈ ((cfg.win w).blk t).view.set → H i = G i
  | 0, _, _, _, _, ht, _, _ => absurd ht (Nat.not_lt_zero _)
  | n + 1, H, hH, t, i, ht, hf, hi => by
    by_cases hn : n < cfg.N
    swap
    · have e : rd.ArrAt w (n + 1) = rd.ArrAt w n :=
        (rd.ArrAt_stable w (n + 1) (by omega)).trans (rd.ArrAt_stable w n (by omega)).symm
      exact arrAt_apply_of_mem G hG n H (e ▸ hH) t i (by have := t.isLt; omega) hf hi
    have hH' : (if (cfg.win w).flush ⟨n, hn⟩ then rd.ArrStep w ⟨n, hn⟩ (rd.ArrAt w n) else rd.ArrAt w n) H :=
      Eq.mp (congrFun (rd.ArrAt_succ w ⟨n, hn⟩) H) hH
    by_cases hfn : (cfg.win w).flush ⟨n, hn⟩ = true
    · rw [if_pos hfn] at hH'
      obtain ⟨H₀, X, hH₀, hX, rfl⟩ := hH'
      rw [hG _ X hfn hX, View.write_read_eq_piecewise]
      by_cases hin : i ∈ ((cfg.win w).blk ⟨n, hn⟩).view.setOn Finset.univ
      · rw [Finset.piecewise_eq_of_mem _ _ _ hin]
      · rw [Finset.piecewise_eq_of_notMem _ _ _ hin]
        have htn : t.val ≠ n := fun e => hin (by rw [View.setOn_univ]; have : t = ⟨n, hn⟩ := Fin.ext e; exact this ▸ hi)
        exact arrAt_apply_of_mem G hG n H₀ hH₀ t i (by omega) hf hi
    · rw [if_neg hfn] at hH'
      have htn : t.val ≠ n := fun e => hfn (by have : t = ⟨n, hn⟩ := Fin.ext e; exact this ▸ hf)
      exact arrAt_apply_of_mem G hG n H hH' t i (by omega) hf hi

/-- When every index is in some flushing point's block, the array ends holding G. -/
theorem arrAt_eq_of_cover (G : Buf (Elt F) ((cfg.win w).arr.view.loc (c.tc : Thread nD τ)))
    (hG : ∀ (t : Fin cfg.N) X, (cfg.win w).flush t = true → rd.Leaves w t X →
      (cfg.win w).cut (cfg.grid.coords t) X = ((cfg.win w).blk t).view.read (Elt F) G)
    (hcover : ∀ i : ((cfg.win w).arr.view.loc (c.tc : Thread nD τ)).2.ty.Idx,
      ∃ t : Fin cfg.N, (cfg.win w).flush t = true ∧ i ∈ ((cfg.win w).blk t).view.set)
    (H : Buf (Elt F) ((cfg.win w).arr.view.loc (c.tc : Thread nD τ))) (hH : rd.ArrAt w cfg.N H) : H = G :=
  funext fun i => by
    obtain ⟨t, hf, hi⟩ := hcover i
    exact arrAt_apply_of_mem rd w G hG cfg.N H hH t i t.isLt hf hi

end General

end Arr1

/-! ## The result stacked, at a row of a row block -/

variable (V : (c : Dev nD) → (b : Ref sig .tc) → Buf (Elt F) ((c : Thread nD τ).loc b))

/-- The stacked result at row 128 b + r is row block b's result at row r. -/
theorem OUT_apply (c : Dev nD) (b : Fin 32) (x : S128x64.Idx) (y : S4096x64.Idx)
    (h0 : (y 0).val = 128 * b.val + (x 0).val) (h1 : (y 1).val = (x 1).val) : OUT V c y = outBlk V c b x := by
  have hx0 : (x 0).val < 128 := ValueIdx.idx2_lt0 x
  unfold OUT
  have hb : rowBlk y = b := Fin.ext (by show (y 0).val / 128 = b.val; omega)
  have hx : (ValueIdx.ix2 (n0 := 128) (n1 := 64) (rowIn y) (y 1) : S128x64.Idx) = x :=
    funext fun a => Fin.ext (by
      match a with
      | ⟨0, _⟩ => show (y 0).val % 128 = (x 0).val; omega
      | ⟨1, _⟩ => exact h1)
  rw [hb, hx]

/-! ## Output window 6: the whole result, carried across the points and written back once -/

namespace Arr1

/-- Window 6's block index: the one whole-array block at every point. -/
theorem idx_facts1_6 : ∀ t : Fin cfg1.N, win1_6.index t (0 : Fin 2) = 0 ∧ win1_6.index t (1 : Fin 2) = 0 :=
  (by decide +kernel : ∀ t : Fin grid1.N, _)

/-- Window 6 is an output: never fetched. -/
theorem fetch1_6 (t : Fin cfg1.N) : (cfg1.win 6).fetch t = false := rfl

/-- What the carried buffer may hold after point n: the rows of the third sweep's row blocks up to n - 64 are theirs of the
    stacked result. -/
theorem leaves1_6 (c : Dev nD) : ∀ (n : ℕ) (hn : n < cfg1.N) (X : (cfg1.win 6).block.Idx → Elt F (cfg1.win 6).elt),
    (rd1 V c).Leaves 6 ⟨n, hn⟩ X → ∀ y : S4096x64.Idx, (y 0).val + 8192 < 128 * (n + 1) → X y = OUT V c y
  | n, hn, X, hX, y, hy => by
    have hN : cfg1.N = 96 := N_1
    obtain ⟨Y, hY, hXY⟩ := hX
    have hXY' : if h : n < 64 then X = Y
        else RowsUpd (R := 4096) (C := 64) (W := 128) (128 * (n - 64)) (outBlk V c ⟨n - 64, by omega⟩) Y X := hXY
    have hn64 : ¬ n < 64 := by omega
    rw [dif_neg hn64] at hXY'
    have hy1 : (y 1).val < 64 := ValueIdx.idx2_lt1 y
    by_cases hlo : (y 0).val < 128 * (n - 64)
    · -- a row of an earlier row block: the buffer kept it
      rw [hXY'.2 y (Or.inl hlo)]
      match n, hn, hY, hlo, hy with
      | 0, _, _, hlo, _ => exact absurd hlo (by omega)
      | m + 1, hn, hY, hlo, hy =>
        rw [(rd1 V c).finds_of_pos (fetch1_6 _) (by show m + 1 ≠ 0; omega)] at hY
        have e : (⟨(⟨m + 1, hn⟩ : Fin cfg1.N).val - 1, Nat.lt_of_le_of_lt (Nat.sub_le _ _) (⟨m + 1, hn⟩ : Fin cfg1.N).isLt⟩ : Fin cfg1.N)
            = ⟨m, by omega⟩ := Fin.ext (by show m + 1 - 1 = m; omega)
        rw [e] at hY
        rcases hY with hf | hL
        · exact absurd ((flush1_6 _).mp hf) (by show ¬ m % 96 = 95; omega)
        · exact leaves1_6 c m (by omega) Y hL y (by omega)
    · -- a row of this row block
      have hx0 : (y 0).val - 128 * (n - 64) < 128 := by omega
      let x : S128x64.Idx := ValueIdx.ix2 ⟨(y 0).val - 128 * (n - 64), hx0⟩ ⟨(y 1).val, hy1⟩
      have h0 : (y (0 : Fin 2)).val = 128 * (n - 64) + (x (0 : Fin 2)).val := by
        show (y 0).val = 128 * (n - 64) + ((y 0).val - 128 * (n - 64)); omega
      have h1 : (y (1 : Fin 2)).val = (x (1 : Fin 2)).val := rfl
      rw [hXY'.1 x y h0 h1]
      exact (OUT_apply V c ⟨n - 64, by omega⟩ x y h0 h1).symm

/-- Every index of the array is in window 6's one block. -/
theorem mem_blk1_6 (t : Fin cfg1.N) (i : S4096x64.Idx) : i ∈ ((cfg1.win 6).blk t).view.set := by
  show i ∈ ((View.whole main_v1).slice (win1_6.rect t)).set
  rw [View.set_slice_whole, Rect.mem_set_unit]
  obtain ⟨e0, e1⟩ := idx_facts1_6 t
  have hi0 : (i 0).val < 4096 := ValueIdx.idx2_lt0 i
  have hi1 : (i 1).val < 64 := ValueIdx.idx2_lt1 i
  intro a
  match a with
  | ⟨0, _⟩ => show win1_6.index t (0 : Fin 2) * 4096 ≤ (i 0).val ∧ (i 0).val < win1_6.index t (0 : Fin 2) * 4096 + 4096; omega
  | ⟨1, _⟩ => show win1_6.index t (1 : Fin 2) * 64 ≤ (i 1).val ∧ (i 1).val < win1_6.index t (1 : Fin 2) * 64 + 64; omega

/-- What the last point may write back is the stacked result. -/
theorem flushed1_6 (c : Dev nD) (t : Fin cfg1.N) (X : (cfg1.win 6).block.Idx → Elt F (cfg1.win 6).elt)
    (hf : (cfg1.win 6).flush t = true) (hX : (rd1 V c).Leaves 6 t X) :
    (cfg1.win 6).cut (cfg1.grid.coords t) X = ((cfg1.win 6).blk t).view.read (Elt F) (OUT V c) := by
  have ht : t.val % 96 = 95 := (flush1_6 t).mp hf
  obtain ⟨e0, e1⟩ := idx_facts1_6 t
  funext j
  show X j = OUT V c (((cfg1.win 6).blk t).view.emb j)
  have hemb : ((cfg1.win 6).blk t).view.emb j = j := funext fun a => Fin.ext (by
    match a with
    | ⟨0, _⟩ => show win1_6.index t (0 : Fin 2) * 4096 + 1 * (j 0).val = (j 0).val; omega
    | ⟨1, _⟩ => show win1_6.index t (1 : Fin 2) * 64 + 1 * (j 1).val = (j 1).val; omega)
  rw [hemb]
  have hj0 : (j 0).val < 4096 := ValueIdx.idx2_lt0 j
  obtain ⟨n, hn⟩ := t
  exact leaves1_6 V c n hn X hX j (by have hN : cfg1.N = 96 := N_1; show (j 0).val + 8192 < 128 * (n + 1); simp only at ht; omega)

theorem rows_cover1_6 (i : S4096x64.Idx) : ∃ t : Fin cfg1.N, (cfg1.win 6).flush t = true ∧ i ∈ ((cfg1.win 6).blk t).view.set :=
  ⟨⟨95, by have hN : cfg1.N = 96 := N_1; omega⟩, (flush1_6 _).mpr rfl, mem_blk1_6 _ i⟩

end Arr1

open Arr1

/-- The result's array after the region: the row blocks' results stacked. -/
theorem arrAt1_6 (c : Dev nD) (G : Buf (Elt F) ((cfg1.win 6).arr.view.loc (c.tc : Thread nD τ)))
    (h : (rd1 V c).ArrAt 6 cfg1.N G) : G = OUT V c :=
  arrAt_eq_of_cover (rd1 V c) 6 (OUT V c) (fun t X hf hX => flushed1_6 V c t X hf hX) rows_cover1_6 G h

end Cert.Kernel.Hand

end
-- ==== Proof.Bits.Launch.lean ====
import proofs.«141685_g10428180595104_week1_w2_90_17_alg».proof.Proof.Gen.Kernel.Launch
import proofs.«141685_g10428180595104_week1_w2_90_17_alg».proof.Proof.Gen.Kernel.Skeleton
import proofs.«141685_g10428180595104_week1_w2_90_17_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«141685_g10428180595104_week1_w2_90_17_alg».proof.Proof.Bits.Oblig0
import proofs.«141685_g10428180595104_week1_w2_90_17_alg».proof.Proof.Bits.Oblig1
import proofs.«141685_g10428180595104_week1_w2_90_17_alg».proof.Proof.Bits.Phi1
import proofs.«141685_g10428180595104_week1_w2_90_17_alg».proof.Proof.Bits.Shares0
import proofs.«141685_g10428180595104_week1_w2_90_17_alg».proof.Proof.Bits.Shares1
import proofs.«141685_g10428180595104_week1_w2_90_17_alg».proof.Proof.Bits.Arr0
import proofs.«141685_g10428180595104_week1_w2_90_17_alg».proof.Proof.Bits.Arr1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Cert.GraphConv

/-! # The run of the whole program: two kernel regions in a row

The buffers' contents at the three boundaries — at launch, between the regions (the summed matrix and the first product in the
first region's two outputs), at the end (the result in the second region's output) —, each region as a segment entered from the
contents before it and left at the contents after it, and the run: every weakly fair execution terminates, and every unscoped
buffer ends at the last boundary's contents. -/

variable (m : (ℓ : Loc nD τ sig) → Buf (Elt F) ℓ) (ρ : Dev nD → PrngReg)

/-- Core `c`'s buffers at launch. -/
abbrev W0 : Dev nD → Valuation τ sig (Elt F) := fun c b => m (c, b)
/-- The same read at the TensorCore's references: what the first region finds. -/
abbrev V1 : (c : Dev nD) → (b : Ref sig .tc) → Buf (Elt F) ((c : Thread nD τ).loc b) := fun c b => W0 m c b
/-- Between the regions: the first region's two outputs hold the summed matrix and the first product. -/
def W2 (c : Dev nD) : Valuation τ sig (Elt F) :=
  Function.update (Function.update (W0 m c) main_v0_0 (Sarr (V1 m) c)) main_v0_1 (Yarr (V1 m) c)
/-- The same read at the TensorCore's references: what the second region finds. -/
abbrev V3 : (c : Dev nD) → (b : Ref sig .tc) → Buf (Elt F) ((c : Thread nD τ).loc b) := fun c b => W2 m c b
/-- At the end: the second region's output holds the result. -/
def W4 (c : Dev nD) : Valuation τ sig (Elt F) := Function.update (W2 m c) main_v1 (OUT (V3 m) c)
abbrev V5 : (c : Dev nD) → (b : Ref sig .tc) → Buf (Elt F) ((c : Thread nD τ).loc b) := fun c b => W4 m c b

theorem W2_v0_1 (c : Dev nD) : W2 m c main_v0_1 = Yarr (V1 m) c := by
  unfold W2; exact Function.update_self _ _ _
theorem W2_v0_0 (c : Dev nD) : W2 m c main_v0_0 = Sarr (V1 m) c := by
  unfold W2
  rw [Function.update_of_ne (StableHlo.devRef_ne_of_ne (by decide) : (Proc.devRef .tc main_v0_0 : DevRef τ sig) ≠ Proc.devRef .tc main_v0_1)]
  exact Function.update_self _ _ _
theorem W2_of_ne (c : Dev nD) (b : Ref sig .tc) (h0 : b ≠ main_v0_0) (h1 : b ≠ main_v0_1) : W2 m c b = W0 m c b := by
  unfold W2
  rw [Function.update_of_ne (StableHlo.devRef_ne_of_ne h1 : (Proc.devRef .tc b : DevRef τ sig) ≠ Proc.devRef .tc main_v0_1),
    Function.update_of_ne (StableHlo.devRef_ne_of_ne h0 : (Proc.devRef .tc b : DevRef τ sig) ≠ Proc.devRef .tc main_v0_0)]
theorem W4_v1 (c : Dev nD) : W4 m c main_v1 = OUT (V3 m) c := by
  unfold W4; exact Function.update_self _ _ _
theorem W4_of_ne (c : Dev nD) (b : Ref sig .tc) (h : b ≠ main_v1) : W4 m c b = W2 m c b := by
  unfold W4
  rw [Function.update_of_ne (StableHlo.devRef_ne_of_ne h : (Proc.devRef .tc b : DevRef τ sig) ≠ Proc.devRef .tc main_v1)]

/-- An argument array ends as launched: no region writes it. -/
theorem W4_arg (c : Dev nD) (b : Ref sig .tc) (h1 : b ≠ main_v1) (h2 : b ≠ main_v0_0) (h3 : b ≠ main_v0_1) :
    W4 m c b = m ((c : Thread nD τ).loc b) :=
  (W4_of_ne m c b h1).trans ((W2_of_ne m c b h2 h3).trans rfl)

/-! ## The proof data family and the thread state -/

abbrev adm : (p : Fin 2) → (pcfgs (F := F) p).Adm := fun p => (cfgs p).toPCfg_adm
/-- Every pipeline's proof data, each at its region's entry contents. -/
def rdats : (p : Fin 2) → (c : Dev nD) → RDat τ (Elt F) Unit ℕ (UR sig nD τ) ℕ (Pipeline.pin (pcfgs (F := F)) adm p) c
  | ⟨0, _⟩ => fun c => rd0 (V1 m) c
  | ⟨1, _⟩ => fun c => rd1 (V3 m) c
abbrev 𝒱₀ : Variants := Variants.none
abbrev L : GSem nD τ sig → Finset Unit := fun _ => ∅
abbrev lv : GSem nD τ sig → Unit → ℕ := fun _ _ => 0
/-- What rides beside the buffers: the core's generator register at some state, and the core owing nothing. -/
abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W4 m c) ∗ ∃ r, prngReg c r)

/-- The buffers no window of the first region stages keep their contents across it. -/
theorem rest0_eq (c : Dev nD) :
    (Pipeline.unscopedRest (Ix := Unit) (Name := ℕ) (U := UR sig nD τ) (Lvl := ℕ) spec0 c (V1 m c) : sProp 𝕄)
      = Pipeline.unscopedRest spec0 c (V3 m c) := by
  unfold Pipeline.unscopedRest
  refine bigSep_congr fun b hb => ?_
  have hb' := (Finset.mem_sdiff.mp hb).2
  have e : V3 m c b = V1 m c b := W2_of_ne m c b (fun e => hb' (e ▸ Finset.mem_image.mpr ⟨4, Finset.mem_univ _, rfl⟩))
    (fun e => hb' (e ▸ Finset.mem_image.mpr ⟨5, Finset.mem_univ _, rfl⟩))
  rw [e]
/-- The buffers no window of the second region stages keep their contents across it. -/
theorem rest1_eq (c : Dev nD) :
    (Pipeline.unscopedRest (Ix := Unit) (Name := ℕ) (U := UR sig nD τ) (Lvl := ℕ) spec1 c (V3 m c) : sProp 𝕄)
      = Pipeline.unscopedRest spec1 c (V5 m c) := by
  unfold Pipeline.unscopedRest
  refine bigSep_congr fun b hb => ?_
  have hb' := (Finset.mem_sdiff.mp hb).2
  have e : V5 m c b = V3 m c b := W4_of_ne m c b (fun e => hb' (e ▸ Finset.mem_image.mpr ⟨6, Finset.mem_univ _, rfl⟩))
  rw [e]

/-! ## The regions as segments -/

set_option backward.isDefEq.respectTransparency.types false in
/-- The first region: entered from the launch contents, left at the contents between the regions. -/
def reg0 : Pipeline.RDat.RegionSeg (pcfgs (F := F)) adm (rdats m) () defs₀ 𝒱₀ L lv 0 where
  win := winFacts₀0
  block_pos := block_pos0
  stage_whole := stage_whole0
  K := PEmpty
  osem k := k.elim
  ho := Pipeline.OwnSemFacts.none _
  hbody c := body_obligation0 (V1 m) c
  hwaits := Pipeline.RDat.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (StableHlo.held (c : Thread nD τ) (Pipeline.ucRefs τ sig) (W0 m c) : sProp 𝕄)
        ⊢ iprop((rd0 (V1 m) c).arrays (rd0 (V1 m) c).A ∗ Pipeline.unscopedRest spec0 c (V1 m c)) := by
      rw [← Pipeline.unscopedBufs_held (Ix := Unit) (Name := ℕ) (U := UR sig nD τ) (Lvl := ℕ) c (W0 m c),
        Pipeline.unscopedBufs_split₀ cfgs 0 winFacts₀0.arr_unscoped c]
      exact sep_mono (arr0_split (V1 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop(((rd0 (V1 m) c).arraysAt cfg0.N : sProp 𝕄) ∗ Pipeline.unscopedRest spec0 c (V1 m c))
        ⊢ StableHlo.held (c : Thread nD τ) (Pipeline.ucRefs τ sig) (W2 m c) := by
      rw [← Pipeline.unscopedBufs_held (Ix := Unit) (Name := ℕ) (U := UR sig nD τ) (Lvl := ℕ) c (W2 m c),
        Pipeline.unscopedBufs_split₀ cfgs 0 winFacts₀0.arr_unscoped c, rest0_eq m c]
      exact sep_mono (arr0_exit (V1 m) c (V3 m c) (W2_of_ne m c main_arg1 (by decide) (by decide)) (W2_of_ne m c main_arg2 (by decide) (by decide))
        (W2_of_ne m c main_arg0 (by decide) (by decide))
        (fun G hG => (arrAt0_4 (V1 m) c G hG).trans (W2_v0_0 m c).symm) (fun G hG => (arrAt0_5 (V1 m) c G hG).trans (W2_v0_1 m c).symm)) .rfl
    iintro ⟨Ha, HO, HY, Hrest⟩
    imodintro
    isplitl [Ha Hrest]
    · iapply hjoin
      isplitl [Ha]; · iexact Ha
      iexact Hrest
    isplitl [HY]; · iexact HY
    unfold Pipeline.RDat.owesAt Pipeline.owesWithin
    icases HO with ⟨%W, -, HO⟩; iexists W; iexact HO

set_option backward.isDefEq.respectTransparency.types false in
/-- The second region: entered from the contents between the regions, left at the final contents. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m) c
  hwaits := Pipeline.RDat.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (StableHlo.held (c : Thread nD τ) (Pipeline.ucRefs τ sig) (W2 m c) : sProp 𝕄)
        ⊢ iprop((rdats m 1 c).arrays (rdats m 1 c).A ∗ Pipeline.unscopedRest spec1 c (V3 m c)) := by
      rw [← Pipeline.unscopedBufs_held (Ix := Unit) (Name := ℕ) (U := UR sig nD τ) (Lvl := ℕ) c (W2 m c)]
      exact Pipeline.RDat.arrays_of_unscopedBufs (p := 1) (pcfgs (F := F)) adm (rdats m) launch1.win launch1.arr_whole c
        ((rdats m 1 c).share_full fun _ => rfl) (V3 m c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = (rd1 (V3 m) c).Φ 0 from rfl]
    refine BIBase.Entails.trans ?_ (hin1 (V3 m) c)
    unfold Pipeline.ΦA
    iintro ⟨Hp, -, Hr⟩
    isplitl [Hr]; · iexact Hr
    iexact Hp
  hout c := by
    rw [Pipeline.ownSems0_none, show (rdats m 1 c).Φ (Fin.last _) = (rd1 (V3 m) c).Φ (Fin.last _) from rfl]
    refine BIBase.Entails.trans (hout1 (V3 m) c) ?_
    unfold Pipeline.ΦA
    iintro ⟨Hr, Hp⟩
    isplitl [Hp]; · iexact Hp
    isplitr; · iempintro
    iexact Hr
  hexit c := by
    have hjoin : iprop(((rd1 (V3 m) c).arraysAt cfg1.N : sProp 𝕄) ∗ Pipeline.unscopedRest spec1 c (V3 m c))
        ⊢ StableHlo.held (c : Thread nD τ) (Pipeline.ucRefs τ sig) (W4 m c) := by
      rw [← Pipeline.unscopedBufs_held (Ix := Unit) (Name := ℕ) (U := UR sig nD τ) (Lvl := ℕ) c (W4 m c),
        Pipeline.unscopedBufs_split₀ cfgs 1 launch1.win.arr_unscoped c, rest1_eq m c]
      exact sep_mono (arr1_exit (V3 m) c (V5 m c) (W4_of_ne m c main_arg3 (by decide)) (W4_of_ne m c main_arg4 (by decide))
        (W4_of_ne m c main_arg5 (by decide)) (W4_of_ne m c main_v0_0 (by decide)) (W4_of_ne m c main_v0_1 (by decide)) (W4_of_ne m c main_arg0 (by decide))
        (fun G hG => (arrAt1_6 (V3 m) c G hG).trans (W4_v1 m c).symm)) .rfl
    iintro ⟨Ha, HO, HY, Hrest⟩
    imodintro
    isplitl [Ha Hrest HY]
    · isplitl [Ha Hrest]
      · iapply hjoin
        isplitl [Ha]; · iexact Ha
        iexact Hrest
      iexact HY
    unfold Pipeline.RDat.owesAt Pipeline.owesWithin
    icases HO with ⟨%W, -, HO⟩; iexists W; iexact HO

/-! ## The program as segments, and the launch -/

abbrev segs : List (Pipeline.RDat.Seg (pcfgs (F := F)) adm (rdats m) () defs₀ 𝒱₀ L lv) :=
  [ .region (reg0 m), .region (reg1 m) ]

theorem main_run (c : Dev nD) : main (F := F) c = Pipeline.RDat.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution terminates, nothing faulting, and every unscoped
    buffer of every core ends at the final contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.RDat.θ_run_regions_kit (pcfgs (F := F)) adm (rdats m) () cellOf_inj emb₁ defs₀ 𝒱₀ L lv m ρ main (segs m)
    (fun c Q => by rw [main_run m c])
    (by simp only [segs, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.Spec.lean ====
/-
  The two-step graph propagation as one function of the six argument arrays, index by index, over the
  extended reals, in the order of operations the kernel performs them.

  With S = 1·A_beta + 1·A_gamma and q = α / (1·D_beta + 1·D_gamma + I) (entrywise; α the f32 nearest 1/3, the
  quotient the ideal division), one step sends Y to  c·Y + q · (S · Y + X)  (c the f32 nearest 2/3, the products
  of matrices plain sums over the contracted index). The result is two steps from Y = X.
-/
import Idealize.ShloMosaic.PureOps.Ideal
import Idealize.ShloMosaic.Lib.ValueIdx

noncomputable section

namespace Cert.GraphConv.Spec

open Idealize.ShloMosaic Idealize.ShloMosaic.ValueIdx

/-- A matrix of extended reals, indexed as the printed programs index a rank-2 array. -/
abbrev Mat (R C : ℕ) : Type := (⟨2, ![R, C]⟩ : Shape).Idx → EReal

/-- The f32 word of 1.0, of the step size α (the f32 nearest 1/3) and of 1 − α (the f32 nearest 2/3). -/
abbrev one : EReal := Ideal.ofBits .f32 0x3F800000#32
abbrev alpha : EReal := Ideal.ofBits .f32 0x3EAAAAAB#32
abbrev c23 : EReal := Ideal.ofBits .f32 0x3F2AAAAB#32

/-- The summed adjacency, entry (r, k). -/
def S (Ab Ag : Mat 4096 4096) (r k : Fin 4096) : EReal := one * Ab (ix2 r k) + one * Ag (ix2 r k)

/-- The entrywise quotient α / (D_beta + D_gamma + I), entry (r, k). -/
def qs (Db Dg Im : Mat 4096 4096) (r k : Fin 4096) : EReal :=
  Ideal.div alpha (one * Db (ix2 r k) + one * Dg (ix2 r k) + Im (ix2 r k))

/-- S · X + X. -/
def yhat1 (X : Mat 4096 64) (Ab Ag : Mat 4096 4096) (r : Fin 4096) (c : Fin 64) : EReal :=
  (∑ k : Fin 4096, S Ab Ag r k * X (ix2 k c)) + X (ix2 r c)

/-- The first step: c·X + q · (S · X + X). -/
def y1 (X : Mat 4096 64) (Ab Ag Db Dg Im : Mat 4096 4096) (r : Fin 4096) (c : Fin 64) : EReal :=
  c23 * X (ix2 r c) + ∑ k : Fin 4096, qs Db Dg Im r k * yhat1 X Ab Ag k c

/-- S · Y1 + X. -/
def yhat2 (X : Mat 4096 64) (Ab Ag Db Dg Im : Mat 4096 4096) (r : Fin 4096) (c : Fin 64) : EReal :=
  (∑ k : Fin 4096, S Ab Ag r k * y1 X Ab Ag Db Dg Im k c) + X (ix2 r c)

/-- The second step, the result: c·Y1 + q · (S · Y1 + X). -/
def out (X : Mat 4096 64) (Ab Ag Db Dg Im : Mat 4096 4096) (r : Fin 4096) (c : Fin 64) : EReal :=
  c23 * y1 X Ab Ag Db Dg Im r c + ∑ k : Fin 4096, qs Db Dg Im r k * yhat2 X Ab Ag Db Dg Im k c

end Cert.GraphConv.Spec

end
-- ==== Proof.RefRead.lean ====
/-
  The reference's arrays, read at an entry.

  The reference is a straight-line host program. It forms Q = 1·D_beta + 1·D_gamma + I and q = α · Q^(-1) entrywise, and
  twice sends Y to c·Y + q · (((1·A_beta) · Y + X) + (1·A_gamma) · Y), starting from Y = X; every product of matrices is
  the plain sum over the contracted index of left[r,k] * right[k,c]. Here each of its arrays that the result depends
  on is read at the entry (r, c): the entrywise stages by unfolding, the products by the generated sums, whose
  operand indices are (r, k) on the left and (k, c) on the right.
-/
import proofs.«141685_g10428180595104_week1_w2_90_17_alg».proof.Proof.Gen.ReferenceIdeal.Run
import proofs.«141685_g10428180595104_week1_w2_90_17_alg».proof.Proof.Gen.ReferenceIdeal.Read
import proofs.«141685_g10428180595104_week1_w2_90_17_alg».proof.Proof.Spec

noncomputable section

namespace Cert.GraphConv.RefValue

open Cert.ReferenceIdeal Cert.ReferenceIdeal.Read Idealize.ShloMosaic Idealize.ShloMosaic.ValueIdx Cert.GraphConv.Spec

variable [Cert.ReferenceIdeal.Facts]

/-! ## The operand indices of the six products -/

theorem lidx8 (i : S4096x64.Idx) (k : Fin 4096) : lidx_main_v8 i k = ix2 (i 0) k :=
  funext fun a => Fin.ext (by match a with | ⟨0, _⟩ => rfl | ⟨1, _⟩ => rfl)
theorem ridx8 (i : S4096x64.Idx) (k : Fin 4096) : ridx_main_v8 i k = ix2 k (i 1) :=
  funext fun a => Fin.ext (by match a with | ⟨0, _⟩ => rfl | ⟨1, _⟩ => rfl)
theorem lidx12 (i : S4096x64.Idx) (k : Fin 4096) : lidx_main_v12 i k = ix2 (i 0) k :=
  funext fun a => Fin.ext (by match a with | ⟨0, _⟩ => rfl | ⟨1, _⟩ => rfl)
theorem ridx12 (i : S4096x64.Idx) (k : Fin 4096) : ridx_main_v12 i k = ix2 k (i 1) :=
  funext fun a => Fin.ext (by match a with | ⟨0, _⟩ => rfl | ⟨1, _⟩ => rfl)
theorem lidx20 (i : S4096x64.Idx) (k : Fin 4096) : lidx_main_v20 i k = ix2 (i 0) k :=
  funext fun a => Fin.ext (by match a with | ⟨0, _⟩ => rfl | ⟨1, _⟩ => rfl)
theorem ridx20 (i : S4096x64.Idx) (k : Fin 4096) : ridx_main_v20 i k = ix2 k (i 1) :=
  funext fun a => Fin.ext (by match a with | ⟨0, _⟩ => rfl | ⟨1, _⟩ => rfl)
theorem lidx24 (i : S4096x64.Idx) (k : Fin 4096) : lidx_main_v24 i k = ix2 (i 0) k :=
  funext fun a => Fin.ext (by match a with | ⟨0, _⟩ => rfl | ⟨1, _⟩ => rfl)
theorem ridx24 (i : S4096x64.Idx) (k : Fin 4096) : ridx_main_v24 i k = ix2 k (i 1) :=
  funext fun a => Fin.ext (by match a with | ⟨0, _⟩ => rfl | ⟨1, _⟩ => rfl)
theorem lidx28 (i : S4096x64.Idx) (k : Fin 4096) : lidx_main_v28 i k = ix2 (i 0) k :=
  funext fun a => Fin.ext (by match a with | ⟨0, _⟩ => rfl | ⟨1, _⟩ => rfl)
theorem ridx28 (i : S4096x64.Idx) (k : Fin 4096) : ridx_main_v28 i k = ix2 k (i 1) :=
  funext fun a => Fin.ext (by match a with | ⟨0, _⟩ => rfl | ⟨1, _⟩ => rfl)
theorem lidx36 (i : S4096x64.Idx) (k : Fin 4096) : lidx_main_v36 i k = ix2 (i 0) k :=
  funext fun a => Fin.ext (by match a with | ⟨0, _⟩ => rfl | ⟨1, _⟩ => rfl)
theorem ridx36 (i : S4096x64.Idx) (k : Fin 4096) : ridx_main_v36 i k = ix2 k (i 1) :=
  funext fun a => Fin.ext (by match a with | ⟨0, _⟩ => rfl | ⟨1, _⟩ => rfl)

/-! ## The entrywise stages -/

/-- The divisor Q = 1·D_beta + 1·D_gamma + I. -/
theorem v5_apply (Db Dg Im : Mat 4096 4096) (j : S4096x4096.Idx) :
    val_main_v5 (F := Ideal) Db Dg Im j = one * Db j + one * Dg j + Im j := rfl

/-- The first step's q = α · Q^(-1). -/
theorem v19_apply (Db Dg Im : Mat 4096 4096) (j : S4096x4096.Idx) :
    val_main_v19 (F := Ideal) Db Dg Im j
      = alpha * Ideal.pow (one * Db j + one * Dg j + Im j) (Ideal.ofBits .f32 0xBF800000#32) := rfl

/-- The second step's q: the same array, computed again. -/
theorem v35_apply (Db Dg Im : Mat 4096 4096) (j : S4096x4096.Idx) :
    val_main_v35 (F := Ideal) Db Dg Im j
      = alpha * Ideal.pow (one * Db j + one * Dg j + Im j) (Ideal.ofBits .f32 0xBF800000#32) := rfl

/-! ## The stages that hold a product of matrices -/

/-- ((1·A_beta) · X + X) + (1·A_gamma) · X. -/
theorem v13_apply (X : Mat 4096 64) (Ab Ag : Mat 4096 4096) (r : Fin 4096) (c : Fin 64) :
    val_main_v13 (F := Ideal) X Ab Ag (ix2 r c)
      = ((∑ k : Fin 4096, (one * Ab (ix2 r k)) * X (ix2 k c)) + X (ix2 r c))
        + ∑ k : Fin 4096, (one * Ag (ix2 r k)) * X (ix2 k c) := by
  rw [val_main_v13_apply, val_main_v9_apply, val_main_v8_apply, val_main_v12_apply]
  simp only [lidx8, ridx8, lidx12, ridx12]
  rfl

/-- The first step's result: c·X + q · (the array above). -/
theorem v21_apply (X : Mat 4096 64) (Ab Ag Db Dg Im : Mat 4096 4096) (r : Fin 4096) (c : Fin 64) :
    val_main_v21 (F := Ideal) X Ab Ag Db Dg Im (ix2 r c)
      = c23 * X (ix2 r c)
        + ∑ k : Fin 4096, val_main_v19 (F := Ideal) Db Dg Im (ix2 r k) * val_main_v13 (F := Ideal) X Ab Ag (ix2 k c) := by
  rw [val_main_v21_apply, val_main_v20_apply]
  simp only [lidx20, ridx20]
  rfl

/-- ((1·A_beta) · Y + X) + (1·A_gamma) · Y at the first step's result Y. -/
theorem v29_apply (X : Mat 4096 64) (Ab Ag Db Dg Im : Mat 4096 4096) (r : Fin 4096) (c : Fin 64) :
    val_main_v29 (F := Ideal) X Ab Ag Db Dg Im (ix2 r c)
      = ((∑ k : Fin 4096, (one * Ab (ix2 r k)) * val_main_v21 (F := Ideal) X Ab Ag Db Dg Im (ix2 k c)) + X (ix2 r c))
        + ∑ k : Fin 4096, (one * Ag (ix2 r k)) * val_main_v21 (F := Ideal) X Ab Ag Db Dg Im (ix2 k c) := by
  rw [val_main_v29_apply, val_main_v25_apply, val_main_v24_apply, val_main_v28_apply]
  simp only [lidx24, ridx24, lidx28, ridx28]
  rfl

/-- The second step's result, the reference's value: c·Y + q · (the array above). -/
theorem v37_apply (X : Mat 4096 64) (Ab Ag Db Dg Im : Mat 4096 4096) (r : Fin 4096) (c : Fin 64) :
    val_main_v37 (F := Ideal) X Ab Ag Db Dg Im (ix2 r c)
      = c23 * val_main_v21 (F := Ideal) X Ab Ag Db Dg Im (ix2 r c)
        + ∑ k : Fin 4096, val_main_v35 (F := Ideal) Db Dg Im (ix2 r k) * val_main_v29 (F := Ideal) X Ab Ag Db Dg Im (ix2 k c) := by
  rw [val_main_v37_apply, val_main_v36_apply]
  simp only [lidx36, ridx36]
  rfl

end Cert.GraphConv.RefValue

end
-- ==== Proof.RealFacts.lean ====
/-
  Real entries among the extended reals.

  An extended real is real when it is the image of a real number. Sums, products and finite sums of reals are
  real, and on reals the product distributes over the sum (on the extended reals at large it does not: a sum of
  the two infinities is junk). The quotient of a real by a real that is not zero is real. The f32 words this
  computation uses are reals: 1, -1, the f32 nearest 1/3 and the f32 nearest 2/3. For a real q that is not zero,
  q to the power -1 is the inverse of q, so a * q^(-1) is the quotient a / q, for every extended real a.
-/
import Idealize.ShloMosaic.PureOps.Ideal
import Idealize.ShloMosaic.Lib.IdealHost

noncomputable section

namespace Cert.GraphConv

open Idealize.ShloMosaic

/-- The extended real `x` is the image of a real number. -/
def IsReal (x : EReal) : Prop := ∃ r : ℝ, x = (r : EReal)

namespace IsReal

theorem coe (r : ℝ) : IsReal (r : EReal) := ⟨r, rfl⟩

theorem add {x y : EReal} (hx : IsReal x) (hy : IsReal y) : IsReal (x + y) := by
  obtain ⟨a, rfl⟩ := hx
  obtain ⟨b, rfl⟩ := hy
  exact ⟨a + b, (EReal.coe_add a b).symm⟩

theorem mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is real. -/
theorem sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- On reals the product distributes over the sum. -/
theorem add_mul {x y z : EReal} (hx : IsReal x) (hy : IsReal y) (hz : IsReal z) : (x + y) * z = x * z + y * z := by
  obtain ⟨a, rfl⟩ := hx
  obtain ⟨b, rfl⟩ := hy
  obtain ⟨c, rfl⟩ := hz
  rw [← EReal.coe_add, ← EReal.coe_mul, ← EReal.coe_mul, ← EReal.coe_mul, ← EReal.coe_add, _root_.add_mul]

/-- The ideal quotient of a real by a real that is not zero is real. -/
theorem div {x y : EReal} (hx : IsReal x) (hy : IsReal y) (h0 : y ≠ 0) : IsReal (Ideal.div x y) := by
  obtain ⟨a, rfl⟩ := hx
  obtain ⟨b, rfl⟩ := hy
  have hb : b ≠ 0 := fun h => h0 (by rw [h]; rfl)
  rw [Ideal.div_coe hb, ← EReal.coe_mul]
  exact ⟨_, rfl⟩

end IsReal

/-- Two sums of products against one real vector, with a term between them, are one sum of products of the summed
    coefficients, plus the term: `((∑ a·y) + x) + ∑ b·y = (∑ (a + b)·y) + x` when every `a k`, `b k`, `y k` is real. -/
theorem sum_regroup {K : Type} [Fintype K] (a b y : K → EReal) (x : EReal) (ha : ∀ k, IsReal (a k))
    (hb : ∀ k, IsReal (b k)) (hy : ∀ k, IsReal (y k)) :
    ((∑ k, a k * y k) + x) + ∑ k, b k * y k = (∑ k, (a k + b k) * y k) + x := by
  rw [add_right_comm, ← Finset.sum_add_distrib]
  congr 1
  exact Finset.sum_congr rfl fun k _ => (IsReal.add_mul (ha k) (hb k) (hy k)).symm

/-- The f32 word of -1.0 is the real -1. -/
theorem ofBits_neg_one_f32 : Ideal.ofBits .f32 0xBF800000#32 = ((-(1 : ℝ)) : EReal) := by
  simp [Ideal.ofBits, Ideal.ieee, -EReal.coe_mul, -EReal.coe_neg]; norm_num

/-- The f32 word of 1.0 is real. -/
theorem isReal_one : IsReal (Ideal.ofBits .f32 0x3F800000#32) := ⟨1, by rw [Ideal.ofBits_one_f32]; rfl⟩

/-- The f32 nearest 1/3 is real. -/
theorem isReal_alpha : IsReal (Ideal.ofBits .f32 0x3EAAAAAB#32) := by
  simp [IsReal, Ideal.ofBits, Ideal.ieee, -EReal.coe_mul]

/-- The f32 nearest 2/3 is real. -/
theorem isReal_c23 : IsReal (Ideal.ofBits .f32 0x3F2AAAAB#32) := by
  simp [IsReal, Ideal.ofBits, Ideal.ieee, -EReal.coe_mul]

/-- For a real `q` that is not zero, `a * q^(-1)` is the ideal quotient `a / q`: a real to the power -1 is its inverse. -/
theorem mul_pow_neg_one (a : EReal) {q : EReal} (hq : IsReal q) (h0 : q ≠ 0) :
    a * Ideal.pow q (Ideal.ofBits .f32 0xBF800000#32) = Ideal.div a q := by
  obtain ⟨b, rfl⟩ := hq
  have hb : b ≠ 0 := fun h => h0 (by rw [h]; rfl)
  rw [ofBits_neg_one_f32, ← EReal.coe_neg, Ideal.pow_coe_coe, Ideal.div_coe hb, one_div]
  congr 2
  exact Real.rpow_neg_one b

end Cert.GraphConv

end
-- ==== Proof.SpecReal.lean ====
/-
  The specification's intermediate values are real when the inputs are.

  Under the hypotheses that every entry of the six argument arrays is real and that D_beta + D_gamma + I is nowhere
  zero, the summed adjacency S, the divisor 1·D_beta + 1·D_gamma + I (which is then not zero), the quotient q, and
  the first step's two arrays S·X + X and c·X + q·(S·X + X) have only real entries: each is built from reals by
  sums, products, finite sums and a quotient by a real that is not zero.
-/
import proofs.«141685_g10428180595104_week1_w2_90_17_alg».proof.Proof.Spec
import proofs.«141685_g10428180595104_week1_w2_90_17_alg».proof.Proof.RealFacts

noncomputable section

namespace Cert.GraphConv

open Idealize.ShloMosaic Idealize.ShloMosaic.ValueIdx Cert.GraphConv.Spec

/-- Every entry of the six argument arrays is real, and D_beta + D_gamma + I is nowhere zero. -/
structure RealInputs (X : Mat 4096 64) (Ab Ag Db Dg Im : Mat 4096 4096) : Prop where
  hX : ∀ i, IsReal (X i)
  hAb : ∀ i, IsReal (Ab i)
  hAg : ∀ i, IsReal (Ag i)
  hDb : ∀ i, IsReal (Db i)
  hDg : ∀ i, IsReal (Dg i)
  hIm : ∀ i, IsReal (Im i)
  hQ : ∀ i, Db i + Dg i + Im i ≠ 0

variable {X : Mat 4096 64} {Ab Ag Db Dg Im : Mat 4096 4096}

/-- The divisor 1·D_beta + 1·D_gamma + I is real. -/
theorem RealInputs.isReal_Q (h : RealInputs X Ab Ag Db Dg Im) (j : (⟨2, ![4096, 4096]⟩ : Shape).Idx) :
    IsReal (one * Db j + one * Dg j + Im j) :=
  ((isReal_one.mul (h.hDb j)).add (isReal_one.mul (h.hDg j))).add (h.hIm j)

/-- The divisor 1·D_beta + 1·D_gamma + I is not zero: the word of 1.0 is 1. -/
theorem RealInputs.Q_ne (h : RealInputs X Ab Ag Db Dg Im) (j : (⟨2, ![4096, 4096]⟩ : Shape).Idx) :
    one * Db j + one * Dg j + Im j ≠ 0 := by
  rw [show one = (1 : EReal) from Ideal.ofBits_one_f32, one_mul, one_mul]
  exact h.hQ j

theorem RealInputs.isReal_S (h : RealInputs X Ab Ag Db Dg Im) (r k : Fin 4096) : IsReal (S Ab Ag r k) :=
  (isReal_one.mul (h.hAb _)).add (isReal_one.mul (h.hAg _))

theorem RealInputs.isReal_qs (h : RealInputs X Ab Ag Db Dg Im) (r k : Fin 4096) : IsReal (qs Db Dg Im r k) :=
  IsReal.div isReal_alpha (h.isReal_Q _) (h.Q_ne _)

theorem RealInputs.isReal_yhat1 (h : RealInputs X Ab Ag Db Dg Im) (r : Fin 4096) (c : Fin 64) :
    IsReal (yhat1 X Ab Ag r c) :=
  (IsReal.sum _ _ fun k _ => (h.isReal_S r k).mul (h.hX _)).add (h.hX _)

theorem RealInputs.isReal_y1 (h : RealInputs X Ab Ag Db Dg Im) (r : Fin 4096) (c : Fin 64) :
    IsReal (y1 X Ab Ag Db Dg Im r c) :=
  (isReal_c23.mul (h.hX _)).add (IsReal.sum _ _ fun k _ => (h.isReal_qs r k).mul (h.isReal_yhat1 k c))

end Cert.GraphConv

end
-- ==== Proof.PreFacts.lean ====
/-
  What the precondition says of the argument arrays.

  The precondition is a conjunction of seven tests, each a conjunction over all entries of an array: for each of
  the six arguments, |x| < +inf at every entry; and D_beta + D_gamma + I ≠ 0 at every entry. On the extended reals
  an x with max x (-x) below the top element is neither infinity, so it is a real number. Hence, when the
  precondition's value is 1: every entry of every argument is real, and D_beta + D_gamma + I is nowhere zero.
-/
import proofs.«141685_g10428180595104_week1_w2_90_17_alg».proof.Pre_finite_inputs
import proofs.«141685_g10428180595104_week1_w2_90_17_alg».proof.Proof.SpecReal
import Idealize.ShloMosaic.Lib.ReduceAll
import Idealize.ShloMosaic.Lib.ValueIdx
import Idealize.ShloMosaic.PureOps.Ideal.Laws

noncomputable section

namespace Cert.GraphConv

open Idealize.ShloMosaic Idealize.ShloMosaic.ValueIdx

/-- The f32 word of +inf is the top element. -/
theorem ofBits_inf_f32 : Ideal.ofBits .f32 0x7F800000#32 = ⊤ := by simp [Ideal.ofBits, Ideal.ieee]

/-- An extended real whose absolute value is below +inf is a real number. -/
theorem isReal_of_abs_lt (x : EReal)
    (h : FloatOps.cmpf (F := Ideal) (φ := .f32) .olt (FloatOps.hostAbsf (F := Ideal) (φ := .f32) x)
      (FloatOps.ofBits (F := Ideal) .f32 0x7F800000#32) = 1#1) : IsReal x := by
  rw [Ideal.cmpf_def, Ideal.hostAbsf_def, Ideal.absf_def, Ideal.ofBits_def, ofBits_inf_f32] at h
  induction x using EReal.rec with
  | bot => simp [Ideal.cmp] at h
  | coe r => exact ⟨r, rfl⟩
  | top => simp [Ideal.cmp] at h

/-- An extended real that the comparison finds different from the zero word is not zero. -/
theorem ne_zero_of_une (x : EReal)
    (h : FloatOps.cmpf (F := Ideal) (φ := .f32) .une x (FloatOps.ofBits (F := Ideal) .f32 0x00000000#32) = 1#1) :
    x ≠ 0 := by
  rintro rfl
  rw [Ideal.cmpf_def, Ideal.ofBits_def, Ideal.ofBits_zero_f32] at h
  simp [Ideal.cmp] at h

/-- The result of a conjunction over all entries has one index. -/
instance : Subsingleton Cert.Pre_finite_inputs.S_.Idx := ⟨fun a b => funext fun d => d.elim0⟩

/-- Under the precondition every entry of the six argument arrays is real and D_beta + D_gamma + I is nowhere zero. -/
theorem realInputs_of_pre [Cert.Pre_finite_inputs.Facts] (X : FVec Ideal Cert.Pre_finite_inputs.S4096x64 .f32)
    (Ab Ag Db Dg Im : FVec Ideal Cert.Pre_finite_inputs.S4096x4096 .f32)
    (h : Cert.Pre_finite_inputs.fn (F := Ideal) X Ab Ag Db Dg Im = fun _ => 1#1) :
    RealInputs X Ab Ag Db Dg Im := by
  have h0 := congrFun h ValueIdx.ix0
  dsimp only [Cert.Pre_finite_inputs.fn, Cert.Pre_finite_inputs.fn_part1, Cert.Pre_finite_inputs.fn_part2] at h0
  have e : ∀ (x y : IVec Cert.Pre_finite_inputs.S_ 1), andi x y ix0 = IntOp.andi (x ix0) (y ix0) := fun _ _ => rfl
  rw [e] at h0
  obtain ⟨h0, hQ⟩ := IntOp.andi_eq_one.1 h0
  rw [e] at h0
  obtain ⟨h0, hIm⟩ := IntOp.andi_eq_one.1 h0
  rw [e] at h0
  obtain ⟨h0, hDg⟩ := IntOp.andi_eq_one.1 h0
  rw [e] at h0
  obtain ⟨h0, hDb⟩ := IntOp.andi_eq_one.1 h0
  rw [e] at h0
  obtain ⟨h0, hAg⟩ := IntOp.andi_eq_one.1 h0
  rw [e] at h0
  obtain ⟨hX, hAb⟩ := IntOp.andi_eq_one.1 h0
  exact
    { hX := fun i => isReal_of_abs_lt _ (Host.reduce_andi_all _ _ _ _ _ hX i)
      hAb := fun i => isReal_of_abs_lt _ (Host.reduce_andi_all _ _ _ _ _ hAb i)
      hAg := fun i => isReal_of_abs_lt _ (Host.reduce_andi_all _ _ _ _ _ hAg i)
      hDb := fun i => isReal_of_abs_lt _ (Host.reduce_andi_all _ _ _ _ _ hDb i)
      hDg := fun i => isReal_of_abs_lt _ (Host.reduce_andi_all _ _ _ _ _ hDg i)
      hIm := fun i => isReal_of_abs_lt _ (Host.reduce_andi_all _ _ _ _ _ hIm i)
      hQ := fun i => ne_zero_of_une _ (Host.reduce_andi_all _ _ _ _ _ hQ i) }

end Cert.GraphConv

end
-- ==== Proof.RefValue.lean ====
/-
  The reference's value is the specification.

  Under the hypotheses that every entry of the six argument arrays is real and that D_beta + D_gamma + I is nowhere
  zero, the reference's arrays are, entry by entry, the specification's:
    α · Q^(-1) = α / Q, because a real that is not zero to the power -1 is its inverse;
    ((1·A_beta) · Y + X) + (1·A_gamma) · Y = (1·A_beta + 1·A_gamma) · Y + X for a real array Y, by commutativity of the
    sum and distributivity of the product over it on reals, term by term under the finite sum;
  so the first step's result is the specification's y1 (at Y = X), and, y1 being real, the second step's result is
  the specification's out. The precondition gives the hypotheses, so under it the reference's result array is the
  specification read at each index.
-/
import proofs.«141685_g10428180595104_week1_w2_90_17_alg».proof.Proof.RefRead
import proofs.«141685_g10428180595104_week1_w2_90_17_alg».proof.Proof.PreFacts

noncomputable section

namespace Cert.GraphConv.RefValue

open Cert.ReferenceIdeal Cert.ReferenceIdeal.Read Idealize.ShloMosaic Idealize.ShloMosaic.ValueIdx Cert.GraphConv.Spec
open Idealize.ShloMosaic.TcCoe Idealize.SL.Sem

variable [Cert.ReferenceIdeal.Facts]

variable {X : Mat 4096 64} {Ab Ag Db Dg Im : Mat 4096 4096}

/-- The first step's α · Q^(-1) is the quotient α / Q. -/
theorem v19_eq_qs (h : RealInputs X Ab Ag Db Dg Im) (r k : Fin 4096) :
    val_main_v19 (F := Ideal) Db Dg Im (ix2 r k) = qs Db Dg Im r k := by
  rw [v19_apply, qs]
  exact mul_pow_neg_one _ (h.isReal_Q _) (h.Q_ne _)

/-- The second step's α · Q^(-1) is the same quotient. -/
theorem v35_eq_qs (h : RealInputs X Ab Ag Db Dg Im) (r k : Fin 4096) :
    val_main_v35 (F := Ideal) Db Dg Im (ix2 r k) = qs Db Dg Im r k := by
  rw [v35_apply, qs]
  exact mul_pow_neg_one _ (h.isReal_Q _) (h.Q_ne _)

/-- ((1·A_beta) · X + X) + (1·A_gamma) · X is S · X + X. -/
theorem v13_eq_yhat1 (h : RealInputs X Ab Ag Db Dg Im) (r : Fin 4096) (c : Fin 64) :
    val_main_v13 (F := Ideal) X Ab Ag (ix2 r c) = yhat1 X Ab Ag r c := by
  rw [v13_apply]
  exact sum_regroup (fun k => one * Ab (ix2 r k)) (fun k => one * Ag (ix2 r k)) (fun k => X (ix2 k c)) (X (ix2 r c))
    (fun _ => isReal_one.mul (h.hAb _)) (fun _ => isReal_one.mul (h.hAg _)) (fun _ => h.hX _)

/-- The first step's result is the specification's. -/
theorem v21_eq_y1 (h : RealInputs X Ab Ag Db Dg Im) (r : Fin 4096) (c : Fin 64) :
    val_main_v21 (F := Ideal) X Ab Ag Db Dg Im (ix2 r c) = y1 X Ab Ag Db Dg Im r c := by
  rw [v21_apply, y1]
  congr 1
  exact Finset.sum_congr rfl fun k _ => by rw [v19_eq_qs h, v13_eq_yhat1 h]

/-- ((1·A_beta) · Y + X) + (1·A_gamma) · Y at the first step's result Y, which is real, is S · Y + X. -/
theorem v29_eq_yhat2 (h : RealInputs X Ab Ag Db Dg Im) (r : Fin 4096) (c : Fin 64) :
    val_main_v29 (F := Ideal) X Ab Ag Db Dg Im (ix2 r c) = yhat2 X Ab Ag Db Dg Im r c := by
  rw [v29_apply]
  simp only [v21_eq_y1 h]
  exact sum_regroup (fun k => one * Ab (ix2 r k)) (fun k => one * Ag (ix2 r k)) (fun k => y1 X Ab Ag Db Dg Im k c)
    (X (ix2 r c)) (fun _ => isReal_one.mul (h.hAb _)) (fun _ => isReal_one.mul (h.hAg _)) (fun k => h.isReal_y1 k c)

/-- The second step's result, the reference's value, is the specification's. -/
theorem v37_eq_out (h : RealInputs X Ab Ag Db Dg Im) (r : Fin 4096) (c : Fin 64) :
    val_main_v37 (F := Ideal) X Ab Ag Db Dg Im (ix2 r c) = out X Ab Ag Db Dg Im r c := by
  rw [v37_apply, out, v21_eq_y1 h]
  congr 1
  exact Finset.sum_congr rfl fun k _ => by rw [v35_eq_qs h, v29_eq_yhat2 h]

/-- Under the precondition the reference's last stage is the specification, as arrays. -/
theorem val_eq_spec [Cert.Pre_finite_inputs.Facts] (X : FVec Ideal S4096x64 .f32) (Ab Ag Db Dg Im : FVec Ideal S4096x4096 .f32)
    (hpre : Cert.Pre_finite_inputs.fn (F := Ideal) X Ab Ag Db Dg Im = fun _ => 1#1) :
    val_main_v37 (F := Ideal) X Ab Ag Db Dg Im = fun i => Spec.out X Ab Ag Db Dg Im (i 0) (i 1) := by
  funext i
  have h : RealInputs X Ab Ag Db Dg Im := realInputs_of_pre X Ab Ag Db Dg Im hpre
  exact (congrArg (val_main_v37 (F := Ideal) X Ab Ag Db Dg Im) (eq_ix2 i)).trans (v37_eq_out h (i 0) (i 1))

/-- Under the precondition on a memory's argument arrays, the result the reference's run leaves is the
    specification of those arrays, read at each index. -/
theorem res_eq_spec [Cert.Pre_finite_inputs.Facts] (m : (ℓ : Loc nD τ sig) → Buf (Elt Ideal) ℓ) (c : Dev nD)
    (hpre : Cert.Pre_finite_inputs.fn (F := Ideal) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) = fun _ => 1#1) :
    Cert.ReferenceIdeal.Value.res_main_v37 (F := Ideal) m c
      = fun i => Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) (i 0) (i 1) :=
  (val_main_v37_eq m c).trans (val_eq_spec _ _ _ _ _ _ hpre)

end Cert.GraphConv.RefValue

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.PayIdeal.lean ====
/-
  The values the two kernel bodies compute, read at one entry, over the extended reals.

  Each payload of the two bodies is a pointwise combination of the loaded arrays, a change of element format
  (the identity on extended reals), a cast of a shape to itself (the identity), or a matrix product into a zero
  accumulator (the plain sum over the contracted index of the operands' products).  Read at the entry (p, q)
  this gives the closed forms below; the products contract the left operand's column with the right operand's row.
-/
import proofs.«141685_g10428180595104_week1_w2_90_17_alg».proof.Proof.Gen.KernelIdeal.Skeleton
import proofs.«141685_g10428180595104_week1_w2_90_17_alg».proof.Proof.Spec
import proofs.«141685_g10428180595104_week1_w2_90_17_alg».proof.Proof.LibMatmulSum
import Idealize.ShloMosaic.PureOps.Ideal.Laws
import Idealize.ShloMosaic.Lib.ValueIdx
import Idealize.ShloMosaic.Lib.Pipeline.Value

noncomputable section

namespace Cert.GraphConv.Pay

open Idealize.ShloMosaic Idealize.ShloMosaic.ValueIdx Cert.KernelIdeal Cert.KernelIdeal.Gen Cert.GraphConv

/-! ## The coordinate facts of the two dimension records -/

abbrev D512 := dot_S512x4096_S4096x64_S512x64_1_0_0_1_n_n
abbrev D128 := dot_S128x4096_S4096x64_S128x64_1_0_0_1_n_n

theorem d512_l0 (i : S512x64.Idx) (q : D512.contr.Idx) : (D512.lhsIdx i q 0).val = (i 0).val := by
  unfold DotDims.lhsIdx
  rw [dif_neg (show ¬(0 : Fin S512x4096.rank) ∈ D512.lhsBatch by decide), dif_pos (show (0 : Fin S512x4096.rank) ∈ D512.lhsNonContracting by decide)]
  rfl
theorem d512_l1 (i : S512x64.Idx) (q : D512.contr.Idx) : (D512.lhsIdx i q 1).val = (q ⟨0, by decide⟩).val :=
  D512.lhsIdx_val_of_single rfl i q
theorem d512_r0 (i : S512x64.Idx) (q : D512.contr.Idx) : (D512.rhsIdx i q 0).val = (q ⟨0, by decide⟩).val :=
  D512.rhsIdx_val_of_single rfl i q
theorem d512_r1 (i : S512x64.Idx) (q : D512.contr.Idx) : (D512.rhsIdx i q 1).val = (i 1).val := by
  unfold DotDims.rhsIdx
  rw [dif_neg (show ¬(1 : Fin S4096x64.rank) ∈ D512.rhsBatch by decide), dif_pos (show (1 : Fin S4096x64.rank) ∈ D512.rhsNonContracting by decide)]
  rfl

theorem d128_l0 (i : S128x64.Idx) (q : D128.contr.Idx) : (D128.lhsIdx i q 0).val = (i 0).val := by
  unfold DotDims.lhsIdx
  rw [dif_neg (show ¬(0 : Fin S128x4096.rank) ∈ D128.lhsBatch by decide), dif_pos (show (0 : Fin S128x4096.rank) ∈ D128.lhsNonContracting by decide)]
  rfl
theorem d128_l1 (i : S128x64.Idx) (q : D128.contr.Idx) : (D128.lhsIdx i q 1).val = (q ⟨0, by decide⟩).val :=
  D128.lhsIdx_val_of_single rfl i q
theorem d128_r0 (i : S128x64.Idx) (q : D128.contr.Idx) : (D128.rhsIdx i q 0).val = (q ⟨0, by decide⟩).val :=
  D128.rhsIdx_val_of_single rfl i q
theorem d128_r1 (i : S128x64.Idx) (q : D128.contr.Idx) : (D128.rhsIdx i q 1).val = (i 1).val := by
  unfold DotDims.rhsIdx
  rw [dif_neg (show ¬(1 : Fin S4096x64.rank) ∈ D128.rhsBatch by decide), dif_pos (show (1 : Fin S4096x64.rank) ∈ D128.rhsNonContracting by decide)]
  rfl

/-- The 512-row product into a zero accumulator, at the entry (p, c). -/
theorem matmul512 {φ₁ φ₂ : FTy} (l : FVec Ideal S512x4096 φ₁) (r : FVec Ideal S4096x64 φ₂) (p : Fin 512) (c : Fin 64) :
    FloatOps.matmul D512 none l r (constant (F := Ideal) S512x64 .f32 0x00000000#32) (ix2 p c)
      = ∑ k : Fin 4096, l (ix2 p k) * r (ix2 k c) :=
  matmul_zero_sum D512 none rfl rfl d512_l0 d512_l1 d512_r0 d512_r1 l r (ix2 p c)

/-- The 128-row product into a zero accumulator, at the entry (p, c). -/
theorem matmul128 {φ₁ φ₂ : FTy} (l : FVec Ideal S128x4096 φ₁) (r : FVec Ideal S4096x64 φ₂) (p : Fin 128) (c : Fin 64) :
    FloatOps.matmul D128 none l r (constant (F := Ideal) S128x64 .f32 0x00000000#32) (ix2 p c)
      = ∑ k : Fin 4096, l (ix2 p k) * r (ix2 k c) :=
  matmul_zero_sum D128 none rfl rfl d128_l0 d128_l1 d128_r0 d128_r1 l r (ix2 p c)

/-! ## The first body -/

theorem k0_pay1_apply (v0 v3 : FVec Ideal S512x4096 .f32) (p : Fin 512) (q : Fin 4096) :
    k0_pay1 (F := Ideal) v0 v3 (ix2 p q) = Spec.one * v0 (ix2 p q) + Spec.one * v3 (ix2 p q) := rfl

theorem k0_pay2_apply (v0 v3 : FVec Ideal S512x4096 .f32) (p : Fin 512) (q : Fin 4096) :
    k0_pay2 (F := Ideal) v0 v3 (ix2 p q) = Spec.one * v0 (ix2 p q) + Spec.one * v3 (ix2 p q) := rfl

theorem k0_pay3_apply (v0 v3 : FVec Ideal S512x4096 .f32) (v9 : FVec Ideal S4096x64 .f32) (v11 : FVec Ideal S512x64 .f32)
    (p : Fin 512) (c : Fin 64) :
    k0_pay3 (F := Ideal) v0 v3 v9 v11 (ix2 p c)
      = (∑ k : Fin 4096, k0_pay1 (F := Ideal) v0 v3 (ix2 p k) * v9 (ix2 k c)) + v11 (ix2 p c) := by
  unfold k0_pay3
  exact congrArg (· + v11 (ix2 p c)) (matmul512 (k0_pay1 (F := Ideal) v0 v3) v9 p c)

/-! ## The second body -/

theorem k1_pay1_apply (v10 v13 v17 : FVec Ideal S128x4096 .f32) (p : Fin 128) (q : Fin 4096) :
    k1_pay1 (F := Ideal) v10 v13 v17 (ix2 p q)
      = Ideal.div Spec.alpha (Spec.one * v10 (ix2 p q) + Spec.one * v13 (ix2 p q) + v17 (ix2 p q)) := rfl

theorem k1_pay2_eq (v10 v13 v17 : FVec Ideal S128x4096 .f32) :
    k1_pay2 (F := Ideal) v10 v13 v17 = k1_pay1 (F := Ideal) v10 v13 v17 :=
  shapeCast_self _ _

theorem k1_pay2_apply (v10 v13 v17 : FVec Ideal S128x4096 .f32) (p : Fin 128) (q : Fin 4096) :
    k1_pay2 (F := Ideal) v10 v13 v17 (ix2 p q)
      = Ideal.div Spec.alpha (Spec.one * v10 (ix2 p q) + Spec.one * v13 (ix2 p q) + v17 (ix2 p q)) := by
  rw [k1_pay2_eq]; rfl

theorem k1_pay3_apply (v10 v13 v17 : FVec Ideal S128x4096 .f32) (v26 : FVec Ideal S128x64 .f32) (v29 : FVec Ideal S4096x64 .bf16)
    (p : Fin 128) (c : Fin 64) :
    k1_pay3 (F := Ideal) v10 v13 v17 v26 v29 (ix2 p c)
      = Spec.c23 * v26 (ix2 p c) + ∑ k : Fin 4096, k1_pay1 (F := Ideal) v10 v13 v17 (ix2 p k) * v29 (ix2 k c) := by
  unfold k1_pay3
  have hc : shapeCast S4096x64 v29 shapeCasts_S4096x64_S4096x64 = v29 := shapeCast_self _ _
  rw [hc]
  exact congrArg (Spec.c23 * v26 (ix2 p c) + ·) (matmul128 (k1_pay1 (F := Ideal) v10 v13 v17) v29 p c)

theorem k1_pay4_eq (v10 v13 v17 : FVec Ideal S128x4096 .f32) (v26 : FVec Ideal S128x64 .f32) (v29 : FVec Ideal S4096x64 .bf16) :
    k1_pay4 (F := Ideal) v10 v13 v17 v26 v29 = k1_pay3 (F := Ideal) v10 v13 v17 v26 v29 :=
  shapeCast_self _ _

theorem k1_pay4_apply (v10 v13 v17 : FVec Ideal S128x4096 .f32) (v26 : FVec Ideal S128x64 .f32) (v29 : FVec Ideal S4096x64 .bf16)
    (p : Fin 128) (c : Fin 64) :
    k1_pay4 (F := Ideal) v10 v13 v17 v26 v29 (ix2 p c)
      = Spec.c23 * v26 (ix2 p c) + ∑ k : Fin 4096, k1_pay1 (F := Ideal) v10 v13 v17 (ix2 p k) * v29 (ix2 k c) := by
  rw [k1_pay4_eq]; exact k1_pay3_apply v10 v13 v17 v26 v29 p c

theorem k1_pay5_eq (v10 v13 v17 : FVec Ideal S128x4096 .f32) (v26 : FVec Ideal S128x64 .f32) (v29 : FVec Ideal S4096x64 .bf16) :
    k1_pay5 (F := Ideal) v10 v13 v17 v26 v29 = k1_pay3 (F := Ideal) v10 v13 v17 v26 v29 :=
  shapeCast_self _ _

theorem k1_pay5_apply (v10 v13 v17 : FVec Ideal S128x4096 .f32) (v26 : FVec Ideal S128x64 .f32) (v29 : FVec Ideal S4096x64 .bf16)
    (p : Fin 128) (c : Fin 64) :
    k1_pay5 (F := Ideal) v10 v13 v17 v26 v29 (ix2 p c)
      = Spec.c23 * v26 (ix2 p c) + ∑ k : Fin 4096, k1_pay1 (F := Ideal) v10 v13 v17 (ix2 p k) * v29 (ix2 k c) := by
  rw [k1_pay5_eq]; exact k1_pay3_apply v10 v13 v17 v26 v29 p c

theorem k1_pay6_apply (v10 : FVec Ideal S128x4096 .bf16) (v12 : FVec Ideal S4096x64 .bf16) (v14 : FVec Ideal S128x64 .f32)
    (p : Fin 128) (c : Fin 64) :
    k1_pay6 (F := Ideal) v10 v12 v14 (ix2 p c)
      = (∑ k : Fin 4096, v10 (ix2 p k) * v12 (ix2 k c)) + v14 (ix2 p c) := by
  unfold k1_pay6
  rw [shapeCast_self]
  have hc : shapeCast S128x4096 v10 shapeCasts_S128x4096_S128x4096 = v10 := shapeCast_self _ _
  rw [hc]
  exact congrArg (· + v14 (ix2 p c)) (matmul128 v10 v12 p c)

theorem k1_pay7_apply (v11 : FVec Ideal S128x64 .f32) (v15 : FVec Ideal S128x4096 .bf16) (v16 : FVec Ideal S4096x64 .bf16)
    (p : Fin 128) (c : Fin 64) :
    k1_pay7 (F := Ideal) v11 v15 v16 (ix2 p c)
      = Spec.c23 * v11 (ix2 p c) + ∑ k : Fin 4096, v15 (ix2 p k) * v16 (ix2 k c) := by
  unfold k1_pay7
  exact congrArg (Spec.c23 * v11 (ix2 p c) + ·) (matmul128 v15 v16 p c)

end Cert.GraphConv.Pay

end
-- ==== Proof.Arr0Ideal.lean ====
/-
  The arrays the first region leaves, over the extended reals, as functions of the argument arrays.

  A window's block at point t read at (p, q) is the array at row 512 t + p (windows 0, 1 and 3: the row blocks of the
  two adjacency matrices and of X) or the array itself (window 2: the whole of X).  With the payloads read at an index,
  the stacked summed matrix is S = 1·A_beta + 1·A_gamma entry by entry and the stacked product is S · X + X.
-/
import proofs.«141685_g10428180595104_week1_w2_90_17_alg».proof.Proof.Arr0
import proofs.«141685_g10428180595104_week1_w2_90_17_alg».proof.Proof.PayIdeal
import proofs.«141685_g10428180595104_week1_w2_90_17_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen
open Idealize.ShloMosaic.ValueIdx

open Cert.GraphConv Arr0

/-! ## A window's block read at an entry, for any float values -/

section AnyF

variable {F : FTy → Type} [FloatOps F]
variable (V : (c : Dev nD) → (b : Ref sig .tc) → Buf (Elt F) ((c : Thread nD τ).loc b))

namespace Arr0

/-- The row of the array that row p of point t's block is. -/
theorem row_lt (t : Fin cfg0.N) (p : Fin 512) : 512 * t.val + p.val < 4096 := by
  have hN : cfg0.N = 8 := N_0
  have := t.isLt
  omega

end Arr0

theorem iblk0_0_apply (c : Dev nD) (t : Fin cfg0.N) (p : Fin 512) (q : Fin 4096) :
    iblk0 V c 0 t (ix2 p q) = V c main_arg1 (ix2 ⟨512 * t.val + p.val, row_lt t p⟩ q) := by
  obtain ⟨e0, e1, -⟩ := idx_facts0 t
  show V c main_arg1 (((cfg0.win 0).blk t).view.emb (ix2 p q)) = _
  refine congrArg (V c main_arg1) (funext fun a => Fin.ext ?_)
  match a with
  | ⟨0, _⟩ => show win0_0.index t (0 : Fin 2) * 512 + 1 * p.val = 512 * t.val + p.val; omega
  | ⟨1, _⟩ => show win0_0.index t (1 : Fin 2) * 4096 + 1 * q.val = q.val; omega

theorem iblk0_1_apply (c : Dev nD) (t : Fin cfg0.N) (p : Fin 512) (q : Fin 4096) :
    iblk0 V c 1 t (ix2 p q) = V c main_arg2 (ix2 ⟨512 * t.val + p.val, row_lt t p⟩ q) := by
  obtain ⟨-, -, e0, e1, -⟩ := idx_facts0 t
  show V c main_arg2 (((cfg0.win 1).blk t).view.emb (ix2 p q)) = _
  refine congrArg (V c main_arg2) (funext fun a => Fin.ext ?_)
  match a with
  | ⟨0, _⟩ => show win0_1.index t (0 : Fin 2) * 512 + 1 * p.val = 512 * t.val + p.val; omega
  | ⟨1, _⟩ => show win0_1.index t (1 : Fin 2) * 4096 + 1 * q.val = q.val; omega

theorem iblk0_2_apply (c : Dev nD) (t : Fin cfg0.N) (k : Fin 4096) (cc : Fin 64) :
    iblk0 V c 2 t (ix2 k cc) = V c main_arg0 (ix2 k cc) := by
  obtain ⟨-, -, -, -, e0, e1, -⟩ := idx_facts0 t
  show V c main_arg0 (((cfg0.win 2).blk t).view.emb (ix2 k cc)) = _
  refine congrArg (V c main_arg0) (funext fun a => Fin.ext ?_)
  match a with
  | ⟨0, _⟩ => show win0_2.index t (0 : Fin 2) * 4096 + 1 * k.val = k.val; omega
  | ⟨1, _⟩ => show win0_2.index t (1 : Fin 2) * 64 + 1 * cc.val = cc.val; omega

theorem iblk0_3_apply (c : Dev nD) (t : Fin cfg0.N) (p : Fin 512) (cc : Fin 64) :
    iblk0 V c 3 t (ix2 p cc) = V c main_arg0 (ix2 ⟨512 * t.val + p.val, row_lt t p⟩ cc) := by
  obtain ⟨-, -, -, -, -, -, e0, e1, -⟩ := idx_facts0 t
  show V c main_arg0 (((cfg0.win 3).blk t).view.emb (ix2 p cc)) = _
  refine congrArg (V c main_arg0) (funext fun a => Fin.ext ?_)
  match a with
  | ⟨0, _⟩ => show win0_3.index t (0 : Fin 2) * 512 + 1 * p.val = 512 * t.val + p.val; omega
  | ⟨1, _⟩ => show win0_3.index t (1 : Fin 2) * 64 + 1 * cc.val = cc.val; omega

end AnyF

/-! ## The stacked arrays over the extended reals -/

section AtIdeal

variable (V : (c : Dev nD) → (b : Ref sig .tc) → Buf (Elt Ideal) ((c : Thread nD τ).loc b))

namespace Arr0

/-- The whole-block loads read the blocks. -/
theorem ld0_0 (c : Dev nD) (t : Fin cfg0.N) : View.ld (iblk0 V c 0 t) rW0 = (iblk0 V c 0 t : FVec Ideal S512x4096 .f32) :=
  View.ld_unit_zero (S := S512x4096) hz2 _ _
theorem ld0_1 (c : Dev nD) (t : Fin cfg0.N) : View.ld (iblk0 V c 1 t) rW0 = (iblk0 V c 1 t : FVec Ideal S512x4096 .f32) :=
  View.ld_unit_zero (S := S512x4096) hz2 _ _
theorem ld0_2 (c : Dev nD) (t : Fin cfg0.N) : View.ld (iblk0 V c 2 t) rX0 = (iblk0 V c 2 t : FVec Ideal S4096x64 .f32) :=
  View.ld_unit_zero (S := S4096x64) hz2 _ _
theorem ld0_3 (c : Dev nD) (t : Fin cfg0.N) : View.ld (iblk0 V c 3 t) rB0 = (iblk0 V c 3 t : FVec Ideal S512x64 .f32) :=
  View.ld_unit_zero (S := S512x64) hz2 _ _

/-- Row r is row r % 512 of point r / 512. -/
theorem row_split (r : Fin 4096) :
    (⟨512 * (⟨r.val / 512, pt_lt _ r.isLt⟩ : Fin cfg0.N).val + (⟨r.val % 512, Nat.mod_lt _ (by decide)⟩ : Fin 512).val,
        row_lt _ _⟩ : Fin 4096) = r :=
  Fin.ext (by show 512 * (r.val / 512) + r.val % 512 = r.val; omega)

end Arr0

/-- The stacked summed matrix is S = 1·A_beta + 1·A_gamma, entry by entry. -/
theorem Sarr_eq (c : Dev nD) (r k : Fin 4096) :
    Sarr V c (ix2 r k) = Spec.S (V c main_arg1) (V c main_arg2) r k := by
  rw [Sarr_apply V c ⟨r.val / 512, pt_lt _ r.isLt⟩ (ix2 ⟨r.val % 512, Nat.mod_lt _ (by decide)⟩ k) (ix2 r k)
    (by show r.val = 512 * (r.val / 512) + r.val % 512; omega) rfl]
  unfold sBlk0
  rw [ld0_0, ld0_1]
  refine (Pay.k0_pay2_apply _ _ _ _).trans ?_
  rw [iblk0_0_apply, iblk0_1_apply, row_split]
  rfl

/-- The stacked product is S · X + X, entry by entry. -/
theorem Yarr_eq (c : Dev nD) (r : Fin 4096) (cc : Fin 64) :
    Yarr V c (ix2 r cc) = Spec.yhat1 (V c main_arg0) (V c main_arg1) (V c main_arg2) r cc := by
  rw [Yarr_apply V c ⟨r.val / 512, pt_lt _ r.isLt⟩ (ix2 ⟨r.val % 512, Nat.mod_lt _ (by decide)⟩ cc) (ix2 r cc)
    (by show r.val = 512 * (r.val / 512) + r.val % 512; omega) rfl]
  unfold yBlk0
  rw [ld0_0, ld0_1, ld0_2, ld0_3]
  refine (Pay.k0_pay3_apply _ _ _ _ _ _).trans ?_
  rw [iblk0_3_apply, row_split]
  unfold Spec.yhat1 Spec.S
  refine congrArg (· + V c main_arg0 (ix2 r cc)) (Finset.sum_congr rfl fun k _ => ?_)
  rw [Pay.k0_pay1_apply, iblk0_0_apply, iblk0_1_apply, iblk0_2_apply, row_split]

end AtIdeal

end Cert.KernelIdeal.Hand

end
-- ==== Proof.Arr1Ideal.lean ====
/-
  The matrices the second region computes, over the extended reals, as functions of the arrays the region finds.

  A window's block at a point read at (p, q) is its array at row 128 b + p (b the window's block index there) or the
  array itself (the whole-array window).  With the payloads read at an index: the first sweep's three matrices are the
  scaled reciprocal q = α / (1·D_beta + 1·D_gamma + I) and the first update c·X + q · (S · X + X) (twice: the change of
  format is the identity here); the second sweep's is S · Y1 + X; the third sweep's, the result, is c·Y1 + q · (S · Y1 + X)
  — given that the two arrays the first region left are S and S · X + X.
-/
import proofs.«141685_g10428180595104_week1_w2_90_17_alg».proof.Proof.Arr1
import proofs.«141685_g10428180595104_week1_w2_90_17_alg».proof.Proof.PayIdeal
import proofs.«141685_g10428180595104_week1_w2_90_17_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen
open Idealize.ShloMosaic.ValueIdx

open Cert.GraphConv Arr1

/-! ## A window's block read at an entry, for any float values -/

namespace Arr1

theorem hz2 : (![0, 0] : Fin 2 → Nat) = fun _ => 0 := funext fun a => by fin_cases a <;> rfl

/-- The windows' block indices: windows 0, 1, 2 follow the row block in the first sweep, window 3 in the second, window 5
    in every sweep; window 4 is one whole-array block. -/
theorem idx_facts1 : ∀ t : Fin cfg1.N,
    (t.val / 32 = 0 → win1_0.index t (0 : Fin 2) = t.val % 32 ∧ win1_1.index t (0 : Fin 2) = t.val % 32
        ∧ win1_2.index t (0 : Fin 2) = t.val % 32)
    ∧ win1_0.index t (1 : Fin 2) = 0 ∧ win1_1.index t (1 : Fin 2) = 0 ∧ win1_2.index t (1 : Fin 2) = 0
    ∧ (t.val / 32 = 1 → win1_3.index t (0 : Fin 2) = t.val % 32) ∧ win1_3.index t (1 : Fin 2) = 0
    ∧ win1_4.index t (0 : Fin 2) = 0 ∧ win1_4.index t (1 : Fin 2) = 0
    ∧ win1_5.index t (0 : Fin 2) = t.val % 32 ∧ win1_5.index t (1 : Fin 2) = 0 :=
  (by decide +kernel : ∀ t : Fin grid1.N, _)

/-- The row of the array that row p of row block b is. -/
theorem row_lt1 (b : Fin 32) (p : Fin 128) : 128 * b.val + p.val < 4096 := by
  have := b.isLt; have := p.isLt; omega

theorem pt_div' (s : Fin 3) (b : Fin 32) : (pt s b).val / 32 = s.val := by
  have := b.isLt; show (32 * s.val + b.val) / 32 = s.val; omega
theorem pt_mod' (s : Fin 3) (b : Fin 32) : (pt s b).val % 32 = b.val := by
  have := b.isLt; show (32 * s.val + b.val) % 32 = b.val; omega

end Arr1

section AnyF

variable {F : FTy → Type} [FloatOps F]
variable (V : (c : Dev nD) → (b : Ref sig .tc) → Buf (Elt F) ((c : Thread nD τ).loc b))

theorem iblk1_0_apply (c : Dev nD) (b : Fin 32) (p : Fin 128) (q : Fin 4096) :
    iblk1 V c 0 (pt 0 b) (ix2 p q) = V c main_arg3 (ix2 ⟨128 * b.val + p.val, row_lt1 b p⟩ q) := by
  obtain ⟨h0, e1, -⟩ := idx_facts1 (pt 0 b)
  obtain ⟨e0, -, -⟩ := h0 (pt_div' 0 b)
  have hm := pt_mod' 0 b
  show V c main_arg3 (((cfg1.win 0).blk (pt 0 b)).view.emb (ix2 p q)) = _
  refine congrArg (V c main_arg3) (funext fun a => Fin.ext ?_)
  match a with
  | ⟨0, _⟩ => show win1_0.index (pt 0 b) (0 : Fin 2) * 128 + 1 * p.val = 128 * b.val + p.val; omega
  | ⟨1, _⟩ => show win1_0.index (pt 0 b) (1 : Fin 2) * 4096 + 1 * q.val = q.val; omega

theorem iblk1_1_apply (c : Dev nD) (b : Fin 32) (p : Fin 128) (q : Fin 4096) :
    iblk1 V c 1 (pt 0 b) (ix2 p q) = V c main_arg4 (ix2 ⟨128 * b.val + p.val, row_lt1 b p⟩ q) := by
  obtain ⟨h0, -, e1, -⟩ := idx_facts1 (pt 0 b)
  obtain ⟨-, e0, -⟩ := h0 (pt_div' 0 b)
  have hm := pt_mod' 0 b
  show V c main_arg4 (((cfg1.win 1).blk (pt 0 b)).view.emb (ix2 p q)) = _
  refine congrArg (V c main_arg4) (funext fun a => Fin.ext ?_)
  match a with
  | ⟨0, _⟩ => show win1_1.index (pt 0 b) (0 : Fin 2) * 128 + 1 * p.val = 128 * b.val + p.val; omega
  | ⟨1, _⟩ => show win1_1.index (pt 0 b) (1 : Fin 2) * 4096 + 1 * q.val = q.val; omega

theorem iblk1_2_apply (c : Dev nD) (b : Fin 32) (p : Fin 128) (q : Fin 4096) :
    iblk1 V c 2 (pt 0 b) (ix2 p q) = V c main_arg5 (ix2 ⟨128 * b.val + p.val, row_lt1 b p⟩ q) := by
  obtain ⟨h0, -, -, e1, -⟩ := idx_facts1 (pt 0 b)
  obtain ⟨-, -, e0⟩ := h0 (pt_div' 0 b)
  have hm := pt_mod' 0 b
  show V c main_arg5 (((cfg1.win 2).blk (pt 0 b)).view.emb (ix2 p q)) = _
  refine congrArg (V c main_arg5) (funext fun a => Fin.ext ?_)
  match a with
  | ⟨0, _⟩ => show win1_2.index (pt 0 b) (0 : Fin 2) * 128 + 1 * p.val = 128 * b.val + p.val; omega
  | ⟨1, _⟩ => show win1_2.index (pt 0 b) (1 : Fin 2) * 4096 + 1 * q.val = q.val; omega

theorem iblk1_3_apply (c : Dev nD) (b : Fin 32) (p : Fin 128) (q : Fin 4096) :
    iblk1 V c 3 (pt 1 b) (ix2 p q) = V c main_v0_0 (ix2 ⟨128 * b.val + p.val, row_lt1 b p⟩ q) := by
  obtain ⟨-, -, -, -, h0, e1, -⟩ := idx_facts1 (pt 1 b)
  have e0 := h0 (pt_div' 1 b)
  have hm := pt_mod' 1 b
  show V c main_v0_0 (((cfg1.win 3).blk (pt 1 b)).view.emb (ix2 p q)) = _
  refine congrArg (V c main_v0_0) (funext fun a => Fin.ext ?_)
  match a with
  | ⟨0, _⟩ => show win1_3.index (pt 1 b) (0 : Fin 2) * 128 + 1 * p.val = 128 * b.val + p.val; omega
  | ⟨1, _⟩ => show win1_3.index (pt 1 b) (1 : Fin 2) * 4096 + 1 * q.val = q.val; omega

theorem iblk1_4_apply (c : Dev nD) (t : Fin cfg1.N) (k : Fin 4096) (cc : Fin 64) :
    iblk1 V c 4 t (ix2 k cc) = V c main_v0_1 (ix2 k cc) := by
  obtain ⟨-, -, -, -, -, -, e0, e1, -⟩ := idx_facts1 t
  show V c main_v0_1 (((cfg1.win 4).blk t).view.emb (ix2 k cc)) = _
  refine congrArg (V c main_v0_1) (funext fun a => Fin.ext ?_)
  match a with
  | ⟨0, _⟩ => show win1_4.index t (0 : Fin 2) * 4096 + 1 * k.val = k.val; omega
  | ⟨1, _⟩ => show win1_4.index t (1 : Fin 2) * 64 + 1 * cc.val = cc.val; omega

theorem iblk1_5_apply (c : Dev nD) (s : Fin 3) (b : Fin 32) (p : Fin 128) (cc : Fin 64) :
    iblk1 V c 5 (pt s b) (ix2 p cc) = V c main_arg0 (ix2 ⟨128 * b.val + p.val, row_lt1 b p⟩ cc) := by
  obtain ⟨-, -, -, -, -, -, -, -, e0, e1⟩ := idx_facts1 (pt s b)
  have hm := pt_mod' s b
  show V c main_arg0 (((cfg1.win 5).blk (pt s b)).view.emb (ix2 p cc)) = _
  refine congrArg (V c main_arg0) (funext fun a => Fin.ext ?_)
  match a with
  | ⟨0, _⟩ => show win1_5.index (pt s b) (0 : Fin 2) * 128 + 1 * p.val = 128 * b.val + p.val; omega
  | ⟨1, _⟩ => show win1_5.index (pt s b) (1 : Fin 2) * 64 + 1 * cc.val = cc.val; omega

/-- A load of the rows of row block b of a 4096-row matrix reads the matrix at row 128 b + p. -/
theorem ld_rows64 {e : EltTy} (M : S4096x64.Idx → Elt F e) (b : Fin 32) (p : Fin 128) (cc : Fin 64) :
    View.ld (Val := Elt F) M (rRows64 b) (ix2 p cc) = M (ix2 ⟨128 * b.val + p.val, row_lt1 b p⟩ cc) := by
  show M ((rRows64 b).idx (ix2 p cc)) = _
  refine congrArg M (funext fun a => Fin.ext ?_)
  match a with
  | ⟨0, _⟩ => show 128 * b.val + 1 * p.val = 128 * b.val + p.val; omega
  | ⟨1, _⟩ => show 0 + 1 * cc.val = cc.val; omega

theorem ld_rows4096 {e : EltTy} (M : S4096x4096.Idx → Elt F e) (b : Fin 32) (p : Fin 128) (q : Fin 4096) :
    View.ld (Val := Elt F) M (rRows4096 b) (ix2 p q) = M (ix2 ⟨128 * b.val + p.val, row_lt1 b p⟩ q) := by
  show M ((rRows4096 b).idx (ix2 p q)) = _
  refine congrArg M (funext fun a => Fin.ext ?_)
  match a with
  | ⟨0, _⟩ => show 128 * b.val + 1 * p.val = 128 * b.val + p.val; omega
  | ⟨1, _⟩ => show 0 + 1 * q.val = q.val; omega

end AnyF

/-! ## The region's matrices over the extended reals -/

section AtIdeal

variable (V : (c : Dev nD) → (b : Ref sig .tc) → Buf (Elt Ideal) ((c : Thread nD τ).loc b))

namespace Arr1

/-- The whole-block loads read the blocks. -/
theorem ld1_0 (c : Dev nD) (t : Fin cfg1.N) : View.ld (iblk1 V c 0 t) rD1 = (iblk1 V c 0 t : FVec Ideal S128x4096 .f32) :=
  View.ld_unit_zero (S := S128x4096) hz2 _ _
theorem ld1_1 (c : Dev nD) (t : Fin cfg1.N) : View.ld (iblk1 V c 1 t) rD1 = (iblk1 V c 1 t : FVec Ideal S128x4096 .f32) :=
  View.ld_unit_zero (S := S128x4096) hz2 _ _
theorem ld1_2 (c : Dev nD) (t : Fin cfg1.N) : View.ld (iblk1 V c 2 t) rD1 = (iblk1 V c 2 t : FVec Ideal S128x4096 .f32) :=
  View.ld_unit_zero (S := S128x4096) hz2 _ _
theorem ld1_3 (c : Dev nD) (t : Fin cfg1.N) : View.ld (iblk1 V c 3 t) rD1 = (iblk1 V c 3 t : FVec Ideal S128x4096 .bf16) :=
  View.ld_unit_zero (S := S128x4096) hz2 _ _
theorem ld1_4 (c : Dev nD) (t : Fin cfg1.N) : View.ld (iblk1 V c 4 t) rY1 = (iblk1 V c 4 t : FVec Ideal S4096x64 .bf16) :=
  View.ld_unit_zero (S := S4096x64) hz2 _ _
theorem ld1_5 (c : Dev nD) (t : Fin cfg1.N) : View.ld (iblk1 V c 5 t) rB1 = (iblk1 V c 5 t : FVec Ideal S128x64 .f32) :=
  View.ld_unit_zero (S := S128x64) hz2 _ _
theorem ld1_whole {e : EltTy} (M : S4096x64.Idx → Elt Ideal e) : View.ld (Val := Elt Ideal) M rY1 = M :=
  View.ld_unit_zero (S := S4096x64) hz2 _ _

/-- Row r is row r % 128 of row block r / 128. -/
theorem row_split1 {C : ℕ} (r : Fin 4096) (k : Fin C) :
    (⟨128 * (rowBlk (ix2 r k)).val + (rowIn (ix2 r k)).val, row_lt1 _ _⟩ : Fin 4096) = r :=
  Fin.ext (by show 128 * (r.val / 128) + r.val % 128 = r.val; omega)

end Arr1

/-- The scaled reciprocal, entry by entry. -/
theorem QS_eq (c : Dev nD) (r k : Fin 4096) :
    QS V c (ix2 r k) = Spec.qs (V c main_arg3) (V c main_arg4) (V c main_arg5) r k := by
  show qsBlk V c (rowBlk (ix2 r k)) (ix2 (rowIn (ix2 r k)) k) = _
  unfold qsBlk
  rw [ld1_0, ld1_1, ld1_2]
  refine (Pay.k1_pay2_apply _ _ _ _ _).trans ?_
  rw [iblk1_0_apply, iblk1_1_apply, iblk1_2_apply, row_split1]
  rfl

variable (Ab Ag : Spec.Mat 4096 4096)

/-- The first update, entry by entry, if the second array the first region left is S · X + X. -/
theorem Y1_eq (c : Dev nD)
    (hY : ∀ (r : Fin 4096) (cc : Fin 64), V c main_v0_1 (ix2 r cc) = Spec.yhat1 (V c main_arg0) Ab Ag r cc)
    (r : Fin 4096) (cc : Fin 64) :
    Y1 V c (ix2 r cc) = Spec.y1 (V c main_arg0) Ab Ag (V c main_arg3) (V c main_arg4) (V c main_arg5) r cc := by
  show y1Blk V c (rowBlk (ix2 r cc)) (ix2 (rowIn (ix2 r cc)) cc) = _
  unfold y1Blk
  rw [ld1_0, ld1_1, ld1_2, ld1_4, ld1_5]
  refine (Pay.k1_pay4_apply _ _ _ _ _ _ _).trans ?_
  rw [iblk1_5_apply, row_split1]
  unfold Spec.y1 Spec.qs
  refine congrArg (Spec.c23 * V c main_arg0 (ix2 r cc) + ·) (Finset.sum_congr rfl fun k _ => ?_)
  rw [Pay.k1_pay1_apply, iblk1_0_apply, iblk1_1_apply, iblk1_2_apply, iblk1_4_apply, row_split1, hY]

/-- The first update rounded: the same over the extended reals. -/
theorem Y1B_eq (c : Dev nD)
    (hY : ∀ (r : Fin 4096) (cc : Fin 64), V c main_v0_1 (ix2 r cc) = Spec.yhat1 (V c main_arg0) Ab Ag r cc)
    (r : Fin 4096) (cc : Fin 64) :
    Y1B V c (ix2 r cc) = Spec.y1 (V c main_arg0) Ab Ag (V c main_arg3) (V c main_arg4) (V c main_arg5) r cc := by
  show y1bBlk V c (rowBlk (ix2 r cc)) (ix2 (rowIn (ix2 r cc)) cc) = _
  unfold y1bBlk
  rw [ld1_0, ld1_1, ld1_2, ld1_4, ld1_5]
  refine (Pay.k1_pay5_apply _ _ _ _ _ _ _).trans ?_
  rw [iblk1_5_apply, row_split1]
  unfold Spec.y1 Spec.qs
  refine congrArg (Spec.c23 * V c main_arg0 (ix2 r cc) + ·) (Finset.sum_congr rfl fun k _ => ?_)
  rw [Pay.k1_pay1_apply, iblk1_0_apply, iblk1_1_apply, iblk1_2_apply, iblk1_4_apply, row_split1, hY]

/-- The second propagated matrix, entry by entry, if the two arrays the first region left are S and S · X + X. -/
theorem YH2_eq (c : Dev nD)
    (hS : ∀ r k : Fin 4096, V c main_v0_0 (ix2 r k) = Spec.S Ab Ag r k)
    (hY : ∀ (r : Fin 4096) (cc : Fin 64), V c main_v0_1 (ix2 r cc) = Spec.yhat1 (V c main_arg0) Ab Ag r cc)
    (r : Fin 4096) (cc : Fin 64) :
    YH2 V c (ix2 r cc) = Spec.yhat2 (V c main_arg0) Ab Ag (V c main_arg3) (V c main_arg4) (V c main_arg5) r cc := by
  show yh2Blk V c (rowBlk (ix2 r cc)) (ix2 (rowIn (ix2 r cc)) cc) = _
  unfold yh2Blk
  rw [ld1_3, ld1_5, ld1_whole]
  refine (Pay.k1_pay6_apply _ _ _ _ _).trans ?_
  rw [iblk1_5_apply, row_split1]
  unfold Spec.yhat2
  refine congrArg (· + V c main_arg0 (ix2 r cc)) (Finset.sum_congr rfl fun k _ => ?_)
  rw [iblk1_3_apply, row_split1, hS, Y1B_eq V Ab Ag c hY]

/-- The result, entry by entry. -/
theorem OUT_eq (c : Dev nD)
    (hS : ∀ r k : Fin 4096, V c main_v0_0 (ix2 r k) = Spec.S Ab Ag r k)
    (hY : ∀ (r : Fin 4096) (cc : Fin 64), V c main_v0_1 (ix2 r cc) = Spec.yhat1 (V c main_arg0) Ab Ag r cc)
    (r : Fin 4096) (cc : Fin 64) :
    OUT V c (ix2 r cc) = Spec.out (V c main_arg0) Ab Ag (V c main_arg3) (V c main_arg4) (V c main_arg5) r cc := by
  show outBlk V c (rowBlk (ix2 r cc)) (ix2 (rowIn (ix2 r cc)) cc) = _
  unfold outBlk
  rw [ld1_whole]
  refine (Pay.k1_pay7_apply _ _ _ _ _).trans ?_
  rw [ld_rows64, row_split1, Y1_eq V Ab Ag c hY]
  unfold Spec.out
  refine congrArg (Spec.c23 * Spec.y1 (V c main_arg0) Ab Ag (V c main_arg3) (V c main_arg4) (V c main_arg5) r cc + ·)
    (Finset.sum_congr rfl fun k _ => ?_)
  rw [ld_rows4096, row_split1, QS_eq, YH2_eq V Ab Ag c hS hY]

end AtIdeal

end Cert.KernelIdeal.Hand

end
-- ==== Proof.Claims.lean ====
/-
  The claims, assembled.

  Both kernel programs (the word-level one and its reading over the extended reals) run as two kernel regions in a row; the
  run leaves every unscoped buffer at known contents: the arguments as launched, the result at the closed form of the
  two-step propagation. Each program's frame is that run with everything but the arguments dropped. The reference is a
  host program whose run and result are read off its operations.

  For the value claim: under the precondition every input entry is a real number and D_beta + D_gamma + I is nowhere
  zero, so the reference's α · Q^(-1) is the kernel's α / Q, and the reference's (A_beta · Y + X) + A_gamma · Y is the
  kernel's (A_beta + A_gamma) · Y + X; both results are then the same function of the arguments, entry by entry.
-/
import proofs.«141685_g10428180595104_week1_w2_90_17_alg».proof.Defs
import proofs.«141685_g10428180595104_week1_w2_90_17_alg».proof.Proof.Gen.Kernel
import proofs.«141685_g10428180595104_week1_w2_90_17_alg».proof.Proof.Gen.KernelIdeal
import proofs.«141685_g10428180595104_week1_w2_90_17_alg».proof.Proof.Gen.ReferenceIdeal
import proofs.«141685_g10428180595104_week1_w2_90_17_alg».proof.Proof.Gen.Pre_finite_inputs
import proofs.«141685_g10428180595104_week1_w2_90_17_alg».proof.Proof.Launch
import proofs.«141685_g10428180595104_week1_w2_90_17_alg».proof.Proof.Bits.Launch
import proofs.«141685_g10428180595104_week1_w2_90_17_alg».proof.Proof.RefValue
import proofs.«141685_g10428180595104_week1_w2_90_17_alg».proof.Proof.Arr0Ideal
import proofs.«141685_g10428180595104_week1_w2_90_17_alg».proof.Proof.Arr1Ideal

noncomputable section

namespace Cert.Proof.GraphConvClaims

open Idealize.ShloMosaic Idealize.ShloMosaic.TcCoe Idealize.SL.Sem Idealize.ShloMosaic.ValueIdx

/-- The word-level kernel program runs and leaves its arguments as launched. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W4_arg m c Cert.Kernel.main_arg0 (by decide) (by decide) (by decide)),
      (h c _ (Cert.Kernel.Hand.mem_uc Cert.Kernel.main_arg1 (by decide))).trans (Cert.Kernel.Hand.W4_arg m c Cert.Kernel.main_arg1 (by decide) (by decide) (by decide)),
      (h c _ (Cert.Kernel.Hand.mem_uc Cert.Kernel.main_arg2 (by decide))).trans (Cert.Kernel.Hand.W4_arg m c Cert.Kernel.main_arg2 (by decide) (by decide) (by decide)),
      (h c _ (Cert.Kernel.Hand.mem_uc Cert.Kernel.main_arg3 (by decide))).trans (Cert.Kernel.Hand.W4_arg m c Cert.Kernel.main_arg3 (by decide) (by decide) (by decide)),
      (h c _ (Cert.Kernel.Hand.mem_uc Cert.Kernel.main_arg4 (by decide))).trans (Cert.Kernel.Hand.W4_arg m c Cert.Kernel.main_arg4 (by decide) (by decide) (by decide)),
      (h c _ (Cert.Kernel.Hand.mem_uc Cert.Kernel.main_arg5 (by decide))).trans (Cert.Kernel.Hand.W4_arg m c Cert.Kernel.main_arg5 (by decide) (by decide) (by decide))⟩)
    (Cert.Kernel.Hand.run_all (F := Bits) m ρ)

/-- The kernel program read over the extended reals runs and leaves its arguments as launched. -/
theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W4_arg m c Cert.KernelIdeal.main_arg0 (by decide) (by decide) (by decide)),
      (h c _ (Cert.KernelIdeal.Hand.mem_uc Cert.KernelIdeal.main_arg1 (by decide))).trans (Cert.KernelIdeal.Hand.W4_arg m c Cert.KernelIdeal.main_arg1 (by decide) (by decide) (by decide)),
      (h c _ (Cert.KernelIdeal.Hand.mem_uc Cert.KernelIdeal.main_arg2 (by decide))).trans (Cert.KernelIdeal.Hand.W4_arg m c Cert.KernelIdeal.main_arg2 (by decide) (by decide) (by decide)),
      (h c _ (Cert.KernelIdeal.Hand.mem_uc Cert.KernelIdeal.main_arg3 (by decide))).trans (Cert.KernelIdeal.Hand.W4_arg m c Cert.KernelIdeal.main_arg3 (by decide) (by decide) (by decide)),
      (h c _ (Cert.KernelIdeal.Hand.mem_uc Cert.KernelIdeal.main_arg4 (by decide))).trans (Cert.KernelIdeal.Hand.W4_arg m c Cert.KernelIdeal.main_arg4 (by decide) (by decide) (by decide)),
      (h c _ (Cert.KernelIdeal.Hand.mem_uc Cert.KernelIdeal.main_arg5 (by decide))).trans (Cert.KernelIdeal.Hand.W4_arg m c Cert.KernelIdeal.main_arg5 (by decide) (by decide) (by decide))⟩)
    (Cert.KernelIdeal.Hand.run_all (F := Ideal) m ρ)

/-- The reference runs and leaves its arguments as launched: its run with the result dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- The idealization rewrote no operation: nothing to preserve. -/
theorem preserves : Cert.preserves_Kernel_KernelIdeal := trivial

/-- Both programs end with the same result, entry by entry, from memories agreeing on the arguments. -/
theorem algebraic : Cert.algebraic_KernelIdeal_ReferenceIdeal := by
  intro m ρ m' ρ' hpre hagree
  refine ⟨fun c => Cert.KernelIdeal.Hand.OUT (Cert.KernelIdeal.Hand.V3 m) c, ?_, ?_⟩
  · exact (θ_run (Cert.KernelIdeal.defs (F := Ideal)) _ _).mono (fun r h c =>
      ⟨(h c _ (Cert.KernelIdeal.Hand.mem_uc Cert.KernelIdeal.main_v1 (by decide))).trans (Cert.KernelIdeal.Hand.W4_v1 m c),
      (h c _ (Cert.KernelIdeal.Hand.mem_uc Cert.KernelIdeal.main_arg0 (by decide))).trans (Cert.KernelIdeal.Hand.W4_arg m c Cert.KernelIdeal.main_arg0 (by decide) (by decide) (by decide)),
      (h c _ (Cert.KernelIdeal.Hand.mem_uc Cert.KernelIdeal.main_arg1 (by decide))).trans (Cert.KernelIdeal.Hand.W4_arg m c Cert.KernelIdeal.main_arg1 (by decide) (by decide) (by decide)),
      (h c _ (Cert.KernelIdeal.Hand.mem_uc Cert.KernelIdeal.main_arg2 (by decide))).trans (Cert.KernelIdeal.Hand.W4_arg m c Cert.KernelIdeal.main_arg2 (by decide) (by decide) (by decide)),
      (h c _ (Cert.KernelIdeal.Hand.mem_uc Cert.KernelIdeal.main_arg3 (by decide))).trans (Cert.KernelIdeal.Hand.W4_arg m c Cert.KernelIdeal.main_arg3 (by decide) (by decide) (by decide)),
      (h c _ (Cert.KernelIdeal.Hand.mem_uc Cert.KernelIdeal.main_arg4 (by decide))).trans (Cert.KernelIdeal.Hand.W4_arg m c Cert.KernelIdeal.main_arg4 (by decide) (by decide) (by decide)),
      (h c _ (Cert.KernelIdeal.Hand.mem_uc Cert.KernelIdeal.main_arg5 (by decide))).trans (Cert.KernelIdeal.Hand.W4_arg m c Cert.KernelIdeal.main_arg5 (by decide) (by decide) (by decide))⟩)
      (Cert.KernelIdeal.Hand.run_all (F := Ideal) m ρ)
  · refine (θ_run (Cert.ReferenceIdeal.defs (F := Ideal)) _ _).mono (fun r h c => ⟨(h c).1.trans ?_, (h c).2⟩)
      (Cert.ReferenceIdeal.Value.run (F := Ideal) m' ρ')
    obtain ⟨a0, a1, a2, a3, a4, a5⟩ := hagree c
    have hpre' := hpre c
    rw [← a0, ← a1, ← a2, ← a3, ← a4, ← a5] at hpre'
    rw [Cert.GraphConv.RefValue.res_eq_spec m' c hpre']
    funext i
    obtain ⟨r, cc, rfl⟩ : ∃ (r : Fin 4096) (cc : Fin 64), i = ix2 r cc := ⟨i 0, i 1, eq_ix2 i⟩
    have hS : ∀ r k : Fin 4096, Cert.KernelIdeal.Hand.V3 m c Cert.KernelIdeal.main_v0_0 (ix2 r k)
        = Cert.GraphConv.Spec.S (m ((c.tc : Thread Cert.KernelIdeal.nD Cert.KernelIdeal.τ).loc Cert.KernelIdeal.main_arg1))
            (m ((c.tc : Thread Cert.KernelIdeal.nD Cert.KernelIdeal.τ).loc Cert.KernelIdeal.main_arg2)) r k := fun r k => by
      rw [show Cert.KernelIdeal.Hand.V3 m c Cert.KernelIdeal.main_v0_0 = Cert.KernelIdeal.Hand.Sarr (Cert.KernelIdeal.Hand.V1 m) c from Cert.KernelIdeal.Hand.W2_v0_0 m c]
      exact Cert.KernelIdeal.Hand.Sarr_eq (Cert.KernelIdeal.Hand.V1 m) c r k
    have hY : ∀ (r : Fin 4096) (cc : Fin 64), Cert.KernelIdeal.Hand.V3 m c Cert.KernelIdeal.main_v0_1 (ix2 r cc)
        = Cert.GraphConv.Spec.yhat1 (Cert.KernelIdeal.Hand.V3 m c Cert.KernelIdeal.main_arg0)
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2)) r cc := fun r cc => by
      rw [show Cert.KernelIdeal.Hand.V3 m c Cert.KernelIdeal.main_v0_1 = Cert.KernelIdeal.Hand.Yarr (Cert.KernelIdeal.Hand.V1 m) c from Cert.KernelIdeal.Hand.W2_v0_1 m c,
        show Cert.KernelIdeal.Hand.V3 m c Cert.KernelIdeal.main_arg0 = Cert.KernelIdeal.Hand.V1 m c Cert.KernelIdeal.main_arg0 from
          Cert.KernelIdeal.Hand.W2_of_ne m c Cert.KernelIdeal.main_arg0 (by decide) (by decide)]
      exact Cert.KernelIdeal.Hand.Yarr_eq (Cert.KernelIdeal.Hand.V1 m) c r cc
    refine Eq.trans ?_ (Cert.KernelIdeal.Hand.OUT_eq (Cert.KernelIdeal.Hand.V3 m) _ _ c hS hY r cc).symm
    rw [show Cert.KernelIdeal.Hand.V3 m c Cert.KernelIdeal.main_arg0 = Cert.KernelIdeal.Hand.V1 m c Cert.KernelIdeal.main_arg0 from
          Cert.KernelIdeal.Hand.W2_of_ne m c Cert.KernelIdeal.main_arg0 (by decide) (by decide),
      show Cert.KernelIdeal.Hand.V3 m c Cert.KernelIdeal.main_arg3 = Cert.KernelIdeal.Hand.V1 m c Cert.KernelIdeal.main_arg3 from
          Cert.KernelIdeal.Hand.W2_of_ne m c Cert.KernelIdeal.main_arg3 (by decide) (by decide),
      show Cert.KernelIdeal.Hand.V3 m c Cert.KernelIdeal.main_arg4 = Cert.KernelIdeal.Hand.V1 m c Cert.KernelIdeal.main_arg4 from
          Cert.KernelIdeal.Hand.W2_of_ne m c Cert.KernelIdeal.main_arg4 (by decide) (by decide),
      show Cert.KernelIdeal.Hand.V3 m c Cert.KernelIdeal.main_arg5 = Cert.KernelIdeal.Hand.V1 m c Cert.KernelIdeal.main_arg5 from
          Cert.KernelIdeal.Hand.W2_of_ne m c Cert.KernelIdeal.main_arg5 (by decide) (by decide),
      a0, a1, a2, a3, a4, a5]
    rfl

end Cert.Proof.GraphConvClaims

end
-- ==== Proof.lean ====
/-
  The certificate of the two-step graph propagation kernel against its reference.

  The kernel computes, in two pipelined regions, S = A_beta + A_gamma and Y ← c·Y + q · (S · Y + X) twice from Y = X, with
  q = α / (D_beta + D_gamma + I) entrywise, keeping q and the intermediate products in scratch between grid points; the
  reference computes the same two steps on the host as (A_beta · Y + X) + A_gamma · Y and α · (D_beta + D_gamma + I)^(-1).
  Over the extended reals the two agree wherever every input is a real number and D_beta + D_gamma + I is nowhere zero
  (at a zero the reference's power is outside its domain), which is the precondition. The claims are proved in
  Proof/Claims.lean from the run of both regions (Proof/Launch.lean and its word-level twin) and the reference's value
  (Proof/RefValue.lean); here they are assembled behind the witnesses of the programs' stated side conditions.
-/
import proofs.«141685_g10428180595104_week1_w2_90_17_alg».proof.Defs
import proofs.«141685_g10428180595104_week1_w2_90_17_alg».proof.Proof.Gen.Kernel
import proofs.«141685_g10428180595104_week1_w2_90_17_alg».proof.Proof.Gen.KernelIdeal
import proofs.«141685_g10428180595104_week1_w2_90_17_alg».proof.Proof.Gen.ReferenceIdeal
import proofs.«141685_g10428180595104_week1_w2_90_17_alg».proof.Proof.Gen.Pre_finite_inputs
import proofs.«141685_g10428180595104_week1_w2_90_17_alg».proof.Proof.Gen.ReferenceIdeal.Run
import proofs.«141685_g10428180595104_week1_w2_90_17_alg».proof.Proof.Gen.ReferenceIdeal.Read
import proofs.«141685_g10428180595104_week1_w2_90_17_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    GraphConvClaims.frame_k, GraphConvClaims.frame_ki, GraphConvClaims.frame_ri, GraphConvClaims.preserves, GraphConvClaims.algebraic⟩

end Cert.Proof

end
